-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64 .f32) (main_arg6 : FVec F S64x40 .f32) (main_arg7 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1700000x64 : Shape := ⟨2, ![1700000, 64]⟩
abbrev S1x64 : Shape := ⟨2, ![1, 64]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩

abbrev nBuf : Space → Nat
  | .hbm => 76
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000x64, .f32⟩
  | .hbm, ⟨40, _⟩ => ⟨S_, .f32⟩
  | .hbm, ⟨41, _⟩ => ⟨S100000x64, .f32⟩
  | .hbm, ⟨42, _⟩ => ⟨S1700000x1, .i32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S1x64, .f32⟩
  | .hbm, ⟨60, _⟩ => ⟨S100000x40, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x40, .f32⟩
  | .hbm, ⟨70, _⟩ => ⟨S_, .f32⟩
  | .hbm, ⟨71, _⟩ => ⟨S100000x40, .f32⟩
  | .hbm, ⟨72, _⟩ => ⟨S1700000x1, .i32⟩
  | .hbm, ⟨73, _⟩ => ⟨S100000x40, .f32⟩
  | .hbm, ⟨74, _⟩ => ⟨S1x40, .f32⟩
  | .hbm, ⟨75, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S64x40, .f32⟩
  | .local _ .vmem, ⟨21, _⟩ => ⟨S5000x40, .f32⟩
  | .local _ .vmem, ⟨22, _⟩ => ⟨S5000x40, .f32⟩
  | .local _ .vmem, ⟨23, _⟩ => ⟨S5000x40, .f32⟩
  | .local _ .vmem, ⟨24, _⟩ => ⟨S5000x40, .f32⟩
  | .local _ .vmem, ⟨25, _⟩ => ⟨S5000x1, .f32⟩
  | .local _ .vmem, ⟨26, _⟩ => ⟨S5000x1, .f32⟩
  | .local _ .vmem, ⟨27, _⟩ => ⟨S1x40, .f32⟩
  | .local _ .vmem, ⟨28, _⟩ => ⟨S5000x40, .f32⟩
  | .local _ .vmem, ⟨29, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x40 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S64x40_S64x40_0_0 : ∀ a, (![0, 0] : Fin 2 → Nat) a + S64x40.size a ≤ S64x40.size a
  h_S64x40 : 0 < S64x40.numel
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  bcast_S_S100000x40 : S_.BroadcastsInDim S100000x40 (![] : Fin 0 → Fin S100000x40.rank)
  shapeCasts_S40_S1x40 : S40.ShapeCasts S1x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  shapeCasts_S5000x40_S5000x40 : S5000x40.ShapeCasts S5000x40
  scatter_S100000_S1700000x1_S1700000_n_0_0_1_wf : ScatterDims.WF S100000 S1700000x1 S1700000 [] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x40.size a ≤ S64x40.size a
  hwx2_3 : ∀ i : grid2.Coords, EltTy.bits .f32 = 32 ∨ (Rect.block (s := S64x40) S64x40.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x40.size a ≤ S100000x40.size a
  hwx2_4 : ∀ i : grid2.Coords, EltTy.bits .f32 = 32 ∨ (Rect.block (s := S100000x40) S5000x40.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x40.size a ≤ S100000x40.size a
  hwx3_3 : ∀ i : grid3.Coords, EltTy.bits .f32 = 32 ∨ (Rect.block (s := S100000x40) S5000x40.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S64x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S5000x40.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v50) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S5000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S1700000x1, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S1700000x1, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000x64, .f32⟩
  | .hbm, ⟨93, _⟩ => ⟨S100000x64, .f32⟩
  | .hbm, ⟨94, _⟩ => ⟨S100000x40, .f32⟩
  | .hbm, ⟨95, _⟩ => ⟨S1700000x1, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000x40, .f32⟩
  | .hbm, ⟨105, _⟩ => ⟨S1700000x40, .f32⟩
  | .hbm, ⟨106, _⟩ => ⟨S1700000x40, .f32⟩
  | .hbm, ⟨107, _⟩ => ⟨S_, .f32⟩
  | .hbm, ⟨108, _⟩ => ⟨S100000x40, .f32⟩
  | .hbm, ⟨109, _⟩ => ⟨S1700000x1, .i32⟩
  | .hbm, ⟨110, _⟩ => ⟨S100000x40, .f32⟩
  | .hbm, ⟨111, _⟩ => ⟨S1x40, .f32⟩
  | .hbm, ⟨112, _⟩ => ⟨S100000x40, .f32⟩
  | .hbm, ⟨113, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_12 : Ref sig .tc := ⟨.hbm, 96, rfl⟩
abbrev main_v68 : Ref sig .tc := ⟨.hbm, 97, rfl⟩
abbrev main_v69 : Ref sig .tc := ⟨.hbm, 98, rfl⟩
abbrev main_c_13 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.LibRowGatherScatter.lean ====
/-
  The host's row gather and row scatter-add, read at one index, for arrays of any sizes: a gather of whole
  rows `x[idx]` of a matrix `x : [N, C]` at a column of start indices `idx : [E, 1]`, and the scatter that adds the rows of
  `upd : [E, C]` into the rows of `x : [N, C]` those start indices name. A gather clamps its start index into the operand;
  a scatter does not: an update whose start index falls outside is dropped.
-/
import Idealize.ShloMosaic.Lib.ValueIdx
import Idealize.ShloMosaic.PureOps.Ideal

noncomputable section

open scoped BigOperators

namespace RowGatherScatter

open Idealize.ShloMosaic Idealize.ShloMosaic.ValueIdx

variable {N C E w : Nat}

/-! ## Row scatter-add -/

/-- The row a start index names for a scatter: entry `e` of the column of start indices read as a signed integer and
    NOT clamped; `none` when it falls outside `[0, N)` (such an update is dropped). -/
def rowOf (idx : IVec ⟨2, ![E, 1]⟩ w) (e : Fin E) : Option (Fin N) :=
  if h : 0 ≤ (idx (ix2 e 0)).toInt ∧ (idx (ix2 e 0)).toInt < N then some ⟨(idx (ix2 e 0)).toInt.toNat, by omega⟩ else none

/-- The dimension numbers of a scatter of whole rows: operand `[N, C]`, start indices `[E, 1]`, updates `[E, C]`; the
    updates' axis 1 is the window, operand axis 0 is the inserted one and the one the start index addresses. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section ScatterLiteral
variable (wf : ScatterDims.WF ⟨2, ![N, C]⟩ ⟨2, ![E, 1]⟩ ⟨2, ![E, C]⟩ [1] [0] [0] 1)

/-- On the row axis the window of update `(e, c)` starts at start index `e`, read signed. -/
theorem start0 (e : Fin E) (c : Fin C) (idx : IVec ⟨2, ![E, 1]⟩ w) :
    (rowScatterDims N C E wf).start (ix2 e c) idx 0 = (idx (ix2 e 0)).toInt := by
  unfold ScatterDims.start
  rw [dif_pos (show (0 : Fin 2) ∈ (rowScatterDims N C E wf).scatterDimsToOperandDims from List.mem_singleton.mpr rfl)]
  have hsi : (rowScatterDims N C E wf).siIdx (ix2 e c) ⟨List.idxOf (0 : Fin 2) (rowScatterDims N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at 0. -/
theorem start1 (e : Fin E) (c : Fin C) (idx : IVec ⟨2, ![E, 1]⟩ w) :
    (rowScatterDims N C E wf).start (ix2 e c) idx 1 = 0 := by
  unfold ScatterDims.start
  rw [dif_neg (show (1 : Fin 2) ∉ (rowScatterDims N C E wf).scatterDimsToOperandDims from
    (by decide : (1 : Fin 2) ∉ ([0] : List (Fin 2))))]

/-- The row axis is inserted: no window coordinate there. -/
theorem window0 (e : Fin E) (c : Fin C) : (rowScatterDims N C E wf).window (ix2 e c) 0 = 0 := by
  unfold ScatterDims.window
  rw [dif_neg (show (0 : Fin 2) ∉ (rowScatterDims N C E wf).sKept from
    (by decide : (0 : Fin 2) ∉ (List.finRange 2).filter (fun a => a ∉ ([0] : List (Fin 2)))))]

/-- On the column axis the window coordinate of update `(e, c)` is `c`. -/
theorem window1 (e : Fin E) (c : Fin C) : (rowScatterDims N C E wf).window (ix2 e c) 1 = c.val := by
  unfold ScatterDims.window
  rw [dif_pos (show (1 : Fin 2) ∈ (rowScatterDims N C E wf).sKept from
    (by decide : (1 : Fin 2) ∈ (List.finRange 2).filter (fun a => a ∉ ([0] : List (Fin 2)))))]
  rfl

/-- WHERE AN UPDATE LANDS: update `(e, c)` lands at `(n, c)` when start index `e` names row `n`, and nowhere when it
    names no row. -/
theorem resultIdx?_row (e : Fin E) (c : Fin C) (idx : IVec ⟨2, ![E, 1]⟩ w) :
    (rowScatterDims N C E wf).resultIdx? (ix2 e c) idx = (rowOf (N := N) idx e).map (fun n => ix2 n c) := by
  have hs0 := start0 wf e c idx
  have hs1 := start1 wf e c idx
  have hw0 := window0 wf e c
  have hw1 := window1 wf e c
  unfold ScatterDims.resultIdx?
  by_cases h : 0 ≤ (idx (ix2 e 0)).toInt ∧ (idx (ix2 e 0)).toInt < (N : ℤ)
  · have hr : rowOf (N := N) idx e = some ⟨(idx (ix2 e 0)).toInt.toNat, by omega⟩ := by
      unfold rowOf; exact dif_pos h
    rw [hr]
    split_ifs with hall
    · show some _ = some _
      refine congrArg some ?_
      funext a
      refine Fin.ext ?_
      match a with
      | ⟨0, _⟩ =>
        show ((rowScatterDims N C E wf).start (ix2 e c) idx 0 + ((rowScatterDims N C E wf).window (ix2 e c) 0 : ℤ)).toNat
          = (idx (ix2 e 0)).toInt.toNat
        rw [hs0, hw0]; simp
      | ⟨1, _⟩ =>
        show ((rowScatterDims N C E wf).start (ix2 e c) idx 1 + ((rowScatterDims N C E wf).window (ix2 e c) 1 : ℤ)).toNat
          = c.val
        rw [hs1, hw1]; simp
    · refine absurd (fun a => ?_) hall
      match a with
      | ⟨0, _⟩ =>
        show 0 ≤ (rowScatterDims N C E wf).start (ix2 e c) idx 0 + ((rowScatterDims N C E wf).window (ix2 e c) 0 : ℤ)
          ∧ (rowScatterDims N C E wf).start (ix2 e c) idx 0 + ((rowScatterDims N C E wf).window (ix2 e c) 0 : ℤ) < (N : ℤ)
        rw [hs0, hw0]; simpa using h
      | ⟨1, _⟩ =>
        show 0 ≤ (rowScatterDims N C E wf).start (ix2 e c) idx 1 + ((rowScatterDims N C E wf).window (ix2 e c) 1 : ℤ)
          ∧ (rowScatterDims N C E wf).start (ix2 e c) idx 1 + ((rowScatterDims N C E wf).window (ix2 e c) 1 : ℤ) < (C : ℤ)
        rw [hs1, hw1]
        have := c.isLt
        omega
  · have hr : rowOf (N := N) idx e = none := by
      unfold rowOf; exact dif_neg h
    rw [hr]
    split_ifs with hall
    · exfalso
      apply h
      have h0 : 0 ≤ (rowScatterDims N C E wf).start (ix2 e c) idx 0 + ((rowScatterDims N C E wf).window (ix2 e c) 0 : ℤ)
          ∧ (rowScatterDims N C E wf).start (ix2 e c) idx 0 + ((rowScatterDims N C E wf).window (ix2 e c) 0 : ℤ) < (N : ℤ) := hall 0
      rw [hs0, hw0] at h0
      simpa using h0
    · rfl

/-- THE ROW SCATTER-ADD READ AT `(n, c)`, for the literal dimension numbers, with the index given by its coordinates:
    the operand's entry plus the updates `upd (e, c)` over the start indices `e` that name row `n`. -/
theorem scatterAdd_rowDims_ix2 {φ : FTy} (x : FVec Ideal ⟨2, ![N, C]⟩ φ) (idx : IVec ⟨2, ![E, 1]⟩ w)
    (upd : FVec Ideal ⟨2, ![E, C]⟩ φ) (n : Fin N) (c : Fin C) :
    Host.scatterAdd (F := Ideal) (rowScatterDims N C E wf) x idx upd (ix2 n c)
      = x (ix2 n c) + ∑ e : Fin E, if rowOf idx e = some n then upd (ix2 e c) else 0 := by
  unfold Host.scatterAdd
  rw [Ideal.hostScatterAdd_def]
  unfold Ideal.hostScatterAdd
  refine congrArg (x (ix2 n c) + ·) ?_
  rw [Finset.sum_filter, sum_idx2]
  refine Finset.sum_congr rfl (fun e _ => ?_)
  have key : ∀ c' : Fin C, (rowScatterDims N C E wf).resultIdx? (ix2 e c') idx = (rowOf (N := N) idx e).map (fun m => ix2 m c') :=
    fun c' => resultIdx?_row wf e c' idx
  by_cases hr : rowOf idx e = some n
  · rw [if_pos hr, Finset.sum_eq_single c]
    · rw [if_pos]
      rw [key, hr]
      rfl
    · intro c' _ hc
      rw [if_neg]
      rw [key, hr]
      intro hEq
      apply hc
      have h1 : ix2 n c' = ix2 n c := Option.some.inj hEq
      exact congrFun h1 1
    · intro hn
      exact absurd (Finset.mem_univ _) hn
  · rw [if_neg hr]
    refine Finset.sum_eq_zero (fun c' _ => ?_)
    rw [if_neg]
    rw [key]
    intro hEq
    apply hr
    cases hro : rowOf (N := N) idx e with
    | none => rw [hro] at hEq; exact absurd hEq (by simp)
    | some m =>
      rw [hro] at hEq
      have h1 : ix2 m c' = ix2 n c := Option.some.inj hEq
      exact congrArg some (congrFun h1 0)

/-- The same at an index `i`. -/
theorem scatterAdd_rowDims {φ : FTy} (x : FVec Ideal ⟨2, ![N, C]⟩ φ) (idx : IVec ⟨2, ![E, 1]⟩ w)
    (upd : FVec Ideal ⟨2, ![E, C]⟩ φ) (i : (⟨2, ![N, C]⟩ : Shape).Idx) :
    Host.scatterAdd (F := Ideal) (rowScatterDims N C E wf) x idx upd i
      = x i + ∑ e : Fin E, if rowOf idx e = (some (i 0) : Option (Fin N)) then upd (ix2 e (i 1)) else 0 := by
  obtain ⟨n, c, rfl⟩ : ∃ (n : Fin N) (c : Fin C), i = ix2 n c := ⟨i 0, i 1, eq_ix2 i⟩
  exact scatterAdd_rowDims_ix2 wf x idx upd n c

end ScatterLiteral

/-- THE ROW SCATTER-ADD READ AT `(n, c)`, for ANY dimension numbers with the row scatter's fields (a record given by its
    fields: the four hypotheses then hold by `rfl`). The start index is read signed and not clamped (`rowOf`). -/
theorem scatterAdd_rows {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![E, 1]⟩ w)
    (upd : FVec Ideal ⟨2, ![E, C]⟩ φ) (i : (⟨2, ![N, C]⟩ : Shape).Idx) :
    Host.scatterAdd (F := Ideal) d x idx upd i
      = x i + ∑ e : Fin E, if rowOf idx e = (some (i 0) : Option (Fin N)) then upd (ix2 e (i 1)) else 0 := by
  obtain ⟨uw, iw, sd, iv, wf⟩ := d
  simp only at h1 h2 h3 h4
  subst h1 h2 h3 h4
  exact scatterAdd_rowDims wf x idx upd i

/-- The same with the index given by its coordinates. -/
theorem scatterAdd_rows_ix2 {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![E, 1]⟩ w)
    (upd : FVec Ideal ⟨2, ![E, C]⟩ φ) (n : Fin N) (c : Fin C) :
    Host.scatterAdd (F := Ideal) d x idx upd (ix2 n c)
      = x (ix2 n c) + ∑ e : Fin E, if rowOf idx e = some n then upd (ix2 e c) else 0 :=
  scatterAdd_rows d h1 h2 h3 h4 x idx upd (ix2 n c)

/-! ## Row gather -/

/-- The dimension numbers of a gather of whole rows: operand `[N, C]`, start indices `[E, 1]`, result `[E, C]`; the
    result's axis 1 is the offset axis, operand axis 0 is collapsed and is the one the start index addresses; a slice is
    one whole row. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section GatherLiteral
variable (wf : GatherDims.WF ⟨2, ![N, C]⟩ ⟨2, ![E, 1]⟩ ⟨2, ![E, C]⟩ [1] [0] [] [0] [] 1 ![1, C])

/-- THE ROW GATHER READ AT `(e, c)`, for the literal dimension numbers: the operand at row `idx[e, 0]`, read signed and
    clamped into `[0, N − 1]`, column `c`. -/
theorem gather_rowDims {α : Type} (hN : 0 < N) (x : (⟨2, ![N, C]⟩ : Shape).Idx → α) (idx : IVec ⟨2, ![E, 1]⟩ w)
    (j : (⟨2, ![E, C]⟩ : Shape).Idx) :
    Host.gather (rowGatherDims N C E wf) x idx j
      = x (ix2 ⟨min (idx (ix2 (j 0) 0)).toInt.toNat (N - 1), by omega⟩ (j 1)) := by
  unfold Host.gather
  congr 1
  funext a
  refine Fin.ext ?_
  match a with
  | ⟨0, _⟩ =>
    show (rowGatherDims N C E wf).start j idx 0 + (rowGatherDims N C E wf).batchCoord j 0
      + (rowGatherDims N C E wf).offCoord j 0 = min (idx (ix2 (j 0) 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx j ⟨List.idxOf (0 : Fin 2) (rowGatherDims N C E wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    show (rowGatherDims N C E wf).start j idx 1 + (rowGatherDims N C E wf).batchCoord j 1
      + (rowGatherDims N C E wf).offCoord j 1 = (j 1).val
    rw [GatherDims.batchCoord_eq_zero _ _ _ List.not_mem_nil]
    have hst : (rowGatherDims N C E wf).start j idx 1 = 0 := by
      unfold GatherDims.start
      rw [dif_neg (show (1 : Fin 2) ∉ (rowGatherDims N C E wf).startIndexMap from
        (by decide : (1 : Fin 2) ∉ ([0] : List (Fin 2))))]
    have hoff : (rowGatherDims N C E wf).offCoord j 1 = (j 1).val := by
      unfold GatherDims.offCoord
      rw [dif_pos (show (1 : Fin 2) ∈ (rowGatherDims N C E wf).sKept from
        (by decide : (1 : Fin 2) ∈ (List.finRange 2).filter (fun a => a ∉ ([0] ++ [] : List (Fin 2)))))]
      rfl
    rw [hst, hoff]
    simp only [Nat.zero_add, Nat.add_zero]

end GatherLiteral

/-- THE ROW GATHER READ AT `(e, c)`, for ANY dimension numbers with the row gather's fields (a record given by its fields: the seven
    hypotheses then hold by `rfl`). The start index is read signed and clamped into `[0, N − 1]`. -/
theorem gather_rows {α : Type} (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (hN : 0 < N) (x : (⟨2, ![N, C]⟩ : Shape).Idx → α) (idx : IVec ⟨2, ![E, 1]⟩ w)
    (j : (⟨2, ![E, C]⟩ : Shape).Idx) :
    Host.gather d x idx j = x (ix2 ⟨min (idx (ix2 (j 0) 0)).toInt.toNat (N - 1), by omega⟩ (j 1)) := by
  obtain ⟨od, cs, ob, sb, sm, iv, ss, wf⟩ := d
  simp only at h1 h2 h3 h4 h5 h6 h7
  subst h1 h2 h3 h4 h5 h6 h7
  exact gather_rowDims wf hN x idx j

end RowGatherScatter

end
-- ==== Proof.LibChebAlgebra.lean ====
/-
  General algebra of a Chebyshev graph-convolution layer over the extended reals, independent of any
  particular program: (1) arrays all of whose entries are real numbers (`IsReal`) and the operations that preserve this;
  (2) node-axis propagation along weighted edges (`prop`) and the feature-axis matrix product (`mm`), both as sums;
  (3) the two commute (`prop_mm`); (4) the degree-2 Chebyshev layer written "product first, then propagate" equals
  the layer written "propagate first, then product" (`cheb_layer`).
  Extended-real arithmetic is not a ring (⊤ + ⊥, 0 * ⊤), so every identity here is proved by moving to ℝ, where the
  arrays live once they are known to be real.
-/
import Idealize.ShloMosaic.Lib.ValueIdx

noncomputable section

open scoped BigOperators

namespace ChebAlgebra

open Idealize.ShloMosaic Idealize.ShloMosaic.ValueIdx

/-! ## (1) Arrays of real numbers -/

/-- Every entry of the extended-real array `v` is a real number (equivalently: none is ⊤ or ⊥). -/
def IsReal {ι : Type*} (v : ι → EReal) : Prop := ∀ i, ∃ r : ℝ, v i = (r : EReal)

/-- The coercion ℝ → EReal commutes with finite sums. -/
theorem coe_finset_sum {κ : Type*} (s : Finset κ) (f : κ → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The coercion ℝ → EReal commutes with `if … then … else 0`. -/
theorem coe_ite_zero (p : Prop) [Decidable p] (a : ℝ) :
    (((if p then a else 0 : ℝ)) : EReal) = if p then (a : EReal) else 0 := by
  split_ifs <;> simp

/-- The coercion ℝ → EReal commutes with `max`. -/
theorem coe_max (x y : ℝ) : ((max x y : ℝ) : EReal) = max (x : EReal) (y : EReal) :=
  Monotone.map_max EReal.coe_strictMono.monotone

/-- A real array is the coercion of an array of reals. -/
theorem IsReal.lift {ι : Type*} {v : ι → EReal} (h : IsReal v) : ∃ v' : ι → ℝ, v = fun i => ((v' i : ℝ) : EReal) := by
  choose v' hv using h
  exact ⟨v', funext hv⟩

/-- The coercion of an array of reals is a real array. -/
theorem isReal_coe {ι : Type*} (v : ι → ℝ) : IsReal (fun i => ((v i : ℝ) : EReal)) := fun i => ⟨v i, rfl⟩

/-- A constant array with a real value is real. -/
theorem isReal_const {ι : Type*} (r : ℝ) : IsReal (fun _ : ι => (r : EReal)) := fun _ => ⟨r, rfl⟩

/-- A constant array whose value is known to be real is real. -/
theorem isReal_const' {ι : Type*} {c : EReal} (h : ∃ r : ℝ, c = (r : EReal)) : IsReal (fun _ : ι => c) := fun _ => h

/-- Re-indexing (by any map) keeps an array real. -/
theorem IsReal.comp {ι κ : Type*} {v : ι → EReal} (h : IsReal v) (g : κ → ι) : IsReal (fun i => v (g i)) :=
  fun i => h (g i)

/-- A pointwise sum of real arrays is real. -/
theorem IsReal.add {ι : Type*} {a b : ι → EReal} (ha : IsReal a) (hb : IsReal b) : IsReal (fun i => a i + b i) := fun i => by
  obtain ⟨x, hx⟩ := ha i; obtain ⟨y, hy⟩ := hb i
  exact ⟨x + y, by show a i + b i = _; rw [hx, hy, EReal.coe_add]⟩

/-- A pointwise difference of real arrays is real. -/
theorem IsReal.sub {ι : Type*} {a b : ι → EReal} (ha : IsReal a) (hb : IsReal b) : IsReal (fun i => a i - b i) := fun i => by
  obtain ⟨x, hx⟩ := ha i; obtain ⟨y, hy⟩ := hb i
  exact ⟨x - y, by show a i - b i = _; rw [hx, hy, EReal.coe_sub]⟩

/-- A pointwise product of real arrays is real. -/
theorem IsReal.mul {ι : Type*} {a b : ι → EReal} (ha : IsReal a) (hb : IsReal b) : IsReal (fun i => a i * b i) := fun i => by
  obtain ⟨x, hx⟩ := ha i; obtain ⟨y, hy⟩ := hb i
  exact ⟨x * y, by show a i * b i = _; rw [hx, hy, EReal.coe_mul]⟩

/-- The pointwise negation of a real array is real. -/
theorem IsReal.neg {ι : Type*} {a : ι → EReal} (ha : IsReal a) : IsReal (fun i => - a i) := fun i => by
  obtain ⟨x, hx⟩ := ha i
  exact ⟨-x, by show - a i = _; rw [hx, EReal.coe_neg]⟩

/-- A pointwise maximum of real arrays is real. -/
theorem IsReal.max {ι : Type*} {a b : ι → EReal} (ha : IsReal a) (hb : IsReal b) : IsReal (fun i => max (a i) (b i)) := fun i => by
  obtain ⟨x, hx⟩ := ha i; obtain ⟨y, hy⟩ := hb i
  exact ⟨Max.max x y, by show Max.max (a i) (b i) = _; rw [hx, hy, coe_max]⟩

/-- A finite sum of real entries is real; only the summands over `s` need be real. -/
theorem isReal_sum' {ι κ : Type*} (s : Finset κ) (f : ι → κ → EReal) (h : ∀ i, ∀ k ∈ s, ∃ r : ℝ, f i k = (r : EReal)) :
    IsReal (fun i => ∑ k ∈ s, f i k) := by
  classical
  intro i
  show ∃ r : ℝ, ∑ k ∈ s, f i k = (r : EReal)
  induction s using Finset.induction_on with
  | empty => exact ⟨0, by simp⟩
  | insert a s ha ih =>
    obtain ⟨x, hx⟩ := h i a (Finset.mem_insert_self a s)
    obtain ⟨y, hy⟩ := ih (fun i k hk => h i k (Finset.mem_insert_of_mem hk))
    exact ⟨x + y, by rw [Finset.sum_insert ha, hx, hy, EReal.coe_add]⟩

/-- A finite sum of real entries is real. -/
theorem isReal_sum {ι κ : Type*} (s : Finset κ) (f : ι → κ → EReal) (h : ∀ i k, ∃ r : ℝ, f i k = (r : EReal)) :
    IsReal (fun i => ∑ k ∈ s, f i k) :=
  isReal_sum' s f (fun i k _ => h i k)

/-- A finite sum of `if p then (a real entry) else 0` is real. -/
theorem isReal_sum_ite {ι κ : Type*} (s : Finset κ) (p : ι → κ → Prop) [∀ i k, Decidable (p i k)] (f : ι → κ → EReal)
    (h : ∀ i k, ∃ r : ℝ, f i k = (r : EReal)) : IsReal (fun i => ∑ k ∈ s, if p i k then f i k else 0) :=
  isReal_sum s _ (fun i k => by
    split_ifs
    · exact h i k
    · exact ⟨0, rfl⟩)

/-! ## (2) Propagation along edges and the matrix product, as sums -/

section Operators
variable {N C E A B : Nat}

/-- Node-axis propagation: entry `(n, c)` of the result adds `nu e * Y (g e, c)` over the edges `e` that land on node `n`.
    `row e` is the node edge `e` lands on (`none`: the edge is dropped), `g e` the node it reads from, `nu e` its weight. -/
def prop (row : Fin E → Option (Fin N)) (g : Fin E → Fin N) (nu : Fin E → EReal)
    (Y : (⟨2, ![N, C]⟩ : Shape).Idx → EReal) : (⟨2, ![N, C]⟩ : Shape).Idx → EReal :=
  fun i => ∑ e : Fin E, if row e = (some (i 0) : Option (Fin N)) then nu e * Y (ix2 (g e) (i 1)) else 0

/-- The matrix product on the feature axis. -/
def mm (X : (⟨2, ![N, A]⟩ : Shape).Idx → EReal) (W : (⟨2, ![A, B]⟩ : Shape).Idx → EReal) :
    (⟨2, ![N, B]⟩ : Shape).Idx → EReal :=
  fun i => ∑ k : Fin A, X (ix2 (i 0) k) * W (ix2 k (i 1))

/-- Propagation over ℝ. -/
def propR (row : Fin E → Option (Fin N)) (g : Fin E → Fin N) (nu : Fin E → ℝ)
    (Y : (⟨2, ![N, C]⟩ : Shape).Idx → ℝ) : (⟨2, ![N, C]⟩ : Shape).Idx → ℝ :=
  fun i => ∑ e : Fin E, if row e = (some (i 0) : Option (Fin N)) then nu e * Y (ix2 (g e) (i 1)) else 0

/-- The matrix product over ℝ. -/
def mmR (X : (⟨2, ![N, A]⟩ : Shape).Idx → ℝ) (W : (⟨2, ![A, B]⟩ : Shape).Idx → ℝ) :
    (⟨2, ![N, B]⟩ : Shape).Idx → ℝ :=
  fun i => ∑ k : Fin A, X (ix2 (i 0) k) * W (ix2 k (i 1))

/-- Propagation of coerced real data is the coercion of the real propagation. -/
theorem prop_coe (row : Fin E → Option (Fin N)) (g : Fin E → Fin N) (nu : Fin E → ℝ)
    (Y : (⟨2, ![N, C]⟩ : Shape).Idx → ℝ) :
    prop row g (fun e => ((nu e : ℝ) : EReal)) (fun j => ((Y j : ℝ) : EReal)) = fun i => ((propR row g nu Y i : ℝ) : EReal) := by
  funext i
  show (∑ e : Fin E, if row e = (some (i 0) : Option (Fin N)) then ((nu e : ℝ) : EReal) * ((Y (ix2 (g e) (i 1)) : ℝ) : EReal) else 0)
    = ((∑ e : Fin E, if row e = (some (i 0) : Option (Fin N)) then nu e * Y (ix2 (g e) (i 1)) else 0 : ℝ) : EReal)
  rw [coe_finset_sum]
  refine Finset.sum_congr rfl (fun e _ => ?_)
  rw [coe_ite_zero, EReal.coe_mul]

/-- The product of coerced real matrices is the coercion of the real product. -/
theorem mm_coe (X : (⟨2, ![N, A]⟩ : Shape).Idx → ℝ) (W : (⟨2, ![A, B]⟩ : Shape).Idx → ℝ) :
    mm (fun j => ((X j : ℝ) : EReal)) (fun j => ((W j : ℝ) : EReal)) = fun i => ((mmR X W i : ℝ) : EReal) := by
  funext i
  show (∑ k : Fin A, ((X (ix2 (i 0) k) : ℝ) : EReal) * ((W (ix2 k (i 1)) : ℝ) : EReal))
    = ((∑ k : Fin A, X (ix2 (i 0) k) * W (ix2 k (i 1)) : ℝ) : EReal)
  rw [coe_finset_sum]
  refine Finset.sum_congr rfl (fun k _ => ?_)
  rw [EReal.coe_mul]

/-- Propagating real data along real weights gives a real array. -/
theorem isReal_prop (row : Fin E → Option (Fin N)) (g : Fin E → Fin N) {nu : Fin E → EReal}
    {Y : (⟨2, ![N, C]⟩ : Shape).Idx → EReal} (hnu : IsReal nu) (hY : IsReal Y) : IsReal (prop row g nu Y) := by
  obtain ⟨nu', rfl⟩ := hnu.lift
  obtain ⟨Y', rfl⟩ := hY.lift
  rw [prop_coe]
  exact isReal_coe _

/-- The product of real matrices is real. -/
theorem isReal_mm {X : (⟨2, ![N, A]⟩ : Shape).Idx → EReal} {W : (⟨2, ![A, B]⟩ : Shape).Idx → EReal}
    (hX : IsReal X) (hW : IsReal W) : IsReal (mm X W) := by
  obtain ⟨X', rfl⟩ := hX.lift
  obtain ⟨W', rfl⟩ := hW.lift
  rw [mm_coe]
  exact isReal_coe _

/-! ## (3) Propagation commutes with the matrix product -/

/-- Over ℝ: propagating a product along the node axis is the product of the propagated left factor. -/
theorem propR_mmR (row : Fin E → Option (Fin N)) (g : Fin E → Fin N) (nu : Fin E → ℝ)
    (X : (⟨2, ![N, A]⟩ : Shape).Idx → ℝ) (W : (⟨2, ![A, B]⟩ : Shape).Idx → ℝ) :
    propR row g nu (mmR X W) = mmR (propR row g nu X) W := by
  funext i
  show (∑ e : Fin E, if row e = (some (i 0) : Option (Fin N)) then nu e * ∑ k : Fin A, X (ix2 (g e) k) * W (ix2 k (i 1)) else 0)
    = ∑ k : Fin A, (∑ e : Fin E, if row e = (some (i 0) : Option (Fin N)) then nu e * X (ix2 (g e) k) else 0) * W (ix2 k (i 1))
  simp only [Finset.sum_mul]
  rw [Finset.sum_comm]
  refine Finset.sum_congr rfl (fun e _ => ?_)
  by_cases h : row e = (some (i 0) : Option (Fin N))
  · simp only [if_pos h, Finset.mul_sum]
    exact Finset.sum_congr rfl (fun k _ => by ring)
  · simp only [if_neg h, zero_mul, Finset.sum_const_zero]

/-- THE LAW: for real weights and real matrices, propagation along the node axis commutes with a matrix product on
    the feature axis. -/
theorem prop_mm (row : Fin E → Option (Fin N)) (g : Fin E → Fin N) {nu : Fin E → EReal}
    {X : (⟨2, ![N, A]⟩ : Shape).Idx → EReal} {W : (⟨2, ![A, B]⟩ : Shape).Idx → EReal}
    (hnu : IsReal nu) (hX : IsReal X) (hW : IsReal W) :
    prop row g nu (mm X W) = mm (prop row g nu X) W := by
  obtain ⟨nu', rfl⟩ := hnu.lift
  obtain ⟨X', rfl⟩ := hX.lift
  obtain ⟨W', rfl⟩ := hW.lift
  rw [mm_coe, prop_coe, prop_coe, mm_coe, propR_mmR]

/-! ## (4) The degree-2 Chebyshev layer, two ways -/

/-- Over ℝ the matrix product is linear in its left factor: the combination `a * P - X`. -/
theorem mmR_lin (a : ℝ) (P X : (⟨2, ![N, A]⟩ : Shape).Idx → ℝ) (W : (⟨2, ![A, B]⟩ : Shape).Idx → ℝ)
    (i : (⟨2, ![N, B]⟩ : Shape).Idx) :
    mmR (fun j => a * P j - X j) W i = a * mmR P W i - mmR X W i := by
  show (∑ k : Fin A, (a * P (ix2 (i 0) k) - X (ix2 (i 0) k)) * W (ix2 k (i 1)))
    = a * (∑ k : Fin A, P (ix2 (i 0) k) * W (ix2 k (i 1))) - ∑ k : Fin A, X (ix2 (i 0) k) * W (ix2 k (i 1))
  rw [Finset.mul_sum, ← Finset.sum_sub_distrib]
  exact Finset.sum_congr rfl (fun k _ => by ring)

/-- THE LAYER IDENTITY. With `T0 = X`, `T1 = L X`, `T2 = 2 L (L X) - X` (`L` the propagation), the layer
    `T0 W0 + T1 W1 + T2 W2 + b` may be computed product-first: `X W0 + L (X W1) + 2 L (L (X W2)) - X W2 + b`.
    Left side: products first, then propagation; right side: propagation first, then products. All data real;
    `two` is the real number 2. -/
theorem cheb_layer (row : Fin E → Option (Fin N)) (g : Fin E → Fin N) {nu : Fin E → EReal}
    {X : (⟨2, ![N, A]⟩ : Shape).Idx → EReal} {W0 W1 W2 : (⟨2, ![A, B]⟩ : Shape).Idx → EReal}
    {bb : (⟨2, ![N, B]⟩ : Shape).Idx → EReal} {two : EReal}
    (hnu : IsReal nu) (hX : IsReal X) (hW0 : IsReal W0) (hW1 : IsReal W1) (hW2 : IsReal W2) (hbb : IsReal bb)
    (htwo : two = ((2 : ℝ) : EReal)) :
    (fun i => ((((mm X W0 i + prop row g nu (mm X W1) i) + two * prop row g nu (prop row g nu (mm X W2)) i)
        - mm X W2 i) + bb i))
      = fun i => (((mm X W0 i + mm (prop row g nu X) W1 i)
        + mm (fun j => two * prop row g nu (prop row g nu X) j - X j) W2 i) + bb i) := by
  obtain ⟨nu', rfl⟩ := hnu.lift
  obtain ⟨X', rfl⟩ := hX.lift
  obtain ⟨W0', rfl⟩ := hW0.lift
  obtain ⟨W1', rfl⟩ := hW1.lift
  obtain ⟨W2', rfl⟩ := hW2.lift
  obtain ⟨bb', rfl⟩ := hbb.lift
  subst htwo
  -- every operator on coerced real data is the coercion of the real operator
  simp only [mm_coe, prop_coe]
  -- the right side's third left factor is itself a coerced real array
  have h3 : (fun j => ((2 : ℝ) : EReal) * ((propR row g nu' (propR row g nu' X') j : ℝ) : EReal) - ((X' j : ℝ) : EReal))
      = fun j => ((2 * propR row g nu' (propR row g nu' X') j - X' j : ℝ) : EReal) := by
    funext j
    rw [EReal.coe_sub, EReal.coe_mul]
  rw [h3, mm_coe]
  funext i
  simp only [← EReal.coe_mul, ← EReal.coe_add, ← EReal.coe_sub]
  rw [EReal.coe_eq_coe_iff]
  -- in ℝ: commute propagation with the products, then linearity
  simp only [propR_mmR, mmR_lin]
  ring

end Operators

end ChebAlgebra

end
-- ==== Proof.Spec.lean ====
/-
  The mathematics of a three-layer graph convolution with symmetric degree normalisation, written two ways.

  Nodes are `n < 100000`, edges (self-loops included) are `e < 1700000`. Edge `e` reads from node `node srcN e` (its
  source word read signed and clamped into the node range) and lands on the node its destination word names
  (`rowOf dstC e`: read signed, NOT clamped; an edge whose word names no node is dropped). `dinv n` is the inverse
  square root of the degree of node `n`.

  * "Scale the nodes": a layer multiplies row `n` of `X W` by `dinv n` (`pre`), sums over the edges landing on each
    node the rows their sources name (`agg`), and multiplies row `n` of that by `dinv n` again before the bias (`post`).
  * "Scale the edges": a layer weights edge `e` by `dinv (source) * dinv (destination)`, the destination read
    through a clamped gather (`node dstN e`), and sums the weighted rows of `X W` over the edges landing on each node
    (`conv`).

  For real data the two agree (`conv_eq`): an edge that lands on node `n` has destination `n`, so the factor `dinv n`
  is common to every term of the sum and can be taken out of it — which needs every term to be a real number, since
  multiplication does not distribute over sums of infinities. `refOut_eq_kernelOut` chains this through the three
  layers, the rectifier between them keeping everything real.
-/
import Idealize.ShloMosaic.Lib.ValueIdx
import Idealize.ShloMosaic.PureOps.Ideal
import proofs.«126777_j452_2_alg».proof.Proof.LibRowGatherScatter
import proofs.«126777_j452_2_alg».proof.Proof.LibChebAlgebra

noncomputable section

open scoped BigOperators

namespace GcnSpec

open Idealize.ShloMosaic Idealize.ShloMosaic.ValueIdx RowGatherScatter ChebAlgebra

/-- The number of nodes. -/
abbrev NN : Nat := 100000
/-- The number of edges, one self-loop per node included. -/
abbrev EE : Nat := 1700000

/-- The node a gather's start index names: the word of edge `e` read signed and clamped into the node range. -/
def node (col : IVec ⟨2, ![EE, 1]⟩ 32) (e : Fin EE) : Fin NN :=
  ⟨min (col (ix2 e 0)).toInt.toNat (NN - 1), Nat.lt_of_le_of_lt (Nat.min_le_right _ _) (by decide)⟩

variable {A B C : Nat}

/-- Sum, over the edges landing on node `i 0`, of the rows of `G` their sources name. -/
def agg (dstC srcN : IVec ⟨2, ![EE, 1]⟩ 32) (G : (⟨2, ![NN, C]⟩ : Shape).Idx → EReal) :
    (⟨2, ![NN, C]⟩ : Shape).Idx → EReal :=
  fun i => ∑ e : Fin EE, if rowOf dstC e = (some (i 0) : Option (Fin NN)) then G (ix2 (node srcN e) (i 1)) else 0

/-- The matrix product `X W` with row `n` multiplied by `dinv n`. -/
def pre (dinv : Fin NN → EReal) (X : (⟨2, ![NN, A]⟩ : Shape).Idx → EReal) (W : (⟨2, ![A, B]⟩ : Shape).Idx → EReal) :
    (⟨2, ![NN, B]⟩ : Shape).Idx → EReal :=
  fun i => (∑ k : Fin A, X (ix2 (i 0) k) * W (ix2 k (i 1))) * dinv (i 0)

/-- Row `n` multiplied by `dinv n`, then the bias. -/
def post (dinv : Fin NN → EReal) (a : (⟨2, ![NN, C]⟩ : Shape).Idx → EReal) (b : Fin C → EReal) :
    (⟨2, ![NN, C]⟩ : Shape).Idx → EReal :=
  fun i => a i * dinv (i 0) + b (i 1)

/-- The rectifier. -/
def relu (v : (⟨2, ![NN, C]⟩ : Shape).Idx → EReal) : (⟨2, ![NN, C]⟩ : Shape).Idx → EReal :=
  fun i => max (v i) 0

/-- `post`, rectified. -/
def act (dinv : Fin NN → EReal) (a : (⟨2, ![NN, C]⟩ : Shape).Idx → EReal) (b : Fin C → EReal) :
    (⟨2, ![NN, C]⟩ : Shape).Idx → EReal :=
  relu (post dinv a b)

/-- One layer with the normalisation on the edges: edge `e` carries `dinv (source) * dinv (destination)`. -/
def conv (dinv : Fin NN → EReal) (dstC srcN dstN : IVec ⟨2, ![EE, 1]⟩ 32)
    (X : (⟨2, ![NN, A]⟩ : Shape).Idx → EReal) (W : (⟨2, ![A, B]⟩ : Shape).Idx → EReal) (b : Fin B → EReal) :
    (⟨2, ![NN, B]⟩ : Shape).Idx → EReal :=
  fun i => (∑ e : Fin EE, if rowOf dstC e = (some (i 0) : Option (Fin NN))
      then (dinv (node srcN e) * dinv (node dstN e)) * (∑ k : Fin A, X (ix2 (node srcN e) k) * W (ix2 k (i 1))) else 0)
    + b (i 1)

/-- The three layers with the normalisation on the nodes. -/
def kernelOut (dinv : Fin NN → EReal) (dstC srcN : IVec ⟨2, ![EE, 1]⟩ 32)
    (x : (⟨2, ![NN, 128]⟩ : Shape).Idx → EReal) (W1 : (⟨2, ![128, 64]⟩ : Shape).Idx → EReal) (b1 : Fin 64 → EReal)
    (W2 : (⟨2, ![64, 64]⟩ : Shape).Idx → EReal) (b2 : Fin 64 → EReal)
    (W3 : (⟨2, ![64, 40]⟩ : Shape).Idx → EReal) (b3 : Fin 40 → EReal) : (⟨2, ![NN, 40]⟩ : Shape).Idx → EReal :=
  post dinv (agg dstC srcN (pre dinv
    (act dinv (agg dstC srcN (pre dinv
      (act dinv (agg dstC srcN (pre dinv x W1)) b1) W2)) b2) W3)) b3

/-- The three layers with the normalisation on the edges. -/
def refOut (dinv : Fin NN → EReal) (dstC srcN dstN : IVec ⟨2, ![EE, 1]⟩ 32)
    (x : (⟨2, ![NN, 128]⟩ : Shape).Idx → EReal) (W1 : (⟨2, ![128, 64]⟩ : Shape).Idx → EReal) (b1 : Fin 64 → EReal)
    (W2 : (⟨2, ![64, 64]⟩ : Shape).Idx → EReal) (b2 : Fin 64 → EReal)
    (W3 : (⟨2, ![64, 40]⟩ : Shape).Idx → EReal) (b3 : Fin 40 → EReal) : (⟨2, ![NN, 40]⟩ : Shape).Idx → EReal :=
  conv dinv dstC srcN dstN (relu (conv dinv dstC srcN dstN (relu (conv dinv dstC srcN dstN x W1 b1)) W2 b2)) W3 b3

/-! ## Real data stays real -/

theorem isReal_pre {dinv : Fin NN → EReal} {X : (⟨2, ![NN, A]⟩ : Shape).Idx → EReal}
    {W : (⟨2, ![A, B]⟩ : Shape).Idx → EReal} (hd : IsReal dinv) (hX : IsReal X) (hW : IsReal W) :
    IsReal (pre dinv X W) :=
  IsReal.mul (a := fun i : (⟨2, ![NN, B]⟩ : Shape).Idx => ∑ k : Fin A, X (ix2 (i 0) k) * W (ix2 k (i 1)))
    (b := fun i : (⟨2, ![NN, B]⟩ : Shape).Idx => dinv (i 0))
    (isReal_sum Finset.univ (fun (i : (⟨2, ![NN, B]⟩ : Shape).Idx) (k : Fin A) => X (ix2 (i 0) k) * W (ix2 k (i 1))) (fun i k => by
      obtain ⟨u, hu⟩ := hX (ix2 (i 0) k); obtain ⟨v, hv⟩ := hW (ix2 k (i 1))
      exact ⟨u * v, by rw [hu, hv, EReal.coe_mul]⟩))
    (hd.comp _)

theorem isReal_agg (dstC srcN : IVec ⟨2, ![EE, 1]⟩ 32) {G : (⟨2, ![NN, C]⟩ : Shape).Idx → EReal} (hG : IsReal G) :
    IsReal (agg dstC srcN G) :=
  isReal_sum_ite Finset.univ (fun (i : (⟨2, ![NN, C]⟩ : Shape).Idx) e => rowOf dstC e = (some (i 0) : Option (Fin NN)))
    (fun i e => G (ix2 (node srcN e) (i 1))) (fun i e => hG _)

theorem isReal_post {dinv : Fin NN → EReal} {a : (⟨2, ![NN, C]⟩ : Shape).Idx → EReal} {b : Fin C → EReal}
    (hd : IsReal dinv) (ha : IsReal a) (hb : IsReal b) : IsReal (post dinv a b) :=
  IsReal.add (a := fun i : (⟨2, ![NN, C]⟩ : Shape).Idx => a i * dinv (i 0)) (b := fun i : (⟨2, ![NN, C]⟩ : Shape).Idx => b (i 1))
    (IsReal.mul (a := a) (b := fun i : (⟨2, ![NN, C]⟩ : Shape).Idx => dinv (i 0)) ha (hd.comp _)) (hb.comp _)

theorem isReal_relu {v : (⟨2, ![NN, C]⟩ : Shape).Idx → EReal} (hv : IsReal v) : IsReal (relu v) :=
  IsReal.max (a := v) (b := fun _ => (0 : EReal)) hv (fun _ => ⟨0, rfl⟩)

theorem isReal_act {dinv : Fin NN → EReal} {a : (⟨2, ![NN, C]⟩ : Shape).Idx → EReal} {b : Fin C → EReal}
    (hd : IsReal dinv) (ha : IsReal a) (hb : IsReal b) : IsReal (act dinv a b) :=
  isReal_relu (isReal_post hd ha hb)

/-! ## One layer: the edge weights factor through the nodes -/

/-- Over the reals: with the destination of every landing edge the node it lands on, the sum of the edge-weighted rows
    is the node-scaled sum of the source-scaled rows. -/
theorem conv_sum_real (row : Fin EE → Option (Fin NN)) (s t : Fin EE → Fin NN) (hlink : ∀ e n, row e = some n → t e = n)
    (d : Fin NN → ℝ) (H : Fin EE → ℝ) (n : Fin NN) :
    (∑ e : Fin EE, if row e = some n then (d (s e) * d (t e)) * H e else 0)
      = (∑ e : Fin EE, if row e = some n then H e * d (s e) else 0) * d n := by
  rw [Finset.sum_mul]
  refine Finset.sum_congr rfl (fun e _ => ?_)
  by_cases h : row e = some n
  · rw [if_pos h, if_pos h, hlink e n h]; ring
  · rw [if_neg h, if_neg h, zero_mul]

/-- ONE LAYER, for real data: normalising on the edges is normalising on the nodes. -/
theorem conv_eq {dinv : Fin NN → EReal} (dstC srcN dstN : IVec ⟨2, ![EE, 1]⟩ 32)
    (hlink : ∀ e n, rowOf dstC e = (some n : Option (Fin NN)) → node dstN e = n)
    {X : (⟨2, ![NN, A]⟩ : Shape).Idx → EReal} {W : (⟨2, ![A, B]⟩ : Shape).Idx → EReal} (b : Fin B → EReal)
    (hd : IsReal dinv) (hX : IsReal X) (hW : IsReal W) :
    conv dinv dstC srcN dstN X W b = post dinv (agg dstC srcN (pre dinv X W)) b := by
  obtain ⟨d, rfl⟩ := hd.lift
  obtain ⟨X', rfl⟩ := hX.lift
  obtain ⟨W', rfl⟩ := hW.lift
  funext i
  unfold conv post agg pre
  refine congrArg (· + b (i 1)) ?_
  -- both sides are coercions of real sums
  have hL : (∑ e : Fin EE, if rowOf dstC e = (some (i 0) : Option (Fin NN))
      then ((d (node srcN e) : EReal) * (d (node dstN e) : EReal))
        * (∑ k : Fin A, (X' (ix2 (node srcN e) k) : EReal) * (W' (ix2 k (i 1)) : EReal)) else 0)
      = ((∑ e : Fin EE, if rowOf dstC e = (some (i 0) : Option (Fin NN))
          then (d (node srcN e) * d (node dstN e)) * (∑ k : Fin A, X' (ix2 (node srcN e) k) * W' (ix2 k (i 1))) else 0 : ℝ) : EReal) := by
    rw [coe_finset_sum]
    refine Finset.sum_congr rfl (fun e _ => ?_)
    rw [coe_ite_zero, EReal.coe_mul, EReal.coe_mul, coe_finset_sum]
    simp only [EReal.coe_mul]
  have hR : (∑ e : Fin EE, if rowOf dstC e = (some (i 0) : Option (Fin NN))
      then (∑ k : Fin A, (X' (ix2 ((ix2 (node srcN e) (i 1) : (⟨2, ![NN, B]⟩ : Shape).Idx) 0) k) : EReal)
          * (W' (ix2 k ((ix2 (node srcN e) (i 1) : (⟨2, ![NN, B]⟩ : Shape).Idx) 1)) : EReal))
        * (d ((ix2 (node srcN e) (i 1) : (⟨2, ![NN, B]⟩ : Shape).Idx) 0) : EReal) else 0) * (d (i 0) : EReal)
      = (((∑ e : Fin EE, if rowOf dstC e = (some (i 0) : Option (Fin NN))
          then (∑ k : Fin A, X' (ix2 (node srcN e) k) * W' (ix2 k (i 1))) * d (node srcN e) else 0) * d (i 0) : ℝ) : EReal) := by
    rw [EReal.coe_mul, coe_finset_sum]
    refine congrArg (· * (d (i 0) : EReal)) (Finset.sum_congr rfl (fun e _ => ?_))
    rw [coe_ite_zero, EReal.coe_mul, coe_finset_sum]
    simp only [EReal.coe_mul]
    rfl
  rw [hL, hR]
  exact congrArg _ (conv_sum_real (fun e => rowOf dstC e) (node srcN) (node dstN) hlink d
    (fun e => ∑ k : Fin A, X' (ix2 (node srcN e) k) * W' (ix2 k (i 1))) (i 0))

/-! ## The three layers -/

/-- THE TWO NETWORKS AGREE on real data, when the destination of every landing edge is the node it lands on. -/
theorem refOut_eq_kernelOut {dinv : Fin NN → EReal} (dstC srcN dstN : IVec ⟨2, ![EE, 1]⟩ 32)
    (hlink : ∀ e n, rowOf dstC e = (some n : Option (Fin NN)) → node dstN e = n)
    {x : (⟨2, ![NN, 128]⟩ : Shape).Idx → EReal} {W1 : (⟨2, ![128, 64]⟩ : Shape).Idx → EReal} {b1 : Fin 64 → EReal}
    {W2 : (⟨2, ![64, 64]⟩ : Shape).Idx → EReal} {b2 : Fin 64 → EReal}
    {W3 : (⟨2, ![64, 40]⟩ : Shape).Idx → EReal} {b3 : Fin 40 → EReal}
    (hd : IsReal dinv) (hx : IsReal x) (hW1 : IsReal W1) (hb1 : IsReal b1) (hW2 : IsReal W2) (hb2 : IsReal b2)
    (hW3 : IsReal W3) :
    refOut dinv dstC srcN dstN x W1 b1 W2 b2 W3 b3 = kernelOut dinv dstC srcN x W1 b1 W2 b2 W3 b3 := by
  unfold refOut kernelOut
  rw [conv_eq dstC srcN dstN hlink b1 hd hx hW1]
  have h1 : IsReal (act dinv (agg dstC srcN (pre dinv x W1)) b1) :=
    isReal_act hd (isReal_agg dstC srcN (isReal_pre hd hx hW1)) hb1
  show conv dinv dstC srcN dstN (relu (conv dinv dstC srcN dstN (act dinv (agg dstC srcN (pre dinv x W1)) b1) W2 b2)) W3 b3 = _
  rw [conv_eq dstC srcN dstN hlink b2 hd h1 hW2]
  have h2 : IsReal (act dinv (agg dstC srcN (pre dinv (act dinv (agg dstC srcN (pre dinv x W1)) b1) W2)) b2) :=
    isReal_act hd (isReal_agg dstC srcN (isReal_pre hd h1 hW2)) hb2
  show conv dinv dstC srcN dstN (act dinv (agg dstC srcN (pre dinv (act dinv (agg dstC srcN (pre dinv x W1)) b1) W2)) b2) W3 b3 = _
  rw [conv_eq dstC srcN dstN hlink b3 hd h2 hW3]

end GcnSpec

end
-- ==== Proof.RefGraph.lean ====
/-
  The graph data of the reference program, read off the edge array `x1 : i32[2, 1600000]`, in the form the specification
  takes them: the inverse square roots of the degrees as a function of the node; the column of gather start indices of
  the edges' sources (negative words wrapped by the node count, as an index expression wraps them); the same column for the
  destinations; and the column of scatter start indices (the destination words as they are). Each is the value one host
  operation of the reference writes.
-/
import proofs.«126777_j452_2_alg».proof.Proof.RefReadPatched
import proofs.«126777_j452_2_alg».proof.Proof.Spec

noncomputable section

namespace Cert.ReferenceIdeal.RefValue

open Cert.ReferenceIdeal Idealize.ShloMosaic Idealize.ShloMosaic.ValueIdx

/-- `dinv n`: the degree of node `n` to the power −1/2 (zero where the degree is not positive). -/
def dinvR (x1 : (⟨S2x1600000, .i32⟩ : BufTy).Contents (Elt Ideal)) : Fin GcnSpec.NN → EReal :=
  fun n => ReadP.val_main_v14 (F := Ideal) x1 (ix1 n)

/-- The gather start indices of the edges' sources. -/
def srcCol (x1 : (⟨S2x1600000, .i32⟩ : BufTy).Contents (Elt Ideal)) : IVec ⟨2, ![GcnSpec.EE, 1]⟩ 32 :=
  ReadP.val_main_v20 (F := Ideal) x1

/-- The gather start indices of the edges' destinations. -/
def dstNCol (x1 : (⟨S2x1600000, .i32⟩ : BufTy).Contents (Elt Ideal)) : IVec ⟨2, ![GcnSpec.EE, 1]⟩ 32 :=
  ReadP.val_main_v27 (F := Ideal) x1

/-- The scatter start indices: the edges' destination words. -/
def dstCol (x1 : (⟨S2x1600000, .i32⟩ : BufTy).Contents (Elt Ideal)) : IVec ⟨2, ![GcnSpec.EE, 1]⟩ 32 :=
  ReadP.val_main_v9 (F := Ideal) x1

end Cert.ReferenceIdeal.RefValue

end
-- ==== Proof.LibFlatGather.lean ====
/-
  The host's gather of single entries of a flat array, read at one index, for arrays of any sizes: the gather
  `x[idx]` of a vector `x : [N]` at a column of start indices `idx : [E, 1]`, whose result `[E]` has at `e` the entry of
  `x` that start index `e` names. The start index is read as a signed integer and clamped into `[0, N − 1]`.
-/
import Idealize.ShloMosaic.Lib.ValueIdx
import Idealize.ShloMosaic.PureOps.Ideal

noncomputable section

namespace FlatGather

open Idealize.ShloMosaic Idealize.ShloMosaic.ValueIdx

variable {N E w : Nat}

/-- The dimension numbers of a gather of single entries: operand `[N]`, start indices `[E, 1]`, result `[E]`; there is
    no offset axis, operand axis 0 is collapsed and is the one the start index addresses; a slice is one entry. -/
abbrev flatGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

section Literal
variable (wf : GatherDims.WF ⟨1, ![N]⟩ ⟨2, ![E, 1]⟩ ⟨1, ![E]⟩ [] [0] [] [0] [] 1 ![1])

/-- THE FLAT GATHER READ AT `e`, for the literal dimension numbers: the operand at `idx[e, 0]`, read signed and clamped
    into `[0, N − 1]`. -/
theorem gather_flatDims {α : Type} (hN : 0 < N) (x : (⟨1, ![N]⟩ : Shape).Idx → α) (idx : IVec ⟨2, ![E, 1]⟩ w)
    (j : (⟨1, ![E]⟩ : Shape).Idx) :
    Host.gather (flatGatherDims N E wf) x idx j
      = x (ix1 ⟨min (idx (ix2 (j 0) 0)).toInt.toNat (N - 1), by omega⟩) := by
  unfold Host.gather
  congr 1
  funext a
  obtain rfl : a = 0 := Subsingleton.elim _ _
  refine Fin.ext ?_
  show (flatGatherDims N E wf).start j idx 0 + (flatGatherDims N E wf).batchCoord j 0
    + (flatGatherDims N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N E wf).startIndexMap from List.mem_singleton.mpr rfl)]
  have hsi : (flatGatherDims N E wf).siIdx j ⟨List.idxOf (0 : Fin 1) (flatGatherDims N E wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

end Literal

/-- THE FLAT GATHER READ AT `e`, for ANY dimension numbers with the flat gather's fields (a record given by its fields:
    the seven hypotheses then hold by `rfl`). The start index is read signed and clamped into `[0, N − 1]`. -/
theorem gather_flat {α : Type} (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (hN : 0 < N) (x : (⟨1, ![N]⟩ : Shape).Idx → α) (idx : IVec ⟨2, ![E, 1]⟩ w)
    (j : (⟨1, ![E]⟩ : Shape).Idx) :
    Host.gather d x idx j = x (ix1 ⟨min (idx (ix2 (j 0) 0)).toInt.toNat (N - 1), by omega⟩) := by
  obtain ⟨od, cs, ob, sb, sm, iv, ss, wf⟩ := d
  simp only at h1 h2 h3 h4 h5 h6 h7
  subst h1 h2 h3 h4 h5 h6 h7
  exact gather_flatDims wf hN x idx j

end FlatGather

end
-- ==== Proof.LibHostForms.lean ====
/-
  Host operations read as WHOLE-ARRAY equations at the ideal values, for arrays of any sizes: a plain matrix
  product `[N, A] × [A, B]` written as a `dot_general` is the sum over the inner coordinate; a slice `W[κ]` of a stack
  of matrices; a bias row broadcast over the rows of a matrix; a broadcast scalar constant; and the pointwise arithmetic.
-/
import Idealize.ShloMosaic.Lib.ValueIdx
import Idealize.ShloMosaic.Lib.Pipeline.Value
import Idealize.ShloMosaic.Lib.ValueLayout
import Idealize.ShloMosaic.PureOps.Ideal.Laws
import proofs.«126777_j452_2_alg».proof.Proof.LibChebAlgebra

noncomputable section

open scoped BigOperators

namespace HostForms

open Idealize.ShloMosaic Idealize.ShloMosaic.ValueIdx

variable {N A B : Nat}

/-! ## (L1) A plain `dot_general` is the matrix-product sum -/

/-- The dimension numbers of a plain product `[N, A] × [A, B] → [N, B]`: the left operand's axis 1 is contracted with the
    right operand's axis 0; no batch axes. -/
abbrev plainDotDims (N A B : Nat)
    (wf : DotDims.WF ⟨2, ![N, A]⟩ ⟨2, ![A, B]⟩ ⟨2, ![N, B]⟩ [1] [0] [0] [1] [] []) :
    DotDims ⟨2, ![N, A]⟩ ⟨2, ![A, B]⟩ ⟨2, ![N, B]⟩ where
  lhsContracting := [1]
  rhsContracting := [0]
  lhsNonContracting := [0]
  rhsNonContracting := [1]
  lhsBatch := []
  rhsBatch := []
  wf := wf

section DotLiteral
variable (wf : DotDims.WF ⟨2, ![N, A]⟩ ⟨2, ![A, B]⟩ ⟨2, ![N, B]⟩ [1] [0] [0] [1] [] [])

/-- The left operand's row coordinate is the output's row. -/
theorem lhs_row (i : (⟨2, ![N, B]⟩ : Shape).Idx) (q : (plainDotDims N A B wf).contr.Idx) :
    ((plainDotDims N A B wf).lhsIdx i q 0).val = (i 0).val := by
  unfold DotDims.lhsIdx
  rw [dif_neg (show (0 : Fin 2) ∉ (plainDotDims N A B wf).lhsBatch from List.not_mem_nil),
    dif_pos (show (0 : Fin 2) ∈ (plainDotDims N A B wf).lhsNonContracting from List.mem_singleton.mpr rfl)]
  rfl

/-- The right operand's column coordinate is the output's column. -/
theorem rhs_col (i : (⟨2, ![N, B]⟩ : Shape).Idx) (q : (plainDotDims N A B wf).contr.Idx) :
    ((plainDotDims N A B wf).rhsIdx i q 1).val = (i 1).val := by
  unfold DotDims.rhsIdx
  rw [dif_neg (show (1 : Fin 2) ∉ (plainDotDims N A B wf).rhsBatch from List.not_mem_nil),
    dif_pos (show (1 : Fin 2) ∈ (plainDotDims N A B wf).rhsNonContracting from List.mem_singleton.mpr rfl)]
  rfl

/-- THE PRODUCT AT ROW `r`, COLUMN `f`, for the literal dimension numbers: the sum over the inner coordinate. -/
theorem dotGeneral_plainDims_apply {φ₁ φ₂ : FTy} (prec : Option ContractPrecision) (X : FVec Ideal ⟨2, ![N, A]⟩ φ₁)
    (W : FVec Ideal ⟨2, ![A, B]⟩ φ₂) (r : Fin N) (f : Fin B) :
    Host.dotGeneral (F := Ideal) (plainDotDims N A B wf) prec X W (ix2 r f) = ∑ k : Fin A, X (ix2 r k) * W (ix2 k f) := by
  show FloatOps.dotGeneral (plainDotDims N A B wf) prec .single X W (ix2 r f) = _
  rw [Ideal.dotGeneral_apply, ← Equiv.sum_comp (contrEquiv1 (plainDotDims N A B wf) A rfl rfl).symm]
  refine Finset.sum_congr rfl fun k _ => ?_
  have hk := contrEquiv1_symm_val (plainDotDims N A B wf) A rfl rfl k
  have el : (plainDotDims N A B wf).lhsIdx (ix2 r f) ((contrEquiv1 (plainDotDims N A B wf) A rfl rfl).symm k) = ix2 r k :=
    funext fun a => Fin.ext (by
      match a with
      | ⟨0, _⟩ => exact lhs_row wf _ _
      | ⟨1, _⟩ => exact (DotDims.lhsIdx_val_of_single (plainDotDims N A B wf) rfl _ _).trans hk)
  have er : (plainDotDims N A B wf).rhsIdx (ix2 r f) ((contrEquiv1 (plainDotDims N A B wf) A rfl rfl).symm k) = ix2 k f :=
    funext fun a => Fin.ext (by
      match a with
      | ⟨0, _⟩ => exact (DotDims.rhsIdx_val_of_single (plainDotDims N A B wf) rfl _ _).trans hk
      | ⟨1, _⟩ => exact rhs_col wf _ _)
  rw [el, er]

/-- The whole product, for the literal dimension numbers. -/
theorem dotGeneral_plainDims {φ₁ φ₂ : FTy} (prec : Option ContractPrecision) (X : FVec Ideal ⟨2, ![N, A]⟩ φ₁)
    (W : FVec Ideal ⟨2, ![A, B]⟩ φ₂) :
    Host.dotGeneral (F := Ideal) (plainDotDims N A B wf) prec X W
      = fun i => ∑ k : Fin A, X (ix2 (i 0) k) * W (ix2 k (i 1)) := by
  funext i
  obtain ⟨r, f, rfl⟩ : ∃ (r : Fin N) (f : Fin B), i = ix2 r f := ⟨i 0, i 1, eq_ix2 i⟩
  exact dotGeneral_plainDims_apply wf prec X W r f

end DotLiteral

/-- THE WHOLE PRODUCT, for ANY dimension numbers with the plain product's fields (a record given by its fields: the six
    hypotheses then hold by `rfl`): entry `(r, f)` is the sum over the inner coordinate `k` of `X (r, k) * W (k, f)`. -/
theorem dotGeneral_mm {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂) :
    Host.dotGeneral (F := Ideal) d prec X W = fun i => ∑ k : Fin A, X (ix2 (i 0) k) * W (ix2 k (i 1)) := by
  obtain ⟨lc, rc, ln, rn, lb, rb, wf⟩ := d
  simp only at h1 h2 h3 h4 h5 h6
  subst h1 h2 h3 h4 h5 h6
  exact dotGeneral_plainDims wf prec X W

/-- The same at row `r`, column `f`. -/
theorem dotGeneral_mm_apply {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂)
    (r : Fin N) (f : Fin B) :
    Host.dotGeneral (F := Ideal) d prec X W (ix2 r f) = ∑ k : Fin A, X (ix2 r k) * W (ix2 k f) :=
  congrFun (dotGeneral_mm d h1 h2 h3 h4 h5 h6 prec X W) (ix2 r f)

/-- The whole product as the matrix-product operator `ChebAlgebra.mm`. -/
theorem dotGeneral_eq_mm {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂) :
    Host.dotGeneral (F := Ideal) d prec X W = ChebAlgebra.mm X W :=
  dotGeneral_mm d h1 h2 h3 h4 h5 h6 prec X W

/-! ## (L2) One matrix of a stack: `W[κ]` -/

section Stack
variable {α : Type} {K : Nat}

/-- Slice `κ` of a stack `[K, A, B]` of matrices, cut out as `[1, A, B]` and viewed as `[A, B]`, is the matrix
    `(a, b) ↦ W (κ, a, b)`. -/
theorem slice_stack (κ : Fin K) (W : (⟨3, ![K, A, B]⟩ : Shape).Idx → α)
    (hs : (⟨3, ![K, A, B]⟩ : Shape).Slices ![κ.val, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![κ.val, 0, 0] W hs) hc
      = fun j => W (ix3 κ (j 0) (j 1)) := by
  funext j
  obtain ⟨a, b, rfl⟩ : ∃ (a : Fin A) (b : Fin B), j = ix2 a b := ⟨j 0, j 1, eq_ix2 j⟩
  rw [shapeCast_1ab_ab_apply]
  refine extractStridedSlice_apply _ W hs _ (ix3 κ a b) (fun c => ?_)
  match c with
  | ⟨0, _⟩ => show κ.val = κ.val + 0; rfl
  | ⟨1, _⟩ => show a.val = 0 + a.val; exact (Nat.zero_add _).symm
  | ⟨2, _⟩ => show b.val = 0 + b.val; exact (Nat.zero_add _).symm

/-- The first matrix of a stack of three. -/
theorem slice_stack3_0 (W : (⟨3, ![3, A, B]⟩ : Shape).Idx → α)
    (hs : (⟨3, ![3, A, B]⟩ : Shape).Slices ![0, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![0, 0, 0] W hs) hc
      = fun j => W (ix3 (0 : Fin 3) (j 0) (j 1)) :=
  slice_stack (0 : Fin 3) W hs hc

/-- The second matrix of a stack of three. -/
theorem slice_stack3_1 (W : (⟨3, ![3, A, B]⟩ : Shape).Idx → α)
    (hs : (⟨3, ![3, A, B]⟩ : Shape).Slices ![1, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![1, 0, 0] W hs) hc
      = fun j => W (ix3 (1 : Fin 3) (j 0) (j 1)) :=
  slice_stack (1 : Fin 3) W hs hc

/-- The third matrix of a stack of three. -/
theorem slice_stack3_2 (W : (⟨3, ![3, A, B]⟩ : Shape).Idx → α)
    (hs : (⟨3, ![3, A, B]⟩ : Shape).Slices ![2, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![2, 0, 0] W hs) hc
      = fun j => W (ix3 (2 : Fin 3) (j 0) (j 1)) :=
  slice_stack (2 : Fin 3) W hs hc

end Stack

/-! ## (L3) A bias row broadcast over the rows of a matrix -/

section Bias
variable {α : Type}

/-- A vector `[B]` made a row `[1, B]` by a broadcast, read at `(0, f)`. -/
theorem bcast_row_apply (b : (⟨1, ![B]⟩ : Shape).Idx → α)
    (h1 : (⟨1, ![B]⟩ : Shape).BroadcastsInDim ⟨2, ![1, B]⟩ ![1]) (u : Fin 1) (f : Fin B) :
    broadcastInDim ⟨2, ![1, B]⟩ ![1] h1 b (ix2 u f) = b (ix1 f) := by
  refine broadcastInDim_apply _ h1 b _ (ix1 f) (fun c => ?_)
  match c with
  | ⟨0, _⟩ =>
    show f.val = if B = 1 then 0 else f.val
    split_ifs with hB
    · have := f.isLt; omega
    · rfl

/-- A row `[1, B]` repeated down the `N` rows of a matrix, read at `(n, f)`. -/
theorem bcast_rows_apply (v : (⟨2, ![1, B]⟩ : Shape).Idx → α)
    (h2 : (⟨2, ![1, B]⟩ : Shape).BroadcastsInDim ⟨2, ![N, B]⟩ ![0, 1]) (n : Fin N) (f : Fin B) :
    broadcastInDim ⟨2, ![N, B]⟩ ![0, 1] h2 v (ix2 n f) = v (ix2 (0 : Fin 1) f) := by
  refine broadcastInDim_apply _ h2 v _ (ix2 (0 : Fin 1) f) (fun c => ?_)
  match c with
  | ⟨0, _⟩ =>
    show (0 : ℕ) = if (1 : ℕ) = 1 then 0 else n.val
    rw [if_pos rfl]
  | ⟨1, _⟩ =>
    show f.val = if B = 1 then 0 else f.val
    split_ifs with hB
    · have := f.isLt; omega
    · rfl

/-- (a) THE BIAS, two broadcasts: a vector `[B]` made a row and repeated down the rows is `(n, f) ↦ b f`. -/
theorem bias_bcast_bcast (b : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![N, B]⟩ ![0, 1]) :
    broadcastInDim ⟨2, ![N, B]⟩ ![0, 1] h2 (broadcastInDim ⟨2, ![1, B]⟩ ![1] h1 b) = fun i => b (ix1 (i 1)) := by
  funext i
  obtain ⟨n, f, rfl⟩ : ∃ (n : Fin N) (f : Fin B), i = ix2 n f := ⟨i 0, i 1, eq_ix2 i⟩
  rw [bcast_rows_apply, bcast_row_apply]
  rfl

/-- (b) THE BIAS, a shape cast then a broadcast: a vector `[B]` viewed as a row and repeated down the rows is
    `(n, f) ↦ b f`. -/
theorem bias_cast_bcast (b : (⟨1, ![B]⟩ : Shape).Idx → α)
    (hc : (⟨1, ![B]⟩ : Shape).ShapeCasts ⟨2, ![1, B]⟩)
    (h2 : (⟨2, ![1, B]⟩ : Shape).BroadcastsInDim ⟨2, ![N, B]⟩ ![0, 1]) :
    broadcastInDim ⟨2, ![N, B]⟩ ![0, 1] h2 (shapeCast ⟨2, ![1, B]⟩ b hc) = fun i => b (ix1 (i 1)) := by
  funext i
  obtain ⟨n, f, rfl⟩ : ∃ (n : Fin N) (f : Fin B), i = ix2 n f := ⟨i 0, i 1, eq_ix2 i⟩
  rw [bcast_rows_apply, shapeCast_a_1a_apply]
  rfl

/-- (c) A vector `[B]` viewed as a row, read at `(0, f)`. -/
theorem cast_row_apply (b : (⟨1, ![B]⟩ : Shape).Idx → α) (hc : (⟨1, ![B]⟩ : Shape).ShapeCasts ⟨2, ![1, B]⟩)
    (f : Fin B) : (shapeCast ⟨2, ![1, B]⟩ b hc) (ix2 (0 : Fin 1) f) = b (ix1 f) :=
  shapeCast_a_1a_apply b hc 0 f

end Bias

/-! ## (L4) A broadcast scalar -/

/-- A scalar array broadcast to any shape is constant. -/
theorem bcast_scalar {α : Type} (s : Shape) (c : (⟨0, ![]⟩ : Shape).Idx → α)
    (h : (⟨0, ![]⟩ : Shape).BroadcastsInDim s ![]) : broadcastInDim s ![] h c = fun _ => c ix0 := by
  funext j
  exact broadcastInDim_apply _ h c j ix0 (fun a => a.elim0)

/-- A scalar float constant broadcast to any shape is the extended real its word encodes, everywhere. -/
theorem bcast_constant {φ : FTy} (s : Shape) (w : BitVec φ.bits) (h : (⟨0, ![]⟩ : Shape).BroadcastsInDim s ![]) :
    broadcastInDim s ![] h (constant (F := Ideal) ⟨0, ![]⟩ φ w) = fun _ => Ideal.ofBits φ w := by
  rw [bcast_scalar]
  rfl

/-- The `f32` word `0x40000000` is the real number 2. -/
theorem ofBits_two_f32 : Ideal.ofBits .f32 0x40000000#32 = ((2 : ℝ) : EReal) := by
  simp [Ideal.ofBits, Ideal.ieee]
  norm_cast
  norm_num

/-! ## (L5) Pointwise arithmetic on whole arrays -/

section Pointwise
variable {s : Shape} {φ : FTy}

/-- A sum of arrays is the pointwise sum. -/
theorem addf_fun (a b : FVec Ideal s φ) : addf a b = fun i => a i + b i := rfl
/-- A difference of arrays is the pointwise difference. -/
theorem subf_fun (a b : FVec Ideal s φ) : subf a b = fun i => a i - b i := rfl
/-- A product of arrays is the pointwise product. -/
theorem mulf_fun (a b : FVec Ideal s φ) : mulf a b = fun i => a i * b i := rfl
/-- A maximum of arrays is the pointwise maximum. -/
theorem maximumf_fun (a b : FVec Ideal s φ) : maximumf a b = fun i => max (a i) (b i) := rfl
/-- A negated array is the pointwise negation. -/
theorem negf_fun (a : FVec Ideal s φ) : negf a = fun i => - a i := rfl
/-- A narrowing change of float format is the identity on extended reals. -/
theorem truncf_fun {ψ : FTy} (a : FVec Ideal s φ) (h : ψ.bits < φ.bits) : (truncf ψ a h : FVec Ideal s ψ) = a := rfl
/-- A widening change of float format is the identity on extended reals. -/
theorem extf_fun {ψ : FTy} (a : FVec Ideal s φ) (h : φ.bits < ψ.bits) : (extf ψ a h : FVec Ideal s ψ) = a := rfl

end Pointwise

end HostForms

end
-- ==== Proof.RefLayer.lean ====
/-
  One graph-convolution layer with the normalisation on the edges, as the host operations of the reference compute it,
  over arbitrary arrays of the layer's shapes.

  The operations: the matrix product `X W`; the gather of its rows at the edges' sources; the product of each gathered
  row with the edge's weight (a vector over the edges, made a column and repeated along the row); the scatter that adds
  each weighted row into the row of a zero matrix its destination names; the bias row added to every row. When the weight
  of edge `e` is `dinv (source) * dinv (destination)`, the result is `GcnSpec.conv` (`conv_prog`). Two companions:
  the edge weights themselves, a product of two gathers of single entries of one vector (`edge_weight_prog`); and the
  rectifier, a maximum with a broadcast zero (`relu_prog`).
-/
import proofs.«126777_j452_2_alg».proof.Proof.Spec
import proofs.«126777_j452_2_alg».proof.Proof.LibRowGatherScatter
import proofs.«126777_j452_2_alg».proof.Proof.LibFlatGather
import proofs.«126777_j452_2_alg».proof.Proof.LibHostForms
import Idealize.ShloMosaic.Lib.Pipeline.Value
import Idealize.ShloMosaic.PureOps.Ideal.Laws

noncomputable section

open scoped BigOperators

namespace RefLayer

open Idealize.ShloMosaic Idealize.ShloMosaic.ValueIdx RowGatherScatter GcnSpec

variable {A C : Nat}

/-! ## The edge weights along a row -/

/-- A vector over the edges made a column `[E, 1]` and repeated along `C` columns, read at `(e, c)`: entry `e`. -/
theorem edge_bcast_apply {α : Type} (nrm : (⟨1, ![EE]⟩ : Shape).Idx → α)
    (h1 : (⟨1, ![EE]⟩ : Shape).BroadcastsInDim ⟨2, ![EE, 1]⟩ ![0])
    (h2 : (⟨2, ![EE, 1]⟩ : Shape).BroadcastsInDim ⟨2, ![EE, C]⟩ ![0, 1]) (e : Fin EE) (c : Fin C) :
    broadcastInDim ⟨2, ![EE, C]⟩ ![0, 1] h2 (broadcastInDim ⟨2, ![EE, 1]⟩ ![0] h1 nrm) (ix2 e c) = nrm (ix1 e) := by
  refine (broadcastInDim_apply _ h2 _ (ix2 e c) (ix2 e (0 : Fin 1)) (fun a => ?_)).trans
    (broadcastInDim_apply _ h1 nrm (ix2 e (0 : Fin 1)) (ix1 e) (fun a => ?_))
  · match a with
    | ⟨0, _⟩ =>
      show e.val = if (1700000 : ℕ) = 1 then 0 else e.val
      rw [if_neg (by decide)]
    | ⟨1, _⟩ =>
      show (0 : ℕ) = if (1 : ℕ) = 1 then 0 else c.val
      rw [if_pos rfl]
  · match a with
    | ⟨0, _⟩ =>
      show e.val = if (1700000 : ℕ) = 1 then 0 else e.val
      rw [if_neg (by decide)]

/-! ## Gather, weight, scatter-add -/

/-- THE AGGREGATION: the rows of `H` gathered at the edges' sources, each multiplied by its edge's weight, and added
    into the rows of a zero matrix the destinations name. Entry `(n, c)` is the sum, over the edges landing on node `n`,
    of the edge's weight times `H (source, c)`. -/
theorem layer_sum_apply (dS : ScatterDims ⟨2, ![NN, C]⟩ ⟨2, ![EE, 1]⟩ ⟨2, ![EE, C]⟩)
    (hS1 : dS.updateWindowDims = [1]) (hS2 : dS.insertedWindowDims = [0]) (hS3 : dS.scatterDimsToOperandDims = [0])
    (hS4 : dS.indexVectorDim = 1)
    (dG : GatherDims ⟨2, ![NN, C]⟩ ⟨2, ![EE, 1]⟩ ⟨2, ![EE, C]⟩)
    (hG1 : dG.offsetDims = [1]) (hG2 : dG.collapsedSliceDims = [0]) (hG3 : dG.operandBatchingDims = [])
    (hG4 : dG.startIndicesBatchingDims = []) (hG5 : dG.startIndexMap = [0]) (hG6 : dG.indexVectorDim = 1)
    (hG7 : dG.sliceSizes = ![1, C])
    (h0 : (⟨0, ![]⟩ : Shape).BroadcastsInDim ⟨2, ![NN, C]⟩ ![])
    (h1 : (⟨1, ![EE]⟩ : Shape).BroadcastsInDim ⟨2, ![EE, 1]⟩ ![0])
    (h2 : (⟨2, ![EE, 1]⟩ : Shape).BroadcastsInDim ⟨2, ![EE, C]⟩ ![0, 1])
    (H : FVec Ideal ⟨2, ![NN, C]⟩ .f32) (nrm : FVec Ideal ⟨1, ![EE]⟩ .f32) (dstcol srccol : IVec ⟨2, ![EE, 1]⟩ 32)
    (n : Fin NN) (c : Fin C) :
    Host.scatterAdd (F := Ideal) dS
        (broadcastInDim ⟨2, ![NN, C]⟩ ![] h0 (constant (F := Ideal) ⟨0, ![]⟩ .f32 0x00000000#32)) dstcol
        (mulf (broadcastInDim ⟨2, ![EE, C]⟩ ![0, 1] h2 (broadcastInDim ⟨2, ![EE, 1]⟩ ![0] h1 nrm))
          (Host.gather dG H srccol)) (ix2 n c)
      = ∑ e : Fin EE, if rowOf dstcol e = some n then nrm (ix1 e) * H (ix2 (node srccol e) c) else 0 := by
  rw [scatterAdd_rows_ix2 dS hS1 hS2 hS3 hS4, HostForms.bcast_constant, Ideal.ofBits_zero_f32, zero_add]
  refine Finset.sum_congr rfl (fun e _ => ?_)
  by_cases h : rowOf dstcol e = some n
  · rw [if_pos h, if_pos h, mulf_apply, edge_bcast_apply, gather_rows dG hG1 hG2 hG3 hG4 hG5 hG6 hG7 (by decide)]
    rfl
  · rw [if_neg h, if_neg h]

/-! ## One layer -/

/-- ONE LAYER of the reference: with the weight of edge `e` equal to `dinv (source) * dinv (destination)`, the matrix
    product, the gather, the weighting, the scatter-add into zeros and the bias compute `GcnSpec.conv`. -/
theorem conv_prog (dD : DotDims ⟨2, ![NN, A]⟩ ⟨2, ![A, C]⟩ ⟨2, ![NN, C]⟩)
    (hD1 : dD.lhsContracting = [1]) (hD2 : dD.rhsContracting = [0]) (hD3 : dD.lhsNonContracting = [0])
    (hD4 : dD.rhsNonContracting = [1]) (hD5 : dD.lhsBatch = []) (hD6 : dD.rhsBatch = [])
    (dS : ScatterDims ⟨2, ![NN, C]⟩ ⟨2, ![EE, 1]⟩ ⟨2, ![EE, C]⟩)
    (hS1 : dS.updateWindowDims = [1]) (hS2 : dS.insertedWindowDims = [0]) (hS3 : dS.scatterDimsToOperandDims = [0])
    (hS4 : dS.indexVectorDim = 1)
    (dG : GatherDims ⟨2, ![NN, C]⟩ ⟨2, ![EE, 1]⟩ ⟨2, ![EE, C]⟩)
    (hG1 : dG.offsetDims = [1]) (hG2 : dG.collapsedSliceDims = [0]) (hG3 : dG.operandBatchingDims = [])
    (hG4 : dG.startIndicesBatchingDims = []) (hG5 : dG.startIndexMap = [0]) (hG6 : dG.indexVectorDim = 1)
    (hG7 : dG.sliceSizes = ![1, C])
    (h0 : (⟨0, ![]⟩ : Shape).BroadcastsInDim ⟨2, ![NN, C]⟩ ![])
    (h1 : (⟨1, ![EE]⟩ : Shape).BroadcastsInDim ⟨2, ![EE, 1]⟩ ![0])
    (h2 : (⟨2, ![EE, 1]⟩ : Shape).BroadcastsInDim ⟨2, ![EE, C]⟩ ![0, 1])
    (hb1 : (⟨1, ![C]⟩ : Shape).BroadcastsInDim ⟨2, ![1, C]⟩ ![1])
    (hb2 : (⟨2, ![1, C]⟩ : Shape).BroadcastsInDim ⟨2, ![NN, C]⟩ ![0, 1])
    (X : FVec Ideal ⟨2, ![NN, A]⟩ .f32) (W : FVec Ideal ⟨2, ![A, C]⟩ .f32) (b : FVec Ideal ⟨1, ![C]⟩ .f32)
    (nrm : FVec Ideal ⟨1, ![EE]⟩ .f32) (dstcol srccol dstncol : IVec ⟨2, ![EE, 1]⟩ 32) (dinv : Fin NN → EReal)
    (hn : ∀ e : Fin EE, nrm (ix1 e) = dinv (node srccol e) * dinv (node dstncol e)) :
    addf (Host.scatterAdd (F := Ideal) dS
        (broadcastInDim ⟨2, ![NN, C]⟩ ![] h0 (constant (F := Ideal) ⟨0, ![]⟩ .f32 0x00000000#32)) dstcol
        (mulf (broadcastInDim ⟨2, ![EE, C]⟩ ![0, 1] h2 (broadcastInDim ⟨2, ![EE, 1]⟩ ![0] h1 nrm))
          (Host.gather dG (Host.dotGeneral (F := Ideal) dD none X W) srccol)))
      (broadcastInDim ⟨2, ![NN, C]⟩ ![0, 1] hb2 (broadcastInDim ⟨2, ![1, C]⟩ ![1] hb1 b))
      = conv dinv dstcol srccol dstncol X W (fun f => b (ix1 f)) := by
  funext i
  obtain ⟨n, c, rfl⟩ : ∃ (n : Fin NN) (c : Fin C), i = ix2 n c := ⟨i 0, i 1, eq_ix2 i⟩
  rw [addf_apply, layer_sum_apply dS hS1 hS2 hS3 hS4 dG hG1 hG2 hG3 hG4 hG5 hG6 hG7 h0 h1 h2,
    HostForms.dotGeneral_mm dD hD1 hD2 hD3 hD4 hD5 hD6, HostForms.bias_bcast_bcast]
  unfold conv
  refine congrArg₂ (· + ·) (Finset.sum_congr rfl (fun e _ => ?_)) rfl
  rewrite [hn e]
  rfl

/-! ## The rectifier -/

/-- The maximum with a broadcast zero is the rectifier. -/
theorem relu_prog (h0 : (⟨0, ![]⟩ : Shape).BroadcastsInDim ⟨2, ![NN, C]⟩ ![]) (V : FVec Ideal ⟨2, ![NN, C]⟩ .f32) :
    maximumf V (broadcastInDim ⟨2, ![NN, C]⟩ ![] h0 (constant (F := Ideal) ⟨0, ![]⟩ .f32 0x00000000#32)) = relu V := by
  rw [HostForms.bcast_constant, Ideal.ofBits_zero_f32]
  rfl

/-! ## The edge weights -/

/-- THE WEIGHT OF EDGE `e`: the product of two gathers of single entries of the vector `d`, at the two columns of start
    indices, is `d (source) * d (destination)`, each start index read signed and clamped into the node range. -/
theorem edge_weight_prog (dG : GatherDims ⟨1, ![NN]⟩ ⟨2, ![EE, 1]⟩ ⟨1, ![EE]⟩)
    (hG1 : dG.offsetDims = []) (hG2 : dG.collapsedSliceDims = [0]) (hG3 : dG.operandBatchingDims = [])
    (hG4 : dG.startIndicesBatchingDims = []) (hG5 : dG.startIndexMap = [0]) (hG6 : dG.indexVectorDim = 1)
    (hG7 : dG.sliceSizes = ![1])
    (d : FVec Ideal ⟨1, ![NN]⟩ .f32) (s t : IVec ⟨2, ![EE, 1]⟩ 32) (e : Fin EE) :
    mulf (Host.gather dG d s) (Host.gather dG d t) (ix1 e) = d (ix1 (node s e)) * d (ix1 (node t e)) := by
  rw [mulf_apply, FlatGather.gather_flat dG hG1 hG2 hG3 hG4 hG5 hG6 hG7 (by decide),
    FlatGather.gather_flat dG hG1 hG2 hG3 hG4 hG5 hG6 hG7 (by decide)]
  rfl

end RefLayer

end
-- ==== Proof.RefIsSpec.lean ====
/-
  The reference program computes the three-layer graph convolution with the normalisation on the edges.

  The program builds the graph data from the edge array once (the inverse square roots of the degrees, the columns of
  start indices, the edge weights `dinv (source) * dinv (destination)`), and then runs three layers; each layer is a
  matrix product, a gather of its rows at the edges' sources, the product with the edge weights, a scatter-add into
  zeros at the edges' destinations and a bias, and the first two are followed by the rectifier. The columns of start
  indices are built again for each layer from the same operations of the edge array, so they are the same columns.
  Each layer is `GcnSpec.conv` of the previous layer's output (`layer1`, `layer2`, `layer3`), the rectifier is
  `GcnSpec.relu` (`act1`, `act2`), and the chain of the three is `GcnSpec.refOut` (`ref_is_spec`).
-/
import proofs.«126777_j452_2_alg».proof.Proof.RefGraph
import proofs.«126777_j452_2_alg».proof.Proof.RefLayer

noncomputable section

open scoped BigOperators

namespace Cert.ReferenceIdeal.RefValue

open Cert.ReferenceIdeal Cert.ReferenceIdeal.Gen Idealize.ShloMosaic Idealize.ShloMosaic.ValueIdx

/-! ## The graph data -/

/-- THE WEIGHT OF EDGE `e` is `dinv (source) * dinv (destination)`, both nodes read through a clamped gather. -/
theorem edge_weight (x1 : (⟨S2x1600000, .i32⟩ : BufTy).Contents (Elt Ideal)) (e : Fin GcnSpec.EE) :
    ReadP.val_main_v29 (F := Ideal) x1 (ix1 e)
      = dinvR x1 (GcnSpec.node (srcCol x1) e) * dinvR x1 (GcnSpec.node (dstNCol x1) e) :=
  RefLayer.edge_weight_prog gather_S100000_S1700000x1_S1700000_n_0_n_n_0_1_1 rfl rfl rfl rfl rfl rfl rfl
    (ReadP.val_main_v14 (F := Ideal) x1) (ReadP.val_main_v20 (F := Ideal) x1) (ReadP.val_main_v27 (F := Ideal) x1) e

/-- The first layer's column of source start indices is the one the edge weights were gathered at. -/
theorem srcCol_layer1 (x1 : (⟨S2x1600000, .i32⟩ : BufTy).Contents (Elt Ideal)) :
    ReadP.val_main_v37 (F := Ideal) x1 = srcCol x1 := rfl
/-- So is the second layer's. -/
theorem srcCol_layer2 (x1 : (⟨S2x1600000, .i32⟩ : BufTy).Contents (Elt Ideal)) :
    ReadP.val_main_v55 (F := Ideal) x1 = srcCol x1 := rfl
/-- So is the third layer's. -/
theorem srcCol_layer3 (x1 : (⟨S2x1600000, .i32⟩ : BufTy).Contents (Elt Ideal)) :
    ReadP.val_main_v73 (F := Ideal) x1 = srcCol x1 := rfl
/-- The first layer's column of scatter start indices is the one the degrees were counted at. -/
theorem dstCol_layer1 (x1 : (⟨S2x1600000, .i32⟩ : BufTy).Contents (Elt Ideal)) :
    ReadP.val_main_v42 (F := Ideal) x1 = dstCol x1 := rfl
/-- So is the second layer's. -/
theorem dstCol_layer2 (x1 : (⟨S2x1600000, .i32⟩ : BufTy).Contents (Elt Ideal)) :
    ReadP.val_main_v60 (F := Ideal) x1 = dstCol x1 := rfl
/-- So is the third layer's. -/
theorem dstCol_layer3 (x1 : (⟨S2x1600000, .i32⟩ : BufTy).Contents (Elt Ideal)) :
    ReadP.val_main_v78 (F := Ideal) x1 = dstCol x1 := rfl

/-! ## The three layers -/

/-- THE FIRST LAYER, before the rectifier. -/
theorem layer1 (x0 : (⟨S100000x128, .f32⟩ : BufTy).Contents (Elt Ideal))
    (x1 : (⟨S2x1600000, .i32⟩ : BufTy).Contents (Elt Ideal)) (x2 : (⟨S128x64, .f32⟩ : BufTy).Contents (Elt Ideal))
    (x3 : (⟨S64, .f32⟩ : BufTy).Contents (Elt Ideal)) :
    ReadP.val_main_v46 (F := Ideal) x0 x1 x2 x3
      = GcnSpec.conv (dinvR x1) (dstCol x1) (srcCol x1) (dstNCol x1) x0 x2 (fun f => x3 (ix1 f)) := by
  unfold ReadP.val_main_v46 ReadP.val_main_v45 ReadP.val_main_v44 ReadP.val_main_v43 ReadP.val_main_v41
    ReadP.val_main_cst_8 ReadP.val_main_v40 ReadP.val_main_v39 ReadP.val_main_v31 ReadP.val_main_v38 ReadP.val_main_v30
  rw [srcCol_layer1, dstCol_layer1]
  exact RefLayer.conv_prog dot_S100000x128_S128x64_S100000x64_1_0_0_1_n_n rfl rfl rfl rfl rfl rfl
    scatter_S100000x64_S1700000x1_S1700000x64_1_0_0_1 rfl rfl rfl rfl
    gather_S100000x64_S1700000x1_S1700000x64_1_0_n_n_0_1_164 rfl rfl rfl rfl rfl rfl rfl
    bcast_S_S100000x64 bcast_S1700000_S1700000x1_0 bcast_S1700000x1_S1700000x64_0_1 bcast_S64_S1x64_1
    bcast_S1x64_S100000x64_0_1 x0 x2 x3 (ReadP.val_main_v29 (F := Ideal) x1) (dstCol x1) (srcCol x1) (dstNCol x1)
    (dinvR x1) (edge_weight x1)

/-- The first rectifier. -/
theorem act1 (x0 : (⟨S100000x128, .f32⟩ : BufTy).Contents (Elt Ideal))
    (x1 : (⟨S2x1600000, .i32⟩ : BufTy).Contents (Elt Ideal)) (x2 : (⟨S128x64, .f32⟩ : BufTy).Contents (Elt Ideal))
    (x3 : (⟨S64, .f32⟩ : BufTy).Contents (Elt Ideal)) :
    ReadP.val_main_v47 (F := Ideal) x0 x1 x2 x3 = GcnSpec.relu (ReadP.val_main_v46 (F := Ideal) x0 x1 x2 x3) := by
  unfold ReadP.val_main_v47 ReadP.val_main_call1_v0 ReadP.val_main_call1_cst
  exact RefLayer.relu_prog bcast_S_S100000x64 _

/-- THE SECOND LAYER, before the rectifier, of the first layer's rectified output. -/
theorem layer2 (x0 : (⟨S100000x128, .f32⟩ : BufTy).Contents (Elt Ideal))
    (x1 : (⟨S2x1600000, .i32⟩ : BufTy).Contents (Elt Ideal)) (x2 : (⟨S128x64, .f32⟩ : BufTy).Contents (Elt Ideal))
    (x3 : (⟨S64, .f32⟩ : BufTy).Contents (Elt Ideal)) (x4 : (⟨S64x64, .f32⟩ : BufTy).Contents (Elt Ideal))
    (x5 : (⟨S64, .f32⟩ : BufTy).Contents (Elt Ideal)) :
    ReadP.val_main_v64 (F := Ideal) x0 x1 x2 x3 x4 x5
      = GcnSpec.conv (dinvR x1) (dstCol x1) (srcCol x1) (dstNCol x1) (ReadP.val_main_v47 (F := Ideal) x0 x1 x2 x3) x4
          (fun f => x5 (ix1 f)) := by
  unfold ReadP.val_main_v64 ReadP.val_main_v63 ReadP.val_main_v62 ReadP.val_main_v61 ReadP.val_main_v59
    ReadP.val_main_cst_11 ReadP.val_main_v58 ReadP.val_main_v57 ReadP.val_main_v49 ReadP.val_main_v56 ReadP.val_main_v48
  rw [srcCol_layer2, dstCol_layer2]
  exact RefLayer.conv_prog dot_S100000x64_S64x64_S100000x64_1_0_0_1_n_n rfl rfl rfl rfl rfl rfl
    scatter_S100000x64_S1700000x1_S1700000x64_1_0_0_1 rfl rfl rfl rfl
    gather_S100000x64_S1700000x1_S1700000x64_1_0_n_n_0_1_164 rfl rfl rfl rfl rfl rfl rfl
    bcast_S_S100000x64 bcast_S1700000_S1700000x1_0 bcast_S1700000x1_S1700000x64_0_1 bcast_S64_S1x64_1
    bcast_S1x64_S100000x64_0_1 (ReadP.val_main_v47 (F := Ideal) x0 x1 x2 x3) x4 x5 (ReadP.val_main_v29 (F := Ideal) x1)
    (dstCol x1) (srcCol x1) (dstNCol x1) (dinvR x1) (edge_weight x1)

/-- The second rectifier. -/
theorem act2 (x0 : (⟨S100000x128, .f32⟩ : BufTy).Contents (Elt Ideal))
    (x1 : (⟨S2x1600000, .i32⟩ : BufTy).Contents (Elt Ideal)) (x2 : (⟨S128x64, .f32⟩ : BufTy).Contents (Elt Ideal))
    (x3 : (⟨S64, .f32⟩ : BufTy).Contents (Elt Ideal)) (x4 : (⟨S64x64, .f32⟩ : BufTy).Contents (Elt Ideal))
    (x5 : (⟨S64, .f32⟩ : BufTy).Contents (Elt Ideal)) :
    ReadP.val_main_v65 (F := Ideal) x0 x1 x2 x3 x4 x5
      = GcnSpec.relu (ReadP.val_main_v64 (F := Ideal) x0 x1 x2 x3 x4 x5) := by
  unfold ReadP.val_main_v65 ReadP.val_main_call2_v0 ReadP.val_main_call2_cst
  exact RefLayer.relu_prog bcast_S_S100000x64 _

/-- THE THIRD LAYER, of the second layer's rectified output: the program's result. -/
theorem layer3 (x0 : (⟨S100000x128, .f32⟩ : BufTy).Contents (Elt Ideal))
    (x1 : (⟨S2x1600000, .i32⟩ : BufTy).Contents (Elt Ideal)) (x2 : (⟨S128x64, .f32⟩ : BufTy).Contents (Elt Ideal))
    (x3 : (⟨S64, .f32⟩ : BufTy).Contents (Elt Ideal)) (x4 : (⟨S64x64, .f32⟩ : BufTy).Contents (Elt Ideal))
    (x5 : (⟨S64, .f32⟩ : BufTy).Contents (Elt Ideal)) (x6 : (⟨S64x40, .f32⟩ : BufTy).Contents (Elt Ideal))
    (x7 : (⟨S40, .f32⟩ : BufTy).Contents (Elt Ideal)) :
    ReadP.val_main_v82 (F := Ideal) x0 x1 x2 x3 x4 x5 x6 x7
      = GcnSpec.conv (dinvR x1) (dstCol x1) (srcCol x1) (dstNCol x1)
          (ReadP.val_main_v65 (F := Ideal) x0 x1 x2 x3 x4 x5) x6 (fun f => x7 (ix1 f)) := by
  unfold ReadP.val_main_v82 ReadP.val_main_v81 ReadP.val_main_v80 ReadP.val_main_v79 ReadP.val_main_v77
    ReadP.val_main_cst_14 ReadP.val_main_v76 ReadP.val_main_v75 ReadP.val_main_v67 ReadP.val_main_v74 ReadP.val_main_v66
  rw [srcCol_layer3, dstCol_layer3]
  exact RefLayer.conv_prog dot_S100000x64_S64x40_S100000x40_1_0_0_1_n_n rfl rfl rfl rfl rfl rfl
    scatter_S100000x40_S1700000x1_S1700000x40_1_0_0_1 rfl rfl rfl rfl
    gather_S100000x40_S1700000x1_S1700000x40_1_0_n_n_0_1_140 rfl rfl rfl rfl rfl rfl rfl
    bcast_S_S100000x40 bcast_S1700000_S1700000x1_0 bcast_S1700000x1_S1700000x40_0_1 bcast_S40_S1x40_1
    bcast_S1x40_S100000x40_0_1 (ReadP.val_main_v65 (F := Ideal) x0 x1 x2 x3 x4 x5) x6 x7
    (ReadP.val_main_v29 (F := Ideal) x1) (dstCol x1) (srcCol x1) (dstNCol x1) (dinvR x1) (edge_weight x1)

/-! ## The whole program -/

/-- THE REFERENCE IS THE SPECIFICATION: the program's result is the three-layer network with the normalisation on the
    edges, of the program's arguments and the graph data read off the edge array. -/
theorem ref_is_spec (x0 : (⟨S100000x128, .f32⟩ : BufTy).Contents (Elt Ideal))
    (x1 : (⟨S2x1600000, .i32⟩ : BufTy).Contents (Elt Ideal)) (x2 : (⟨S128x64, .f32⟩ : BufTy).Contents (Elt Ideal))
    (x3 : (⟨S64, .f32⟩ : BufTy).Contents (Elt Ideal)) (x4 : (⟨S64x64, .f32⟩ : BufTy).Contents (Elt Ideal))
    (x5 : (⟨S64, .f32⟩ : BufTy).Contents (Elt Ideal)) (x6 : (⟨S64x40, .f32⟩ : BufTy).Contents (Elt Ideal))
    (x7 : (⟨S40, .f32⟩ : BufTy).Contents (Elt Ideal)) :
    ReadP.val_main_v82 (F := Ideal) x0 x1 x2 x3 x4 x5 x6 x7
      = GcnSpec.refOut (dinvR x1) (dstCol x1) (srcCol x1) (dstNCol x1) x0 x2 (fun f => x3 (ix1 f)) x4
          (fun f => x5 (ix1 f)) x6 (fun f => x7 (ix1 f)) := by
  unfold GcnSpec.refOut
  rw [layer3, act2, layer2, act1, layer1]

end Cert.ReferenceIdeal.RefValue

end
-- ==== Proof.LibFlatScatter.lean ====
/-
  The scatter-add of a flat histogram, read at an index.

  A one-axis operand of `N` entries receives `M` updates; update `j` carries one start index, the word the
  scatter indices hold at `(j, 0)`, read signed and not clamped. The update lands at entry `i` exactly when that
  signed integer is `i`; an update whose integer is outside `[0, N)` is dropped. So entry `i` of the result is the
  operand's entry plus the sum of the updates whose word reads `i`.
-/
import Idealize.ShloMosaic.PureOps.Ideal
import Idealize.ShloMosaic.PureOps.Ideal.Laws
import Idealize.ShloMosaic.Lib.ValueIdx

noncomputable section

namespace Cert.ReferenceIdeal.RefValue

open Idealize.ShloMosaic Idealize.ShloMosaic.ValueIdx
open scoped BigOperators

/-- The dimension numbers of `x.at[idx].add(u)` for a flat `x : [N]`, `idx : [M, 1]`, `u : [M]`. -/
abbrev flatScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The scatter-indices index `(j, 0)` of update `j`. -/
abbrev flatSi {M : Nat} (j : (⟨1, ![M]⟩ : Shape).Idx) : (⟨2, ![M, 1]⟩ : Shape).Idx :=
  ix2 (n0 := M) (n1 := 1) ⟨(j 0).val, (j 0).isLt⟩ ⟨0, Nat.one_pos⟩

section
variable {N M w : Nat} (wf : ScatterDims.WF ⟨1, ![N]⟩ ⟨2, ![M, 1]⟩ ⟨1, ![M]⟩ [] [0] [0] 1)

/-- The start of update `j` on the one operand axis is its word read signed. -/
theorem flatScatter_start (idx : IVec ⟨2, ![M, 1]⟩ w) (j : (⟨1, ![M]⟩ : Shape).Idx) (a : Fin 1) :
    (flatScatterDims N M wf).start j idx a = (idx (flatSi j)).toInt := by
  obtain rfl : a = 0 := Subsingleton.elim _ _
  unfold ScatterDims.start
  rw [dif_pos (show (0 : Fin 1) ∈ (flatScatterDims N M wf).scatterDimsToOperandDims from List.mem_singleton.mpr rfl)]
  have hsi : (flatScatterDims N M wf).siIdx j ⟨List.idxOf (0 : Fin 1) (flatScatterDims N M wf).scatterDimsToOperandDims,
      List.idxOf_lt_length_iff.2 (List.mem_singleton.mpr rfl)⟩ = flatSi j := by
    funext b; refine Fin.ext ?_
    match b with
    | ⟨0, _⟩ => rfl
    | ⟨1, _⟩ => rfl
  rw [hsi]

/-- There is no window axis: the window coordinate is zero. -/
theorem flatScatter_window (j : (⟨1, ![M]⟩ : Shape).Idx) (a : Fin 1) :
    (flatScatterDims N M wf).window j a = 0 := by
  obtain rfl : a = 0 := Subsingleton.elim _ _
  unfold ScatterDims.window
  rw [dif_neg]
  intro h
  have : (0 : Fin 1) ∉ [(0 : Fin 1)] := (List.mem_filter.1 h).2 |> of_decide_eq_true
  exact this (List.mem_singleton.mpr rfl)

/-- Update `j` lands at entry `i` exactly when its word, read signed, is `i`. -/
theorem flatScatter_resultIdx (idx : IVec ⟨2, ![M, 1]⟩ w) (j : (⟨1, ![M]⟩ : Shape).Idx) (i : (⟨1, ![N]⟩ : Shape).Idx) :
    (flatScatterDims N M wf).resultIdx? j idx = some i ↔ (idx (flatSi j)).toInt = ((i 0).val : Int) := by
  unfold ScatterDims.resultIdx?
  have hi : (i 0).val < N := (i 0).isLt
  split
  · rename_i h
    have h0 := h 0
    rw [flatScatter_start, flatScatter_window] at h0
    constructor
    · intro e
      have e' := congrFun (Option.some.inj e) 0
      have e'' := congrArg Fin.val e'
      simp only [flatScatter_start, flatScatter_window] at e''
      omega
    · intro e
      congr 1
      funext a
      obtain rfl : a = 0 := Subsingleton.elim _ _
      refine Fin.ext ?_
      simp only [flatScatter_start, flatScatter_window]
      omega
  · rename_i h
    constructor
    · intro e; exact absurd e (by simp)
    · intro e
      exfalso; apply h
      intro a
      obtain rfl : a = 0 := Subsingleton.elim _ _
      rw [flatScatter_start, flatScatter_window, e]
      show 0 ≤ ((i 0).val : Int) + ((0 : Nat) : Int) ∧ ((i 0).val : Int) + ((0 : Nat) : Int) < (N : Int)
      omega

/-- **The flat scatter-add read at an entry**: the operand's entry plus the updates whose word reads that entry. -/
theorem flatScatterAdd_apply (x : (⟨1, ![N]⟩ : Shape).Idx → EReal) (idx : IVec ⟨2, ![M, 1]⟩ w)
    (upd : (⟨1, ![M]⟩ : Shape).Idx → EReal) (i : (⟨1, ![N]⟩ : Shape).Idx) :
    Ideal.hostScatterAdd (flatScatterDims N M wf) x idx upd i
      = x i + ∑ j : (⟨1, ![M]⟩ : Shape).Idx, if (idx (flatSi j)).toInt = ((i 0).val : Int) then upd j else 0 := by
  unfold Ideal.hostScatterAdd
  rw [Finset.sum_filter]
  congr 1
  refine Finset.sum_congr rfl fun j _ => ?_
  simp only [flatScatter_resultIdx]

end

/-! ## The flat sum over `R * C` updates as a double sum -/

/-- A sum over the flat update index `u < M = R * C` is the double sum over `(r, c)` with `u = c + C * r`. -/
theorem sum_flat_eq_double {R C M : Nat} (hM : R * C = M) (f : (⟨1, ![M]⟩ : Shape).Idx → EReal) :
    ∑ j : (⟨1, ![M]⟩ : Shape).Idx, f j
      = ∑ r : Fin R, ∑ c : Fin C, f (ix1 (n := M) ⟨c.val + C * r.val, by
          have := r.isLt; have := c.isLt
          calc c.val + C * r.val < C + C * r.val := by omega
            _ = C * (r.val + 1) := by ring
            _ ≤ C * R := Nat.mul_le_mul_left _ (by omega)
            _ = M := by rw [Nat.mul_comm]; exact hM⟩) := by
  subst hM
  let e : (⟨1, ![R * C]⟩ : Shape).Idx ≃ Fin R × Fin C :=
    { toFun := fun j => finProdFinEquiv.symm ⟨(j 0).val, (j 0).isLt⟩
      invFun := fun p => ix1 (n := R * C) (finProdFinEquiv p)
      left_inv := fun j => by
        funext a; match a with
        | ⟨0, _⟩ => exact Fin.ext (by simp; exact Nat.mod_add_div _ _)
      right_inv := fun p => by
        show finProdFinEquiv.symm (finProdFinEquiv p) = p
        exact Equiv.symm_apply_apply _ _ }
  rw [← Finset.sum_product', ← e.symm.sum_comp]
  rfl

/-! ## The words of the flat index -/

/-- `c · 100 + b` as 32-bit words, for a class `c < 40` and a bin word `b < 100`, does not wrap. -/
theorem flatWord_toNat (c : Nat) (hc : c < 40) (b : BitVec 32) (hb : b.toNat < 100) :
    (IntOp.addi (IntOp.muli (BitVec.ofNat 32 c) 100#32) b).toNat = c * 100 + b.toNat := by
  unfold IntOp.addi IntOp.muli
  rw [BitVec.toNat_add, BitVec.toNat_mul, BitVec.toNat_ofNat]
  have h100 : (100#32 : BitVec 32).toNat = 100 := rfl
  rw [h100]
  omega

/-- A word below `2^31` reads signed as its natural number. -/
theorem toInt_of_lt (f : BitVec 32) (h : f.toNat < 2147483648) : f.toInt = (f.toNat : Int) := by
  rw [BitVec.toInt_eq_toNat_cond, if_pos (by omega)]

/-- A word below `2^31` is not negative, so the negative-index wrap `select (f < 0) (f + n) f` keeps it. -/
theorem wrapSelect_of_lt (f n : BitVec 32) (h : f.toNat < 2147483648) :
    Scalar.select (IntOp.cmpi .slt f 0#32) (IntOp.addi f n) f = f := by
  have hs : f.slt 0#32 = false := by
    rw [BitVec.slt, toInt_of_lt f h]
    simp
  have hc : IntOp.cmpi .slt f 0#32 = 0#1 := by
    show BitVec.ofBool (f.slt 0#32) = 0#1
    rw [hs]; rfl
  rw [hc, select_zero]

end Cert.ReferenceIdeal.RefValue

end
-- ==== Proof.GraphLink.lean ====
/-
  An edge that lands on node `n` has destination `n`.

  Both columns of the reference's graph data are read off the same word: the destination word `w` of edge `e`. The
  scatter that aggregates reads `w` signed and does not clamp it: edge `e` lands on node `n` exactly when the signed
  value of `w` is `n`, a number in `[0, 100000)`. The gather that fetches the destination's normalisation factor reads the
  word `select (w < 0) (w + 100000) w`, signed, clamped into `[0, 99999]`. When the signed value of `w` is in
  `[0, 100000)`, the word is not negative, so the select keeps `w`, and the clamp keeps its value: the gather reads node
  `n` too.
-/
import proofs.«126777_j452_2_alg».proof.Proof.RefGraph
import proofs.«126777_j452_2_alg».proof.Proof.LibFlatScatter

noncomputable section

open scoped BigOperators

namespace Cert.ReferenceIdeal.RefValue

open Cert.ReferenceIdeal Idealize.ShloMosaic Idealize.ShloMosaic.ValueIdx

/-- The destination word of edge `e`. -/
def dstWord (x1 : (⟨S2x1600000, .i32⟩ : BufTy).Contents (Elt Ideal)) (e : Fin GcnSpec.EE) : BitVec 32 :=
  ReadP.val_main_v6 (F := Ideal) x1 (ix1 e)

/-- The column of scatter start indices holds, at edge `e`, the destination word of `e`. -/
theorem dstCol_apply (x1 : (⟨S2x1600000, .i32⟩ : BufTy).Contents (Elt Ideal)) (e : Fin GcnSpec.EE) :
    dstCol x1 (ix2 e 0) = dstWord x1 e := by
  unfold dstCol dstWord
  rw [ReadP.val_main_v9_apply]
  refine congrArg _ (funext fun a => ?_)
  match a with
  | ⟨0, _⟩ => rfl

/-- The column of gather start indices holds, at edge `e`, the destination word of `e` with a negative word wrapped by
    the node count. -/
theorem dstNCol_apply (x1 : (⟨S2x1600000, .i32⟩ : BufTy).Contents (Elt Ideal)) (e : Fin GcnSpec.EE) :
    dstNCol x1 (ix2 e 0)
      = Scalar.select (IntOp.cmpi .slt (dstWord x1 e) 0#32) (IntOp.addi (dstWord x1 e) 100000#32) (dstWord x1 e) := by
  unfold dstNCol dstWord
  rw [ReadP.val_main_v27_apply]
  have hi : ReadP.idx_main_v27 (ix2 e 0) = ix1 e := funext fun a => by
    match a with
    | ⟨0, _⟩ => rfl
  rw [hi, ReadP.val_main_v26_apply, ReadP.val_main_v23_apply, ReadP.val_main_v25_apply, ReadP.val_main_v22_apply,
    ReadP.val_main_v24_apply]
  rfl

/-- A word whose signed value is in `[0, 100000)`: the negative-word wrap keeps it and the clamp into `[0, 99999]`
    keeps its value. -/
theorem clamp_wrap_of_mem (w : BitVec 32) (h0 : 0 ≤ w.toInt) (h1 : w.toInt < 100000) :
    min (Scalar.select (IntOp.cmpi .slt w 0#32) (IntOp.addi w 100000#32) w).toInt.toNat (100000 - 1) = w.toInt.toNat := by
  have hlt : w.toNat < 2147483648 := by
    have h2 := BitVec.toInt_eq_toNat_cond w
    have h3 := w.isLt
    by_contra hc
    rw [if_neg (by omega)] at h2
    omega
  rw [wrapSelect_of_lt w _ hlt]
  omega

/-- AN EDGE THAT LANDS ON NODE `n` HAS DESTINATION `n`. -/
theorem link (x1 : (⟨S2x1600000, .i32⟩ : BufTy).Contents (Elt Ideal)) :
    ∀ (e : Fin GcnSpec.EE) (n : Fin GcnSpec.NN),
      RowGatherScatter.rowOf (dstCol x1) e = (some n : Option (Fin GcnSpec.NN)) → GcnSpec.node (dstNCol x1) e = n := by
  intro e n h
  unfold RowGatherScatter.rowOf at h
  by_cases hw : 0 ≤ (dstCol x1 (ix2 e 0)).toInt ∧ (dstCol x1 (ix2 e 0)).toInt < ((GcnSpec.NN : Nat) : Int)
  · rw [dif_pos hw] at h
    have hn := Option.some.inj h
    refine Fin.ext ?_
    rw [← hn]
    show min (dstNCol x1 (ix2 e 0)).toInt.toNat (100000 - 1) = (dstCol x1 (ix2 e 0)).toInt.toNat
    rw [dstCol_apply] at hw ⊢
    rw [dstNCol_apply]
    exact clamp_wrap_of_mem _ hw.1 (by exact_mod_cast hw.2)
  · rw [dif_neg hw] at h
    exact absurd h (by simp)

end Cert.ReferenceIdeal.RefValue

end
-- ==== Proof.DinvReal.lean ====
/-
  The inverse square roots of the degrees are real numbers.

  The degree of node `n` is the entry `n` of a flat scatter-add: 1700000 ones added into 100000 zeros at the edges'
  destination words. So it is zero plus a finite sum of terms each of which is one or zero: a real number. The
  normalisation factor of node `n` is `select (deg n > 0) (rsqrt (deg n)) 0`. Where the degree is a positive real `r`,
  its inverse square root is the real number `(√r)⁻¹`; elsewhere the select takes the constant zero. Either way the
  factor is a real number.
-/
import proofs.«126777_j452_2_alg».proof.Proof.RefGraph
import proofs.«126777_j452_2_alg».proof.Proof.LibFlatScatter
import Idealize.ShloMosaic.Lib.IdealHost

noncomputable section

open scoped BigOperators

namespace Cert.ReferenceIdeal.RefValue

open Cert.ReferenceIdeal Idealize.ShloMosaic Idealize.ShloMosaic.ValueIdx

/-- A flat scatter-add of real updates into a real operand is real, for any dimension numbers with the flat scatter's
    fields. -/
theorem isReal_flatScatterAdd {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (x : (⟨1, ![N]⟩ : Shape).Idx → EReal) (idx : IVec ⟨2, ![M, 1]⟩ w)
    (upd : (⟨1, ![M]⟩ : Shape).Idx → EReal) (hx : ChebAlgebra.IsReal x) (hu : ChebAlgebra.IsReal upd) :
    ChebAlgebra.IsReal (Ideal.hostScatterAdd d x idx upd) := by
  obtain ⟨uw, iw, sd, iv, wf⟩ := d
  simp only at h1 h2 h3 h4
  subst h1 h2 h3 h4
  intro i
  have e := flatScatterAdd_apply wf x idx upd i
  obtain ⟨a, ha⟩ := hx i
  obtain ⟨s, hs⟩ := ChebAlgebra.isReal_sum_ite Finset.univ
    (fun (i : (⟨1, ![N]⟩ : Shape).Idx) (j : (⟨1, ![M]⟩ : Shape).Idx) => (idx (flatSi j)).toInt = ((i 0).val : Int))
    (fun _ j => upd j) (fun _ j => hu j) i
  refine ⟨a + s, ?_⟩
  rw [EReal.coe_add, ← ha, ← hs]
  exact e

/-- The degrees are real numbers. -/
theorem deg_real (x1 : (⟨S2x1600000, .i32⟩ : BufTy).Contents (Elt Ideal)) :
    ChebAlgebra.IsReal (ReadP.val_main_v10 (F := Ideal) x1) := by
  unfold ReadP.val_main_v10 Host.scatterAdd
  rw [Ideal.hostScatterAdd_def]
  refine isReal_flatScatterAdd scatter_S100000_S1700000x1_S1700000_n_0_0_1 rfl rfl rfl rfl _ _ _ ?_ ?_
  · intro i
    refine ⟨0, ?_⟩
    rw [ReadP.val_main_v8_apply, ReadP.val_main_cst_0_apply]
    exact Ideal.ofBits_zero_f32.trans EReal.coe_zero.symm
  · intro j
    refine ⟨1, ?_⟩
    rw [ReadP.val_main_v7_apply, ReadP.val_main_cst_apply]
    exact Ideal.ofBits_one_f32.trans EReal.coe_one.symm

/-- For a real `r`: `select (r > 0) (rsqrt r) 0` is a real number. -/
theorem select_rsqrt_real (r : ℝ) :
    ∃ q : ℝ, Scalar.select (Ideal.cmp .ogt (r : EReal) 0) (Ideal.rsqrt (r : EReal)) (0 : EReal) = (q : EReal) := by
  by_cases hpos : 0 < r
  · have hc : Ideal.cmp .ogt (r : EReal) 0 = 1#1 := by
      unfold Ideal.cmp
      simp [hpos]
    rw [hc, select_one]
    refine ⟨(Real.sqrt r)⁻¹, ?_⟩
    show (if r < 0 then (⊥ : EReal) else if r = 0 then ⊤ else (((Real.sqrt r)⁻¹ : ℝ) : EReal)) = _
    rw [if_neg (not_lt.mpr hpos.le), if_neg hpos.ne']
  · have hc : Ideal.cmp .ogt (r : EReal) 0 = 0#1 := by
      unfold Ideal.cmp
      simp [hpos]
    rw [hc, select_zero]
    exact ⟨0, EReal.coe_zero.symm⟩

/-- THE NORMALISATION FACTORS ARE REAL NUMBERS. -/
theorem dinvR_real (x1 : (⟨S2x1600000, .i32⟩ : BufTy).Contents (Elt Ideal)) : ChebAlgebra.IsReal (dinvR x1) := by
  intro n
  unfold dinvR
  rw [ReadP.val_main_v14_apply, ReadP.val_main_v12_apply, ReadP.val_main_v13_apply, ReadP.val_main_call0_v1_apply,
    ReadP.val_main_call0_v0_apply, ReadP.val_main_cst_2_apply, ReadP.val_main_v11_apply, ReadP.val_main_cst_1_apply]
  obtain ⟨r, hr⟩ := deg_real x1 (ix1 n)
  rw [hr, Ideal.ofBits_def, Ideal.ofBits_zero_f32, Ideal.hostUnary_rsqrt_def]
  exact select_rsqrt_real r

end Cert.ReferenceIdeal.RefValue

end
-- ==== Proof.LibFiniteReal.lean ====
/-
  FROM "EVERY ENTRY IS BELOW +∞ IN ABSOLUTE VALUE" TO "EVERY ENTRY IS A REAL NUMBER", at the ideal values
  (floats are extended reals), independent of any particular program.
  A precondition "every entry of `x` is finite" prints, per float array `x`, as: the absolute value of `x`, the
  f32 word 0x7F800000 broadcast to `x`'s shape, their elementwise ordered less-than (an array of one-bit words), and the
  reduction of that array by `and` over all axes from the constant 1. This file reads that back:
  • `real_of_abs_lt_top`: an extended real whose absolute value compares below +∞ is a real number;
  • `ofBits_inf_f32`, `broadcast_inf_apply`: the word 0x7F800000 is +∞, and so is its broadcast at every index;
  • `forall_real_of_all_abs_lt`: if the reduction is 1 then every entry of `x` is a real number, against any array that
    is +∞ everywhere; `forall_real_of_all_abs_lt_inf`: the same against the broadcast word, the form a printed
    precondition has.
  The conclusion is spelt out, `∀ i, ∃ r : ℝ, x i = (r : EReal)`: the statement that `x` is an array of real numbers.
-/
import Idealize.ShloMosaic.Lib.ReduceAll
import Idealize.ShloMosaic.PureOps.Ideal

noncomputable section

namespace FiniteReal

open Idealize.ShloMosaic

/-- An extended real whose absolute value `max x (-x)` compares (ordered less-than, as a one-bit word) below +∞ is a
    real number: at ⊥ and at ⊤ the absolute value is ⊤, and ⊤ < ⊤ is false. -/
theorem real_of_abs_lt_top (x : EReal) (h : Ideal.cmp .olt (max x (-x)) ⊤ = 1#1) : ∃ r : ℝ, x = (r : EReal) := by
  induction x using EReal.rec with
  | bot => exact absurd h (by simp [Ideal.cmp])
  | coe r => exact ⟨r, rfl⟩
  | top => exact absurd h (by simp [Ideal.cmp])

/-- The f32 word 0x7F800000 denotes +∞. -/
theorem ofBits_inf_f32 : Ideal.ofBits .f32 0x7F800000#32 = ⊤ := by simp [Ideal.ofBits, Ideal.ieee]

/-- The word 0x7F800000 as a constant of any shape, broadcast to any shape, reads +∞ at every index. -/
theorem broadcast_inf_apply {u s : Shape} (dims : Fin u.rank → Fin s.rank) (hb : u.BroadcastsInDim s dims) (i : s.Idx) :
    broadcastInDim s dims hb (constant (F := Ideal) u .f32 0x7F800000#32) i = ⊤ := by
  unfold broadcastInDim
  exact ofBits_inf_f32

/-- If the `and` over ALL entries of "the absolute value of `x` is below `B`" is 1, and `B` is +∞ everywhere, then
    every entry of `x` is a real number. (`t` has one index: the reduction is over all axes.) -/
theorem forall_real_of_all_abs_lt {s t u : Shape} {axes : List (Fin s.rank)} [Subsingleton t.Idx]
    (x B : FVec Ideal s .f32) (hB : ∀ i, B i = ⊤) (init : u.Idx → BitVec 1) (h : s.ReducesTo axes t) (hu : 0 < u.numel)
    (j : t.Idx) (e : Host.reduce IntOp.andi (cmpf .olt (Host.absf x) B) init h hu j = 1#1) :
    ∀ i, ∃ r : ℝ, x i = (r : EReal) := fun i => by
  have hi := Host.reduce_andi_all (cmpf .olt (Host.absf x) B) init h hu j e i
  refine real_of_abs_lt_top (x i) ?_
  have : cmpf .olt (Host.absf x) B i = Ideal.cmp .olt (max (x i) (-(x i))) (B i) := rfl
  rw [this, hB i] at hi
  exact hi

/-- The printed form: against the word 0x7F800000 broadcast to `x`'s shape. -/
theorem forall_real_of_all_abs_lt_inf {s t u v : Shape} {axes : List (Fin s.rank)} [Subsingleton t.Idx]
    (x : FVec Ideal s .f32) (dims : Fin v.rank → Fin s.rank) (hb : v.BroadcastsInDim s dims)
    (init : u.Idx → BitVec 1) (h : s.ReducesTo axes t) (hu : 0 < u.numel) (j : t.Idx)
    (e : Host.reduce IntOp.andi
          (cmpf .olt (Host.absf x) (broadcastInDim s dims hb (constant (F := Ideal) v .f32 0x7F800000#32))) init h hu j = 1#1) :
    ∀ i, ∃ r : ℝ, x i = (r : EReal) :=
  forall_real_of_all_abs_lt x _ (broadcast_inf_apply dims hb) init h hu j e

end FiniteReal

end
-- ==== Proof.PreReal.lean ====
/-
  From "every float argument is finite" to "every float argument is an array of real numbers".

  The precondition is printed as one boolean: for each of the seven float arguments, the conjunction over all entries
  of "the absolute value of the entry is below +∞", and the seven conjunctions and-ed together. When that boolean is
  true, each of the seven conjunctions is true, so every entry of every float argument has absolute value below +∞;
  and an extended real whose absolute value is below +∞ is a real number. (The second argument is the integer array of
  the edges; the precondition says nothing about it.)
-/
import proofs.«126777_j452_2_alg».proof.Pre_finite_inputs
import proofs.«126777_j452_2_alg».proof.Proof.LibFiniteReal
import proofs.«126777_j452_2_alg».proof.Proof.LibChebAlgebra
import Idealize.ShloMosaic.Lib.ValueIdx

noncomputable section

open scoped BigOperators

namespace Cert.PreReal

open Idealize.ShloMosaic Idealize.ShloMosaic.ValueIdx Cert.Pre_finite_inputs Cert.Pre_finite_inputs.Facts

/-- The scalar shape has one index. -/
instance : Subsingleton (⟨0, ![]⟩ : Shape).Idx := ⟨fun a b => funext fun d => d.elim0⟩

/-- Under the precondition, each of the seven float arguments is an array of real numbers. -/
theorem real_of_pre [Cert.Pre_finite_inputs.Facts]
    (a0 : FVec Ideal S100000x128 .f32) (a1 : IVec S2x1600000 32) (a2 : FVec Ideal S128x64 .f32)
    (a3 : FVec Ideal S64 .f32) (a4 : FVec Ideal S64x64 .f32) (a5 : FVec Ideal S64 .f32)
    (a6 : FVec Ideal S64x40 .f32) (a7 : FVec Ideal S40 .f32)
    (h : Cert.Pre_finite_inputs.fn (F := Ideal) a0 a1 a2 a3 a4 a5 a6 a7 = fun _ => 1#1) :
    ChebAlgebra.IsReal a0 ∧ ChebAlgebra.IsReal a2 ∧ ChebAlgebra.IsReal a3 ∧ ChebAlgebra.IsReal a4
      ∧ ChebAlgebra.IsReal a5 ∧ ChebAlgebra.IsReal a6 ∧ ChebAlgebra.IsReal a7 := by
  have h0 := congrFun h ix0
  dsimp only [fn, fn_part1] at h0
  -- the boolean is a left-nested conjunction of the seven per-argument conjunctions
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨FiniteReal.forall_real_of_all_abs_lt_inf a0 _ _ _ _ _ _ e0,
    FiniteReal.forall_real_of_all_abs_lt_inf a2 _ _ _ _ _ _ e2,
    FiniteReal.forall_real_of_all_abs_lt_inf a3 _ _ _ _ _ _ e3,
    FiniteReal.forall_real_of_all_abs_lt_inf a4 _ _ _ _ _ _ e4,
    FiniteReal.forall_real_of_all_abs_lt_inf a5 _ _ _ _ _ _ e5,
    FiniteReal.forall_real_of_all_abs_lt_inf a6 _ _ _ _ _ _ e6,
    FiniteReal.forall_real_of_all_abs_lt_inf a7 _ _ _ _ _ _ e7⟩

end Cert.PreReal

end
-- ==== Proof.KernelChain.lean ====
/-
  The buffers the launches and the gathers read, followed through the program.

  The program computes, once, the source words and the destination words of the 1700000 edges and the column of inverse
  square roots of the degrees; every later stretch of host operations and every launch reads them again and writes
  none of them. The weights and biases are arguments and nobody writes them either. So at each stage of the fold of
  buffer contents these buffers hold what they held when first written (or at launch): one equation per buffer and stage,
  each from the previous stage's — a stretch of host operations keeps a buffer it does not write, a launch keeps every
  buffer that is not one of its arrays and keeps its INPUT arrays as it found them.
-/
import proofs.«126777_j452_2_alg».proof.Proof.Gen.KernelIdeal.Frame
import proofs.«126777_j452_2_alg».proof.Proof.Spec

set_option maxRecDepth 16384

noncomputable section

namespace Cert.KernelIdeal.KValue

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The source words of the edges: what the first stretch of host operations leaves in their buffer. -/
abbrev v3K (c : Dev nD) : S1700000.Idx → BitVec 32 := W1 m ρ c (Proc.devRef .tc main_v3)
/-- The destination words of the edges. -/
abbrev v6K (c : Dev nD) : S1700000.Idx → BitVec 32 := W1 m ρ c (Proc.devRef .tc main_v6)
/-- The inverse square roots of the degrees, as a column. -/
abbrev v15K (c : Dev nD) : S100000x1.Idx → EReal := W3 m ρ c (Proc.devRef .tc main_v15)

/-- A stretch of host operations keeps a buffer none of its operations writes. -/
macro "stretch_keeps" : tactic => `(tactic| (
  refine StableHlo.after_of_forall_not_mem (b := _) _ _ (List.forall_iff_forall_mem.mp ?_)
  simp only [hostOps0, hostOps0_1, hostOps0_2, hostOps1, hostOps2, hostOps3, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

theorem W1_v3 (c : Dev nD) : W1 m ρ c (Proc.devRef .tc main_v3) = v3K m ρ c := rfl
theorem W2_v3 (c : Dev nD) : W2 m ρ c (Proc.devRef .tc main_v3) = v3K m ρ c :=
  (show W2 m ρ c (Proc.devRef .tc main_v3) = W1 m ρ c (Proc.devRef .tc main_v3) from (by stretch_keeps)).trans (W1_v3 m ρ c)
theorem W3_v3 (c : Dev nD) : W3 m ρ c (Proc.devRef .tc main_v3) = v3K m ρ c :=
  (show W3 m ρ c (Proc.devRef .tc main_v3) = W2 m ρ c (Proc.devRef .tc main_v3) from (by stretch_keeps)).trans (W2_v3 m ρ c)
theorem W4_v3 (c : Dev nD) : W4 m ρ c (Proc.devRef .tc main_v3) = v3K m ρ c :=
  (show W4 m ρ c (Proc.devRef .tc main_v3) = W3 m ρ c (Proc.devRef .tc main_v3) from (W4_of_ne m ρ c main_v3 (by decide))).trans (W3_v3 m ρ c)
theorem W5_v3 (c : Dev nD) : W5 m ρ c (Proc.devRef .tc main_v3) = v3K m ρ c :=
  (show W5 m ρ c (Proc.devRef .tc main_v3) = W4 m ρ c (Proc.devRef .tc main_v3) from (by stretch_keeps)).trans (W4_v3 m ρ c)
theorem W6_v3 (c : Dev nD) : W6 m ρ c (Proc.devRef .tc main_v3) = v3K m ρ c :=
  (show W6 m ρ c (Proc.devRef .tc main_v3) = W5 m ρ c (Proc.devRef .tc main_v3) from (W6_of_ne m ρ c main_v3 (by decide))).trans (W5_v3 m ρ c)
theorem W7_v3 (c : Dev nD) : W7 m ρ c (Proc.devRef .tc main_v3) = v3K m ρ c :=
  (show W7 m ρ c (Proc.devRef .tc main_v3) = W6 m ρ c (Proc.devRef .tc main_v3) from (by stretch_keeps)).trans (W6_v3 m ρ c)
theorem W8_v3 (c : Dev nD) : W8 m ρ c (Proc.devRef .tc main_v3) = v3K m ρ c :=
  (show W8 m ρ c (Proc.devRef .tc main_v3) = W7 m ρ c (Proc.devRef .tc main_v3) from (W8_of_ne m ρ c main_v3 (by decide))).trans (W7_v3 m ρ c)

theorem W1_v6 (c : Dev nD) : W1 m ρ c (Proc.devRef .tc main_v6) = v6K m ρ c := rfl
theorem W2_v6 (c : Dev nD) : W2 m ρ c (Proc.devRef .tc main_v6) = v6K m ρ c :=
  (show W2 m ρ c (Proc.devRef .tc main_v6) = W1 m ρ c (Proc.devRef .tc main_v6) from (by stretch_keeps)).trans (W1_v6 m ρ c)
theorem W3_v6 (c : Dev nD) : W3 m ρ c (Proc.devRef .tc main_v6) = v6K m ρ c :=
  (show W3 m ρ c (Proc.devRef .tc main_v6) = W2 m ρ c (Proc.devRef .tc main_v6) from (by stretch_keeps)).trans (W2_v6 m ρ c)
theorem W4_v6 (c : Dev nD) : W4 m ρ c (Proc.devRef .tc main_v6) = v6K m ρ c :=
  (show W4 m ρ c (Proc.devRef .tc main_v6) = W3 m ρ c (Proc.devRef .tc main_v6) from (W4_of_ne m ρ c main_v6 (by decide))).trans (W3_v6 m ρ c)
theorem W5_v6 (c : Dev nD) : W5 m ρ c (Proc.devRef .tc main_v6) = v6K m ρ c :=
  (show W5 m ρ c (Proc.devRef .tc main_v6) = W4 m ρ c (Proc.devRef .tc main_v6) from (by stretch_keeps)).trans (W4_v6 m ρ c)
theorem W6_v6 (c : Dev nD) : W6 m ρ c (Proc.devRef .tc main_v6) = v6K m ρ c :=
  (show W6 m ρ c (Proc.devRef .tc main_v6) = W5 m ρ c (Proc.devRef .tc main_v6) from (W6_of_ne m ρ c main_v6 (by decide))).trans (W5_v6 m ρ c)
theorem W7_v6 (c : Dev nD) : W7 m ρ c (Proc.devRef .tc main_v6) = v6K m ρ c :=
  (show W7 m ρ c (Proc.devRef .tc main_v6) = W6 m ρ c (Proc.devRef .tc main_v6) from (by stretch_keeps)).trans (W6_v6 m ρ c)
theorem W8_v6 (c : Dev nD) : W8 m ρ c (Proc.devRef .tc main_v6) = v6K m ρ c :=
  (show W8 m ρ c (Proc.devRef .tc main_v6) = W7 m ρ c (Proc.devRef .tc main_v6) from (W8_of_ne m ρ c main_v6 (by decide))).trans (W7_v6 m ρ c)

theorem W3_v15 (c : Dev nD) : W3 m ρ c (Proc.devRef .tc main_v15) = v15K m ρ c := rfl
theorem W4_v15 (c : Dev nD) : W4 m ρ c (Proc.devRef .tc main_v15) = v15K m ρ c :=
  (show W4 m ρ c (Proc.devRef .tc main_v15) = W3 m ρ c (Proc.devRef .tc main_v15) from ((W4_arr m ρ c 2).trans (((dat0 (V3 m ρ) c).arrAt_in 2 rfl _).trans (A_eq0 (V3 m ρ) c 2)))).trans (W3_v15 m ρ c)
theorem W5_v15 (c : Dev nD) : W5 m ρ c (Proc.devRef .tc main_v15) = v15K m ρ c :=
  (show W5 m ρ c (Proc.devRef .tc main_v15) = W4 m ρ c (Proc.devRef .tc main_v15) from (by stretch_keeps)).trans (W4_v15 m ρ c)
theorem W6_v15 (c : Dev nD) : W6 m ρ c (Proc.devRef .tc main_v15) = v15K m ρ c :=
  (show W6 m ρ c (Proc.devRef .tc main_v15) = W5 m ρ c (Proc.devRef .tc main_v15) from ((W6_arr m ρ c 1).trans (((dat1 (V5 m ρ) c).arrAt_in 1 rfl _).trans (A_eq1 (V5 m ρ) c 1)))).trans (W5_v15 m ρ c)
theorem W7_v15 (c : Dev nD) : W7 m ρ c (Proc.devRef .tc main_v15) = v15K m ρ c :=
  (show W7 m ρ c (Proc.devRef .tc main_v15) = W6 m ρ c (Proc.devRef .tc main_v15) from (by stretch_keeps)).trans (W6_v15 m ρ c)
theorem W8_v15 (c : Dev nD) : W8 m ρ c (Proc.devRef .tc main_v15) = v15K m ρ c :=
  (show W8 m ρ c (Proc.devRef .tc main_v15) = W7 m ρ c (Proc.devRef .tc main_v15) from ((W8_arr m ρ c 1).trans (((dat2 (V7 m ρ) c).arrAt_in 1 rfl _).trans (A_eq2 (V7 m ρ) c 1)))).trans (W7_v15 m ρ c)
theorem W9_v15 (c : Dev nD) : W9 m ρ c (Proc.devRef .tc main_v15) = v15K m ρ c :=
  (show W9 m ρ c (Proc.devRef .tc main_v15) = W8 m ρ c (Proc.devRef .tc main_v15) from (by stretch_keeps)).trans (W8_v15 m ρ c)

theorem W0_arg0 (c : Dev nD) : W0 m ρ c (Proc.devRef .tc main_arg0) = m ((c : Thread nD τ).loc main_arg0) := rfl
theorem W1_arg0 (c : Dev nD) : W1 m ρ c (Proc.devRef .tc main_arg0) = m ((c : Thread nD τ).loc main_arg0) :=
  (show W1 m ρ c (Proc.devRef .tc main_arg0) = W0 m ρ c (Proc.devRef .tc main_arg0) from (by stretch_keeps)).trans (W0_arg0 m ρ c)
theorem W2_arg0 (c : Dev nD) : W2 m ρ c (Proc.devRef .tc main_arg0) = m ((c : Thread nD τ).loc main_arg0) :=
  (show W2 m ρ c (Proc.devRef .tc main_arg0) = W1 m ρ c (Proc.devRef .tc main_arg0) from (by stretch_keeps)).trans (W1_arg0 m ρ c)
theorem W3_arg0 (c : Dev nD) : W3 m ρ c (Proc.devRef .tc main_arg0) = m ((c : Thread nD τ).loc main_arg0) :=
  (show W3 m ρ c (Proc.devRef .tc main_arg0) = W2 m ρ c (Proc.devRef .tc main_arg0) from (by stretch_keeps)).trans (W2_arg0 m ρ c)

theorem W0_arg2 (c : Dev nD) : W0 m ρ c (Proc.devRef .tc main_arg2) = m ((c : Thread nD τ).loc main_arg2) := rfl
theorem W1_arg2 (c : Dev nD) : W1 m ρ c (Proc.devRef .tc main_arg2) = m ((c : Thread nD τ).loc main_arg2) :=
  (show W1 m ρ c (Proc.devRef .tc main_arg2) = W0 m ρ c (Proc.devRef .tc main_arg2) from (by stretch_keeps)).trans (W0_arg2 m ρ c)
theorem W2_arg2 (c : Dev nD) : W2 m ρ c (Proc.devRef .tc main_arg2) = m ((c : Thread nD τ).loc main_arg2) :=
  (show W2 m ρ c (Proc.devRef .tc main_arg2) = W1 m ρ c (Proc.devRef .tc main_arg2) from (by stretch_keeps)).trans (W1_arg2 m ρ c)
theorem W3_arg2 (c : Dev nD) : W3 m ρ c (Proc.devRef .tc main_arg2) = m ((c : Thread nD τ).loc main_arg2) :=
  (show W3 m ρ c (Proc.devRef .tc main_arg2) = W2 m ρ c (Proc.devRef .tc main_arg2) from (by stretch_keeps)).trans (W2_arg2 m ρ c)

theorem W0_arg3 (c : Dev nD) : W0 m ρ c (Proc.devRef .tc main_arg3) = m ((c : Thread nD τ).loc main_arg3) := rfl
theorem W1_arg3 (c : Dev nD) : W1 m ρ c (Proc.devRef .tc main_arg3) = m ((c : Thread nD τ).loc main_arg3) :=
  (show W1 m ρ c (Proc.devRef .tc main_arg3) = W0 m ρ c (Proc.devRef .tc main_arg3) from (by stretch_keeps)).trans (W0_arg3 m ρ c)
theorem W2_arg3 (c : Dev nD) : W2 m ρ c (Proc.devRef .tc main_arg3) = m ((c : Thread nD τ).loc main_arg3) :=
  (show W2 m ρ c (Proc.devRef .tc main_arg3) = W1 m ρ c (Proc.devRef .tc main_arg3) from (by stretch_keeps)).trans (W1_arg3 m ρ c)
theorem W3_arg3 (c : Dev nD) : W3 m ρ c (Proc.devRef .tc main_arg3) = m ((c : Thread nD τ).loc main_arg3) :=
  (show W3 m ρ c (Proc.devRef .tc main_arg3) = W2 m ρ c (Proc.devRef .tc main_arg3) from (by stretch_keeps)).trans (W2_arg3 m ρ c)
theorem W4_arg3 (c : Dev nD) : W4 m ρ c (Proc.devRef .tc main_arg3) = m ((c : Thread nD τ).loc main_arg3) :=
  (show W4 m ρ c (Proc.devRef .tc main_arg3) = W3 m ρ c (Proc.devRef .tc main_arg3) from (W4_of_ne m ρ c main_arg3 (by decide))).trans (W3_arg3 m ρ c)

theorem W0_arg4 (c : Dev nD) : W0 m ρ c (Proc.devRef .tc main_arg4) = m ((c : Thread nD τ).loc main_arg4) := rfl
theorem W1_arg4 (c : Dev nD) : W1 m ρ c (Proc.devRef .tc main_arg4) = m ((c : Thread nD τ).loc main_arg4) :=
  (show W1 m ρ c (Proc.devRef .tc main_arg4) = W0 m ρ c (Proc.devRef .tc main_arg4) from (by stretch_keeps)).trans (W0_arg4 m ρ c)
theorem W2_arg4 (c : Dev nD) : W2 m ρ c (Proc.devRef .tc main_arg4) = m ((c : Thread nD τ).loc main_arg4) :=
  (show W2 m ρ c (Proc.devRef .tc main_arg4) = W1 m ρ c (Proc.devRef .tc main_arg4) from (by stretch_keeps)).trans (W1_arg4 m ρ c)
theorem W3_arg4 (c : Dev nD) : W3 m ρ c (Proc.devRef .tc main_arg4) = m ((c : Thread nD τ).loc main_arg4) :=
  (show W3 m ρ c (Proc.devRef .tc main_arg4) = W2 m ρ c (Proc.devRef .tc main_arg4) from (by stretch_keeps)).trans (W2_arg4 m ρ c)
theorem W4_arg4 (c : Dev nD) : W4 m ρ c (Proc.devRef .tc main_arg4) = m ((c : Thread nD τ).loc main_arg4) :=
  (show W4 m ρ c (Proc.devRef .tc main_arg4) = W3 m ρ c (Proc.devRef .tc main_arg4) from (W4_of_ne m ρ c main_arg4 (by decide))).trans (W3_arg4 m ρ c)
theorem W5_arg4 (c : Dev nD) : W5 m ρ c (Proc.devRef .tc main_arg4) = m ((c : Thread nD τ).loc main_arg4) :=
  (show W5 m ρ c (Proc.devRef .tc main_arg4) = W4 m ρ c (Proc.devRef .tc main_arg4) from (by stretch_keeps)).trans (W4_arg4 m ρ c)

theorem W0_arg5 (c : Dev nD) : W0 m ρ c (Proc.devRef .tc main_arg5) = m ((c : Thread nD τ).loc main_arg5) := rfl
theorem W1_arg5 (c : Dev nD) : W1 m ρ c (Proc.devRef .tc main_arg5) = m ((c : Thread nD τ).loc main_arg5) :=
  (show W1 m ρ c (Proc.devRef .tc main_arg5) = W0 m ρ c (Proc.devRef .tc main_arg5) from (by stretch_keeps)).trans (W0_arg5 m ρ c)
theorem W2_arg5 (c : Dev nD) : W2 m ρ c (Proc.devRef .tc main_arg5) = m ((c : Thread nD τ).loc main_arg5) :=
  (show W2 m ρ c (Proc.devRef .tc main_arg5) = W1 m ρ c (Proc.devRef .tc main_arg5) from (by stretch_keeps)).trans (W1_arg5 m ρ c)
theorem W3_arg5 (c : Dev nD) : W3 m ρ c (Proc.devRef .tc main_arg5) = m ((c : Thread nD τ).loc main_arg5) :=
  (show W3 m ρ c (Proc.devRef .tc main_arg5) = W2 m ρ c (Proc.devRef .tc main_arg5) from (by stretch_keeps)).trans (W2_arg5 m ρ c)
theorem W4_arg5 (c : Dev nD) : W4 m ρ c (Proc.devRef .tc main_arg5) = m ((c : Thread nD τ).loc main_arg5) :=
  (show W4 m ρ c (Proc.devRef .tc main_arg5) = W3 m ρ c (Proc.devRef .tc main_arg5) from (W4_of_ne m ρ c main_arg5 (by decide))).trans (W3_arg5 m ρ c)
theorem W5_arg5 (c : Dev nD) : W5 m ρ c (Proc.devRef .tc main_arg5) = m ((c : Thread nD τ).loc main_arg5) :=
  (show W5 m ρ c (Proc.devRef .tc main_arg5) = W4 m ρ c (Proc.devRef .tc main_arg5) from (by stretch_keeps)).trans (W4_arg5 m ρ c)
theorem W6_arg5 (c : Dev nD) : W6 m ρ c (Proc.devRef .tc main_arg5) = m ((c : Thread nD τ).loc main_arg5) :=
  (show W6 m ρ c (Proc.devRef .tc main_arg5) = W5 m ρ c (Proc.devRef .tc main_arg5) from (W6_of_ne m ρ c main_arg5 (by decide))).trans (W5_arg5 m ρ c)

theorem W0_arg6 (c : Dev nD) : W0 m ρ c (Proc.devRef .tc main_arg6) = m ((c : Thread nD τ).loc main_arg6) := rfl
theorem W1_arg6 (c : Dev nD) : W1 m ρ c (Proc.devRef .tc main_arg6) = m ((c : Thread nD τ).loc main_arg6) :=
  (show W1 m ρ c (Proc.devRef .tc main_arg6) = W0 m ρ c (Proc.devRef .tc main_arg6) from (by stretch_keeps)).trans (W0_arg6 m ρ c)
theorem W2_arg6 (c : Dev nD) : W2 m ρ c (Proc.devRef .tc main_arg6) = m ((c : Thread nD τ).loc main_arg6) :=
  (show W2 m ρ c (Proc.devRef .tc main_arg6) = W1 m ρ c (Proc.devRef .tc main_arg6) from (by stretch_keeps)).trans (W1_arg6 m ρ c)
theorem W3_arg6 (c : Dev nD) : W3 m ρ c (Proc.devRef .tc main_arg6) = m ((c : Thread nD τ).loc main_arg6) :=
  (show W3 m ρ c (Proc.devRef .tc main_arg6) = W2 m ρ c (Proc.devRef .tc main_arg6) from (by stretch_keeps)).trans (W2_arg6 m ρ c)
theorem W4_arg6 (c : Dev nD) : W4 m ρ c (Proc.devRef .tc main_arg6) = m ((c : Thread nD τ).loc main_arg6) :=
  (show W4 m ρ c (Proc.devRef .tc main_arg6) = W3 m ρ c (Proc.devRef .tc main_arg6) from (W4_of_ne m ρ c main_arg6 (by decide))).trans (W3_arg6 m ρ c)
theorem W5_arg6 (c : Dev nD) : W5 m ρ c (Proc.devRef .tc main_arg6) = m ((c : Thread nD τ).loc main_arg6) :=
  (show W5 m ρ c (Proc.devRef .tc main_arg6) = W4 m ρ c (Proc.devRef .tc main_arg6) from (by stretch_keeps)).trans (W4_arg6 m ρ c)
theorem W6_arg6 (c : Dev nD) : W6 m ρ c (Proc.devRef .tc main_arg6) = m ((c : Thread nD τ).loc main_arg6) :=
  (show W6 m ρ c (Proc.devRef .tc main_arg6) = W5 m ρ c (Proc.devRef .tc main_arg6) from (W6_of_ne m ρ c main_arg6 (by decide))).trans (W5_arg6 m ρ c)
theorem W7_arg6 (c : Dev nD) : W7 m ρ c (Proc.devRef .tc main_arg6) = m ((c : Thread nD τ).loc main_arg6) :=
  (show W7 m ρ c (Proc.devRef .tc main_arg6) = W6 m ρ c (Proc.devRef .tc main_arg6) from (by stretch_keeps)).trans (W6_arg6 m ρ c)

theorem W0_arg7 (c : Dev nD) : W0 m ρ c (Proc.devRef .tc main_arg7) = m ((c : Thread nD τ).loc main_arg7) := rfl
theorem W1_arg7 (c : Dev nD) : W1 m ρ c (Proc.devRef .tc main_arg7) = m ((c : Thread nD τ).loc main_arg7) :=
  (show W1 m ρ c (Proc.devRef .tc main_arg7) = W0 m ρ c (Proc.devRef .tc main_arg7) from (by stretch_keeps)).trans (W0_arg7 m ρ c)
theorem W2_arg7 (c : Dev nD) : W2 m ρ c (Proc.devRef .tc main_arg7) = m ((c : Thread nD τ).loc main_arg7) :=
  (show W2 m ρ c (Proc.devRef .tc main_arg7) = W1 m ρ c (Proc.devRef .tc main_arg7) from (by stretch_keeps)).trans (W1_arg7 m ρ c)
theorem W3_arg7 (c : Dev nD) : W3 m ρ c (Proc.devRef .tc main_arg7) = m ((c : Thread nD τ).loc main_arg7) :=
  (show W3 m ρ c (Proc.devRef .tc main_arg7) = W2 m ρ c (Proc.devRef .tc main_arg7) from (by stretch_keeps)).trans (W2_arg7 m ρ c)
theorem W4_arg7 (c : Dev nD) : W4 m ρ c (Proc.devRef .tc main_arg7) = m ((c : Thread nD τ).loc main_arg7) :=
  (show W4 m ρ c (Proc.devRef .tc main_arg7) = W3 m ρ c (Proc.devRef .tc main_arg7) from (W4_of_ne m ρ c main_arg7 (by decide))).trans (W3_arg7 m ρ c)
theorem W5_arg7 (c : Dev nD) : W5 m ρ c (Proc.devRef .tc main_arg7) = m ((c : Thread nD τ).loc main_arg7) :=
  (show W5 m ρ c (Proc.devRef .tc main_arg7) = W4 m ρ c (Proc.devRef .tc main_arg7) from (by stretch_keeps)).trans (W4_arg7 m ρ c)
theorem W6_arg7 (c : Dev nD) : W6 m ρ c (Proc.devRef .tc main_arg7) = m ((c : Thread nD τ).loc main_arg7) :=
  (show W6 m ρ c (Proc.devRef .tc main_arg7) = W5 m ρ c (Proc.devRef .tc main_arg7) from (W6_of_ne m ρ c main_arg7 (by decide))).trans (W5_arg7 m ρ c)
theorem W7_arg7 (c : Dev nD) : W7 m ρ c (Proc.devRef .tc main_arg7) = m ((c : Thread nD τ).loc main_arg7) :=
  (show W7 m ρ c (Proc.devRef .tc main_arg7) = W6 m ρ c (Proc.devRef .tc main_arg7) from (by stretch_keeps)).trans (W6_arg7 m ρ c)
theorem W8_arg7 (c : Dev nD) : W8 m ρ c (Proc.devRef .tc main_arg7) = m ((c : Thread nD τ).loc main_arg7) :=
  (show W8 m ρ c (Proc.devRef .tc main_arg7) = W7 m ρ c (Proc.devRef .tc main_arg7) from (W8_of_ne m ρ c main_arg7 (by decide))).trans (W7_arg7 m ρ c)

end Cert.KernelIdeal.KValue

end
-- ==== Proof.HostAgg.lean ====
/-
  A row gather followed by a row scatter-add into zeros is the aggregation of the specification.

  The gather reads, for every edge, the row of `G` its source names (the start index read signed and clamped); the
  scatter-add then adds each gathered row into the row its destination word names (read signed, not clamped; a word
  that names no row drops the edge), starting from an array of zeros. Entry `(n, f)` of the result is therefore the sum,
  over the edges landing on `n`, of `G (source, f)`.
-/
import proofs.«126777_j452_2_alg».proof.Proof.Spec

noncomputable section

open scoped BigOperators

namespace GcnSpec

open Idealize.ShloMosaic Idealize.ShloMosaic.ValueIdx RowGatherScatter

/-- The row gather at the sources' start indices, read at edge `e`, column `f`. -/
theorem gather_node {C : Nat} (dg : GatherDims ⟨2, ![NN, C]⟩ ⟨2, ![EE, 1]⟩ ⟨2, ![EE, C]⟩)
    (g1 : dg.offsetDims = [1]) (g2 : dg.collapsedSliceDims = [0]) (g3 : dg.operandBatchingDims = [])
    (g4 : dg.startIndicesBatchingDims = []) (g5 : dg.startIndexMap = [0]) (g6 : dg.indexVectorDim = 1)
    (g7 : dg.sliceSizes = ![1, C]) (G : (⟨2, ![NN, C]⟩ : Shape).Idx → EReal) (srcN : IVec ⟨2, ![EE, 1]⟩ 32)
    (e : Fin EE) (f : Fin C) :
    Host.gather dg G srcN (ix2 e f) = G (ix2 (node srcN e) f) := by
  rw [gather_rows dg g1 g2 g3 g4 g5 g6 g7 (by decide) G srcN (ix2 e f)]
  rfl

/-- Gather the sources' rows, scatter-add them at the destinations into zeros: the aggregation. -/
theorem scatter_gather_agg {C : Nat} (ds : ScatterDims ⟨2, ![NN, C]⟩ ⟨2, ![EE, 1]⟩ ⟨2, ![EE, C]⟩)
    (h1 : ds.updateWindowDims = [1]) (h2 : ds.insertedWindowDims = [0]) (h3 : ds.scatterDimsToOperandDims = [0])
    (h4 : ds.indexVectorDim = 1) (dg : GatherDims ⟨2, ![NN, C]⟩ ⟨2, ![EE, 1]⟩ ⟨2, ![EE, C]⟩)
    (g1 : dg.offsetDims = [1]) (g2 : dg.collapsedSliceDims = [0]) (g3 : dg.operandBatchingDims = [])
    (g4 : dg.startIndicesBatchingDims = []) (g5 : dg.startIndexMap = [0]) (g6 : dg.indexVectorDim = 1)
    (g7 : dg.sliceSizes = ![1, C]) (z : (⟨2, ![NN, C]⟩ : Shape).Idx → EReal) (hz : ∀ i, z i = 0)
    (dstC srcN : IVec ⟨2, ![EE, 1]⟩ 32) (G : (⟨2, ![NN, C]⟩ : Shape).Idx → EReal) :
    Host.scatterAdd (F := Ideal) (φ := .f32) ds z dstC (Host.gather dg G srcN) = agg dstC srcN G := by
  funext i
  rw [scatterAdd_rows ds h1 h2 h3 h4, hz, zero_add]
  unfold agg
  refine Finset.sum_congr rfl (fun e _ => ?_)
  exact if_congr Iff.rfl (gather_node dg g1 g2 g3 g4 g5 g6 g7 G srcN e (i 1)) rfl

end GcnSpec

end
-- ==== Proof.KernelStages.lean ====
/-
  What each stretch of host operations between the launches computes.

  Between two launches the program gathers, for every edge, the row of the previous launch's output that the edge's
  source names, and adds the gathered rows into the rows their destinations name, starting from zeros: the aggregation
  `GcnSpec.agg` of the previous launch's output, with the same two columns of start indices every time (they are built
  again from the source and destination words, which nobody has written meanwhile). It also views the next bias vector
  as a one-row matrix.
-/
import proofs.«126777_j452_2_alg».proof.Proof.KernelChain
import proofs.«126777_j452_2_alg».proof.Proof.HostAgg
import proofs.«126777_j452_2_alg».proof.Proof.LibHostForms

set_option maxRecDepth 16384

noncomputable section

namespace Cert.KernelIdeal.KValue

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-- The gather start indices of the edges' sources: the source words, a negative one wrapped by the node count. -/
def srcColK (c : Dev nD) : IVec ⟨2, ![GcnSpec.EE, 1]⟩ 32 :=
  broadcastInDim S1700000x1 ![0] bcast_S1700000_S1700000x1_0
    (select (cmpi .slt (v3K m ρ c) (broadcastInDim S1700000 ![] bcast_S_S1700000 (constantI S_ 32 0#32)))
      (addi (v3K m ρ c) (broadcastInDim S1700000 ![] bcast_S_S1700000 (constantI S_ 32 100000#32))) (v3K m ρ c))

/-- The scatter start indices: the destination words. -/
def dstColK (c : Dev nD) : IVec ⟨2, ![GcnSpec.EE, 1]⟩ 32 :=
  broadcastInDim S1700000x1 ![0] bcast_S1700000_S1700000x1_0 (v6K m ρ c)

/-- The inverse square roots of the degrees, by node. -/
def dK (c : Dev nD) : Fin GcnSpec.NN → EReal := fun n => v15K m ρ c (ix2 n 0)

/-- A broadcast of the constant zero is zero everywhere. -/
theorem zero_bcast (s : Shape) (h : (⟨0, ![]⟩ : Shape).BroadcastsInDim s ![]) (i : s.Idx) :
    broadcastInDim s ![] h (constant (F := Ideal) ⟨0, ![]⟩ .f32 0x00000000#32) i = 0 := by
  rw [HostForms.bcast_constant]; exact Ideal.ofBits_zero_f32

/-! ## The three aggregations -/

set_option maxHeartbeats 1600000 in
theorem V5_v26 (c : Dev nD) :
    (V5 m ρ c main_v26 : S100000x64.Idx → EReal) = GcnSpec.agg (dstColK m ρ c) (srcColK m ρ c) (V4 m ρ c main_v16) := by
  show StableHlo.after hostOps1 (W4 m ρ c) (Proc.devRef .tc main_v26) = _
  after_results
  rw [W4_v6, W4_v3]
  exact GcnSpec.scatter_gather_agg _ rfl rfl rfl rfl _ rfl rfl rfl rfl rfl rfl rfl _ (zero_bcast _ _) _ _ _

set_option maxHeartbeats 1600000 in
theorem V7_v38 (c : Dev nD) :
    (V7 m ρ c main_v38 : S100000x64.Idx → EReal) = GcnSpec.agg (dstColK m ρ c) (srcColK m ρ c) (V6 m ρ c main_v28) := by
  show StableHlo.after hostOps2 (W6 m ρ c) (Proc.devRef .tc main_v38) = _
  after_results
  rw [W6_v6, W6_v3]
  exact GcnSpec.scatter_gather_agg _ rfl rfl rfl rfl _ rfl rfl rfl rfl rfl rfl rfl _ (zero_bcast _ _) _ _ _

set_option maxHeartbeats 1600000 in
theorem V9_v50 (c : Dev nD) :
    (V9 m ρ c main_v50 : S100000x40.Idx → EReal) = GcnSpec.agg (dstColK m ρ c) (srcColK m ρ c) (V8 m ρ c main_v40) := by
  show StableHlo.after hostOps3 (W8 m ρ c) (Proc.devRef .tc main_v50) = _
  after_results
  rw [W8_v6, W8_v3]
  exact GcnSpec.scatter_gather_agg _ rfl rfl rfl rfl _ rfl rfl rfl rfl rfl rfl rfl _ (zero_bcast _ _) _ _ _

/-! ## The bias rows -/

theorem V5_v27 (c : Dev nD) :
    (fun f : Fin 64 => (V5 m ρ c main_v27 : S1x64.Idx → EReal) (ix2 0 f))
      = fun f => (m ((c : Thread nD τ).loc main_arg3) : S64.Idx → EReal) (ix1 f) := by
  have e : (V5 m ρ c main_v27 : S1x64.Idx → EReal)
      = shapeCast S1x64 (m ((c : Thread nD τ).loc main_arg3) : S64.Idx → EReal) shapeCasts_S64_S1x64 := by
    show StableHlo.after hostOps1 (W4 m ρ c) (Proc.devRef .tc main_v27) = _
    after_results
    rw [W4_arg3]
    rfl
  funext f
  rw [e]
  exact HostForms.cast_row_apply _ _ f

theorem V7_v39 (c : Dev nD) :
    (fun f : Fin 64 => (V7 m ρ c main_v39 : S1x64.Idx → EReal) (ix2 0 f))
      = fun f => (m ((c : Thread nD τ).loc main_arg5) : S64.Idx → EReal) (ix1 f) := by
  have e : (V7 m ρ c main_v39 : S1x64.Idx → EReal)
      = shapeCast S1x64 (m ((c : Thread nD τ).loc main_arg5) : S64.Idx → EReal) shapeCasts_S64_S1x64 := by
    show StableHlo.after hostOps2 (W6 m ρ c) (Proc.devRef .tc main_v39) = _
    after_results
    rw [W6_arg5]
    rfl
  funext f
  rw [e]
  exact HostForms.cast_row_apply _ _ f

theorem V9_v51 (c : Dev nD) :
    (fun f : Fin 40 => (V9 m ρ c main_v51 : S1x40.Idx → EReal) (ix2 0 f))
      = fun f => (m ((c : Thread nD τ).loc main_arg7) : S40.Idx → EReal) (ix1 f) := by
  have e : (V9 m ρ c main_v51 : S1x40.Idx → EReal)
      = shapeCast S1x40 (m ((c : Thread nD τ).loc main_arg7) : S40.Idx → EReal) shapeCasts_S40_S1x40 := by
    show StableHlo.after hostOps3 (W8 m ρ c) (Proc.devRef .tc main_v51) = _
    after_results
    rw [W8_arg7]
    rfl
  funext f
  rw [e]
  exact HostForms.cast_row_apply _ _ f

end Cert.KernelIdeal.KValue

end
-- ==== Proof.KernelRun.lean ====
/-
  The idealized kernel's run with its result NAMED.

  The program is ten segments: stretches of host operations and four launches, each launch writing one array. The
  generated frame proves that every weakly fair execution terminates without a fault, following the memory through the
  segments as a fold `W0 … W10` of buffer contents, and keeps of the final state only that the arguments are unchanged.
  Here the same launch is read once more at the result's buffer: the final memory holds there what the fold's last
  stage `W10` holds, which is what the fourth launch's write-backs leave in its output array.
-/
import proofs.«126777_j452_2_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result's buffer at the last stage of the fold and
    the arguments as launched. -/
theorem run_named : θ_run defs (onTc (τ := τ) (main (F := F))) ⟨m, fun _ => 0, ρ⟩ (fun r => ∀ c : Dev nD,
      r.2.mem ((c.tc : Thread nD τ).loc main_v52) = W10 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v52 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

/-- The last stage of the fold at the result's buffer is what the fourth launch's write-backs leave in its output array. -/
theorem W10_result (c : Dev nD) :
    W10 m ρ c (Proc.devRef .tc main_v52) = (dat3 (V9 m ρ) c).arrAt 3 cfg3.N :=
  W10_arr m ρ c 3

end Cert.KernelIdeal.KValue

end
-- ==== Proof.LibMatmulForms.lean ====
/-
  A kernel matrix product `[N, A] × [A, B]` accumulated into `acc`, at the ideal instance, read at row `r` and column
  `f`: the accumulator's entry plus the sum over the inner coordinate `k` of `X (r, k) · W (k, f)` — for any dimension
  numbers whose fields are the plain product's (contract the left operand's axis 1 with the right operand's axis 0,
  no batch axes). The host's `dot_general` with the same dimension numbers is the same sum without the accumulator, so
  the statement is read off that one.
-/
import proofs.«126777_j452_2_alg».proof.Proof.LibHostForms

noncomputable section

open scoped BigOperators

namespace MatmulForms

open Idealize.ShloMosaic Idealize.ShloMosaic.ValueIdx

variable {N A B : Nat}

/-- The kernel's product at `(r, f)`: the accumulator there plus the inner sum. -/
theorem matmul_mm_apply {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂)
    (acc : FVec Ideal ⟨2, ![N, B]⟩ .f32) (r : Fin N) (f : Fin B) :
    FloatOps.matmul d prec X W acc (ix2 r f) = acc (ix2 r f) + ∑ k : Fin A, X (ix2 r k) * W (ix2 k f) := by
  have e := HostForms.dotGeneral_mm_apply d h1 h2 h3 h4 h5 h6 prec X W r f
  rw [show Host.dotGeneral (F := Ideal) d prec X W (ix2 r f) = FloatOps.dotGeneral d prec .single X W (ix2 r f) from rfl,
    Ideal.dotGeneral_apply] at e
  rw [Ideal.matmul_apply, e]

/-- Into the zero accumulator: the inner sum alone. -/
theorem matmul_zero_mm_apply {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂) (r : Fin N) (f : Fin B) :
    FloatOps.matmul d prec X W (constant ⟨2, ![N, B]⟩ .f32 0x00000000#32) (ix2 r f) = ∑ k : Fin A, X (ix2 r k) * W (ix2 k f) := by
  rw [matmul_mm_apply d h1 h2 h3 h4 h5 h6]
  show Ideal.ofBits .f32 0x00000000#32 + _ = _
  rw [Ideal.ofBits_zero_f32, zero_add]

end MatmulForms

end
-- ==== Proof.KRegion0.lean ====
/-
  The kernel's first launch, read as one function of whole arrays.

  The launch walks the 100000 nodes in 20 blocks of 5000 rows. At block `t` it takes rows `5000 t … 5000 t + 4999` of
  the node features `x` ([100000, 128]) and of the column `dinv` ([100000, 1]), and the whole weight matrix `W`
  ([128, 64]); it forms the matrix product of the feature block with `W` (a product into a zero accumulator is the
  inner sum alone; narrowing a float's format changes nothing on the extended reals), multiplies row `r` of the
  product by the entry of the `dinv` block in row `r`, and writes the result back as rows
  `5000 t … 5000 t + 4999` of the output ([100000, 64]).

  Entry `(n, f)` of the output therefore depends only on row `n` of `x`, column `f` of `W` and entry `n` of
  `dinv`: it is `(∑ k, x (n, k) · W (k, f)) · dinv n`. Every row lies in exactly one block (row `n` in block
  `n / 5000`), so after the 20 write-backs the output array is `GcnSpec.pre dinv x W`.

  The module has three parts: the body's arithmetic read at one entry of a block; what one block writes back, as
  the block of the whole-array function; and the 20 blocks covering the array.
-/
import proofs.«126777_j452_2_alg».proof.Proof.Gen.KernelIdeal.Frame
import proofs.«126777_j452_2_alg».proof.Proof.Spec
import proofs.«126777_j452_2_alg».proof.Proof.LibMatmulForms
import Idealize.ShloMosaic.Lib.Pipeline.Value

noncomputable section

open scoped BigOperators

namespace Cert.KernelIdeal.KValue

open Cert.KernelIdeal Cert.KernelIdeal.Gen
open Idealize.ShloMosaic Idealize.ShloMosaic.ValueIdx Idealize.ShloMosaic.TcCoe
open Idealize.ShloMosaic.Pipeline (Dat)

namespace Launch0

/-! ## The body's arithmetic at one entry of a block -/

/-- The offsets of a whole-buffer access, as the constant zero function. -/
theorem zeroOffsets : (![0, 0] : Fin 2 → Nat) = fun _ => 0 := funext fun a => by fin_cases a <;> rfl

/-- A column `[5000, 1]` repeated along 64 lanes reads, at `(r, f)`, the column's entry in row `r`. -/
theorem colBroadcast_apply {α : Type} (v : S5000x1.Idx → α) (h : S5000x1.Broadcasts S5000x64) (r : Fin 5000) (f : Fin 64) :
    broadcastTo S5000x64 v h (ix2 r f) = v (ix2 r (0 : Fin 1)) := by
  refine broadcastTo_apply v h (ix2 r f) (ix2 r (0 : Fin 1)) fun ax => ?_
  match ax with
  | ⟨0, _⟩ => rfl
  | ⟨1, _⟩ => rfl

/-- The stored value at `(r, f)` of a block: the inner sum of row `r` of the feature block against column `f` of
    the weights, times the scale of row `r`. -/
theorem prescale_apply (x0 : Vec Ideal S5000x128 .f32) (x1 : Vec Ideal S128x64 .f32) (x2 : Vec Ideal S5000x1 .f32)
    (r : Fin 5000) (f : Fin 64) :
    (k0_pay1 (F := Ideal) x0 x1 x2 : S5000x64.Idx → EReal) (ix2 r f)
      = (∑ k : Fin 128, (x0 : S5000x128.Idx → EReal) (ix2 r k) * (x1 : S128x64.Idx → EReal) (ix2 k f))
          * (x2 : S5000x1.Idx → EReal) (ix2 r (0 : Fin 1)) := by
  unfold k0_pay1
  refine (mulf_apply _ _ _).trans ?_
  refine congrArg₂ (· * ·) ?_ ?_
  · exact MatmulForms.matmul_zero_mm_apply dot_S5000x128_S128x64_S5000x64_1_0_0_1_n_n rfl rfl rfl rfl rfl rfl none
      (truncf .bf16 x0 bitsLt_bf16_f32) (truncf .bf16 x1 bitsLt_bf16_f32) r f
  · refine (colBroadcast_apply _ _ r f).trans ?_
    exact congrFun ((shapeCast_self _ _).trans (shapeCast_self _ _)) _

/-! ## One block against the whole arrays -/

/-- If a feature block holds rows `5000 b …` of `X`, the weight block is `W`, and the scale block holds rows
    `5000 b …` of the column `D`, then the stored value at an entry of the block is the whole-array function at the
    entry of the array that sits `5000 b` rows further down. -/
theorem prescale_block (X : S100000x128.Idx → EReal) (W : S128x64.Idx → EReal) (D : S100000x1.Idx → EReal)
    (x0 : Vec Ideal S5000x128 .f32) (x1 : Vec Ideal S128x64 .f32) (x2 : Vec Ideal S5000x1 .f32) (b : Nat)
    (h0 : ∀ (r : Fin 5000) (k : Fin 128) (n : Fin 100000), n.val = b * 5000 + r.val →
      (x0 : S5000x128.Idx → EReal) (ix2 r k) = X (ix2 n k))
    (h1 : ∀ (k : Fin 128) (f : Fin 64), (x1 : S128x64.Idx → EReal) (ix2 k f) = W (ix2 k f))
    (h2 : ∀ (r : Fin 5000) (n : Fin 100000), n.val = b * 5000 + r.val →
      (x2 : S5000x1.Idx → EReal) (ix2 r (0 : Fin 1)) = D (ix2 n (0 : Fin 1)))
    (y : S5000x64.Idx) (i : S100000x64.Idx) (hi0 : (i 0).val = b * 5000 + (y 0).val) (hi1 : (i 1).val = (y 1).val) :
    (k0_pay1 (F := Ideal) x0 x1 x2 : S5000x64.Idx → EReal) y
      = GcnSpec.pre (A := 128) (B := 64) (fun n : Fin 100000 => D (ix2 n (0 : Fin 1))) X W i := by
  obtain ⟨r, f, rfl⟩ : ∃ (r : Fin 5000) (f : Fin 64), y = ix2 r f := ⟨y 0, y 1, eq_ix2 y⟩
  obtain ⟨n, g, rfl⟩ : ∃ (n : Fin 100000) (g : Fin 64), i = ix2 n g := ⟨i 0, i 1, eq_ix2 i⟩
  obtain rfl : g = f := Fin.ext hi1
  have hn : n.val = b * 5000 + r.val := hi0
  rw [prescale_apply]
  show _ = (∑ k : Fin 128, X (ix2 n k) * W (ix2 k g)) * D (ix2 n (0 : Fin 1))
  rw [h2 r n hn]
  refine congrArg (· * D (ix2 n (0 : Fin 1))) (Finset.sum_congr rfl fun k _ => ?_)
  rw [h0 r k n hn, h1 k g]

/-! ## The launch's blocks -/

section Blocks

variable (V : (c : Dev nD) → (b : Ref sig .tc) → Buf (Elt Ideal) ((c : Thread nD τ).loc b)) (c : Dev nD)

/-- Where the blocks sit: at point `t` the feature, scale and output blocks are the `t`-th row blocks of their arrays,
    the weights are fetched whole. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the whole-array function of the arrays the launch finds. -/
theorem prescale_flushed (t : Fin cfg0.N) :
    (dat0 (F := Ideal) V c).flushed 3 t
      = ((cfg0.win 3).blk t).view.read (Elt Ideal)
          (GcnSpec.pre (A := 128) (B := 64) (fun n : Fin 100000 => (V c main_v15 : S100000x1.Idx → EReal) (ix2 n (0 : Fin 1)))
            (V c main_arg0 : S100000x128.Idx → EReal) (V c main_arg2 : S128x64.Idx → EReal)) := by
  obtain ⟨e00, e01, e10, e11, e20, e21, e30, e31⟩ := blockIndex t
  show (cfg0.win 3).cut (grid0.coords t) ((dat0 (F := Ideal) V c).after 3 t) = _
  rw [after0_3]
  unfold out0_3
  rw [View.canon_unit_zero zeroOffsets]
  simp only [View.ld_unit_zero (S := S5000x128) zeroOffsets, View.ld_unit_zero (S := S128x64) zeroOffsets,
    View.ld_unit_zero (S := S5000x1) zeroOffsets]
  funext j
  refine prescale_block (V c main_arg0) (V c main_arg2) (V c main_v15) (iblk0 V c 0 t) (iblk0 V c 1 t) (iblk0 V c 2 t)
    (win0_3.index t (0 : Fin 2)) ?_ ?_ ?_ _ _ ?_ ?_
  · intro r k n hn
    show (V c main_arg0 : S100000x128.Idx → EReal) (((cfg0.win 0).blk t).view.emb (ix2 r k)) = _
    refine congrArg _ (funext fun a => Fin.ext ?_)
    match a with
    | ⟨0, _⟩ => show win0_0.index t (0 : Fin 2) * 5000 + 1 * r.val = n.val; omega
    | ⟨1, _⟩ => show win0_0.index t (1 : Fin 2) * 128 + 1 * k.val = k.val; omega
  · intro k f
    show (V c main_arg2 : S128x64.Idx → EReal) (((cfg0.win 1).blk t).view.emb (ix2 k f)) = _
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * f.val = f.val; omega
  · intro r n hn
    show (V c main_v15 : S100000x1.Idx → EReal) (((cfg0.win 2).blk t).view.emb (ix2 r (0 : Fin 1))) = _
    refine congrArg _ (funext fun a => Fin.ext ?_)
    match a with
    | ⟨0, _⟩ => show win0_2.index t (0 : Fin 2) * 5000 + 1 * r.val = n.val; omega
    | ⟨1, _⟩ => show win0_2.index t (1 : Fin 2) * 1 + 1 * 0 = 0; omega
  · show win0_3.index t (0 : Fin 2) * 5000 + 1 * (j 0).val = win0_3.index t (0 : Fin 2) * 5000 + (j 0).val; omega
  · show win0_3.index t (1 : Fin 2) * 64 + 1 * (j 1).val = (j 1).val; omega

/-- An entry of the output array is in point `t`'s block iff each coordinate is in the block's range on its axis. -/
theorem mem_outBlock (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v16).slice (win0_3.rect t)).set ↔ _
  rw [View.set_slice_whole, Rect.mem_set_unit]
  exact Iff.rfl

/-- Every entry of the output array is in some point's block: row `n` is in block `n / 5000`. -/
theorem prescale_cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  have ht : (i 0).val / 5000 < cfg0.N := by rw [hN]; omega
  obtain ⟨-, -, -, -, -, -, e30, e31⟩ := blockIndex ⟨(i 0).val / 5000, ht⟩
  have e30' : win0_3.index ⟨(i 0).val / 5000, ht⟩ (0 : Fin 2) = (i 0).val / 5000 := e30
  refine ⟨⟨(i 0).val / 5000, ht⟩, flush0_3 _, ?_⟩
  rw [mem_outBlock]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    omega
  | ⟨1, _⟩ =>
    show win0_3.index ⟨(i 0).val / 5000, ht⟩ (1 : Fin 2) * 64 ≤ (i 1).val
      ∧ (i 1).val < win0_3.index ⟨(i 0).val / 5000, ht⟩ (1 : Fin 2) * 64 + 64
    omega

end Blocks

end Launch0

/-- THE FIRST LAUNCH: after its 20 write-backs the output array is the matrix product of the features with the
    weights, row `n` scaled by `dinv n`. -/
theorem region0 (V : (c : Dev nD) → (b : Ref sig .tc) → Buf (Elt Ideal) ((c : Thread nD τ).loc b)) (c : Dev nD) :
    ((dat0 (F := Ideal) V c).arrAt 3 cfg0.N : S100000x64.Idx → EReal)
      = GcnSpec.pre (A := 128) (B := 64) (fun n : Fin 100000 => (V c main_v15 : S100000x1.Idx → EReal) (ix2 n (0 : Fin 1)))
          (V c main_arg0 : S100000x128.Idx → EReal) (V c main_arg2 : S128x64.Idx → EReal) :=
  (dat0 (F := Ideal) V c).arrAt_eq_of_cover 3 _ (fun t _ => Launch0.prescale_flushed V c t) Launch0.prescale_cover

end Cert.KernelIdeal.KValue

end
-- ==== Proof.KRegion1.lean ====
/-
  The kernel's second launch, read as one function of whole arrays.

  The launch walks the 100000 nodes in 20 blocks of 5000 rows. At block T it takes rows 5000·T … 5000·T + 4999 of
  the aggregated features AGG ([100000, 64]) and of the column DINV ([100000, 1]), and, whole, the bias row
  ([1, 64]) and the weight matrix W ([64, 64]). Row R of the aggregated block is multiplied by the entry of the DINV
  block in row R, the bias row is added to every row, and the result is rectified (the maximum with zero); that
  block is multiplied by W (a product into a zero accumulator is the inner sum alone; narrowing a float's format
  changes nothing on the extended reals), row R of the product is multiplied by the DINV entry of row R once more,
  and the result is written back as rows 5000·T … 5000·T + 4999 of the output ([100000, 64]).

  Entry (n, f) of the output therefore depends only on row n of AGG, entry n of DINV, the bias and column f of W:
  it is (∑ k, max (AGG (n, k) · DINV n + bias k) 0 · W (k, f)) · DINV n. Every row lies in exactly one block (row n
  in block n / 5000), so after the 20 write-backs the output array is
  GcnSpec.pre DINV (GcnSpec.act DINV AGG bias) W.

  The module has three parts: the body's arithmetic read at one entry of a block; what one block writes back, as
  the block of the whole-array function; and the 20 blocks covering the array.
-/
import proofs.«126777_j452_2_alg».proof.Proof.Gen.KernelIdeal.Frame
import proofs.«126777_j452_2_alg».proof.Proof.Spec
import proofs.«126777_j452_2_alg».proof.Proof.LibMatmulForms
import Idealize.ShloMosaic.Lib.Pipeline.Value
import Idealize.ShloMosaic.Lib.ValueLayout

noncomputable section

open scoped BigOperators

namespace Cert.KernelIdeal.KValue

open Cert.KernelIdeal Cert.KernelIdeal.Gen
open Idealize.ShloMosaic Idealize.ShloMosaic.ValueIdx Idealize.ShloMosaic.TcCoe
open Idealize.ShloMosaic.Pipeline (Dat)

namespace Launch1

/-! ## The body's arithmetic at one entry of a block -/

/-- The offsets of a whole-buffer access, as the constant zero function. -/
theorem zeroOffsets : (![0, 0] : Fin 2 → Nat) = fun _ => 0 := funext fun a => by fin_cases a <;> rfl

/-- A column [5000, 1] repeated along 64 lanes reads, at (r, f), the column's entry in row r. -/
theorem colBroadcast_apply {α : Type} (v : S5000x1.Idx → α) (h : S5000x1.Broadcasts S5000x64) (r : Fin 5000) (f : Fin 64) :
    broadcastTo S5000x64 v h (ix2 r f) = v (ix2 r (0 : Fin 1)) := by
  refine broadcastTo_apply v h (ix2 r f) (ix2 r (0 : Fin 1)) fun ax => ?_
  match ax with
  | ⟨0, _⟩ => rfl
  | ⟨1, _⟩ => rfl

/-- The rectified, scaled and biased block at (r, k): the aggregated entry times the scale of row r, plus the bias
    of lane k, or zero if that is negative. -/
theorem activation_apply (v0 : Vec Ideal S5000x1 .f32) (v4 : Vec Ideal S1x64 .f32) (v8 : Vec Ideal S5000x64 .f32)
    (r : Fin 5000) (k : Fin 64) :
    (maximumf
        (addf (mulf (shapeCast S5000x64 v8 shapeCasts_S5000x64_S5000x64 : FVec Ideal S5000x64 .f32)
            (broadcastTo S5000x64 (shapeCast S5000x1 (shapeCast S5000x1 v0 shapeCasts_S5000x1_S5000x1) shapeCasts_S5000x1_S5000x1)
              broadcasts_S5000x1_S5000x64))
          (broadcastTo S5000x64 (shapeCast S1x64 (shapeCast S1x64 v4 shapeCasts_S1x64_S1x64) shapeCasts_S1x64_S1x64)
            broadcasts_S1x64_S5000x64))
        (broadcast S5000x64 (Scalar.ofBits (F := Ideal) .f32 0x00000000#32)) : FVec Ideal S5000x64 .f32) (ix2 r k)
      = max ((v8 : S5000x64.Idx → EReal) (ix2 r k) * (v0 : S5000x1.Idx → EReal) (ix2 r (0 : Fin 1))
          + (v4 : S1x64.Idx → EReal) (ix2 (0 : Fin 1) k)) 0 := by
  refine (maximumf_apply _ _ _).trans ?_
  refine congrArg₂ max ?_ ?_
  · refine (addf_apply _ _ _).trans ?_
    refine congrArg₂ (· + ·) ?_ ?_
    · refine (mulf_apply _ _ _).trans ?_
      refine congrArg₂ (· * ·) ?_ ?_
      · exact congrFun (shapeCast_self _ _) _
      · refine (colBroadcast_apply _ _ r k).trans ?_
        exact congrFun ((shapeCast_self _ _).trans (shapeCast_self _ _)) _
    · refine (broadcastTo_1b_ab_apply _ _ r k).trans ?_
      exact congrFun ((shapeCast_self _ _).trans (shapeCast_self _ _)) _
  · exact Ideal.ofBits_zero_f32

/-- The stored value at (r, f) of a block: the inner sum of row r of the rectified block against column f of the
    weights, times the scale of row r. -/
theorem layer_apply (v0 : Vec Ideal S5000x1 .f32) (v4 : Vec Ideal S1x64 .f32) (v8 : Vec Ideal S5000x64 .f32)
    (v15 : Vec Ideal S64x64 .f32) (v18 : Vec Ideal S5000x1 .f32) (r : Fin 5000) (f : Fin 64) :
    (k1_pay1 (F := Ideal) v0 v4 v8 v15 v18 : S5000x64.Idx → EReal) (ix2 r f)
      = (∑ k : Fin 64, max ((v8 : S5000x64.Idx → EReal) (ix2 r k) * (v0 : S5000x1.Idx → EReal) (ix2 r (0 : Fin 1))
            + (v4 : S1x64.Idx → EReal) (ix2 (0 : Fin 1) k)) 0 * (v15 : S64x64.Idx → EReal) (ix2 k f))
          * (v18 : S5000x1.Idx → EReal) (ix2 r (0 : Fin 1)) := by
  unfold k1_pay1
  refine (mulf_apply _ _ _).trans ?_
  refine congrArg₂ (· * ·) ?_ ?_
  · refine (MatmulForms.matmul_zero_mm_apply dot_S5000x64_S64x64_S5000x64_1_0_0_1_n_n rfl rfl rfl rfl rfl rfl none
      _ (truncf .bf16 v15 bitsLt_bf16_f32) r f).trans ?_
    refine Finset.sum_congr rfl fun k _ => ?_
    exact congrArg (· * (v15 : S64x64.Idx → EReal) (ix2 k f)) (activation_apply v0 v4 v8 r k)
  · refine (colBroadcast_apply _ _ r f).trans ?_
    exact congrFun ((shapeCast_self _ _).trans (shapeCast_self _ _)) _

/-! ## One block against the whole arrays -/

/-- If the aggregated block holds rows 5000·b … of AGG, the scale block rows 5000·b … of the column D, the bias
    block is the bias row and the weight block is W, then the stored value at an entry of the block is the
    whole-array function at the entry of the array that sits 5000·b rows further down. -/
theorem layer_block (Agg : S100000x64.Idx → EReal) (D : S100000x1.Idx → EReal) (Bias : S1x64.Idx → EReal)
    (W : S64x64.Idx → EReal)
    (x0 : Vec Ideal S5000x64 .f32) (x1 : Vec Ideal S5000x1 .f32) (x2 : Vec Ideal S1x64 .f32) (x3 : Vec Ideal S64x64 .f32)
    (b : Nat)
    (h0 : ∀ (r : Fin 5000) (k : Fin 64) (n : Fin 100000), n.val = b * 5000 + r.val →
      (x0 : S5000x64.Idx → EReal) (ix2 r k) = Agg (ix2 n k))
    (h1 : ∀ (r : Fin 5000) (n : Fin 100000), n.val = b * 5000 + r.val →
      (x1 : S5000x1.Idx → EReal) (ix2 r (0 : Fin 1)) = D (ix2 n (0 : Fin 1)))
    (h2 : ∀ k : Fin 64, (x2 : S1x64.Idx → EReal) (ix2 (0 : Fin 1) k) = Bias (ix2 (0 : Fin 1) k))
    (h3 : ∀ (k : Fin 64) (f : Fin 64), (x3 : S64x64.Idx → EReal) (ix2 k f) = W (ix2 k f))
    (y : S5000x64.Idx) (i : S100000x64.Idx) (hi0 : (i 0).val = b * 5000 + (y 0).val) (hi1 : (i 1).val = (y 1).val) :
    (k1_pay1 (F := Ideal) x1 x2 x0 x3 x1 : S5000x64.Idx → EReal) y
      = GcnSpec.pre (A := 64) (B := 64) (fun n : Fin 100000 => D (ix2 n (0 : Fin 1)))
          (GcnSpec.act (C := 64) (fun n : Fin 100000 => D (ix2 n (0 : Fin 1))) Agg (fun f : Fin 64 => Bias (ix2 (0 : Fin 1) f))) W i := by
  obtain ⟨r, f, rfl⟩ : ∃ (r : Fin 5000) (f : Fin 64), y = ix2 r f := ⟨y 0, y 1, eq_ix2 y⟩
  obtain ⟨n, g, rfl⟩ : ∃ (n : Fin 100000) (g : Fin 64), i = ix2 n g := ⟨i 0, i 1, eq_ix2 i⟩
  obtain rfl : g = f := Fin.ext hi1
  have hn : n.val = b * 5000 + r.val := hi0
  rw [layer_apply]
  show _ = (∑ k : Fin 64, max (Agg (ix2 n k) * D (ix2 n (0 : Fin 1)) + Bias (ix2 (0 : Fin 1) k)) 0 * W (ix2 k g))
      * D (ix2 n (0 : Fin 1))
  rw [h1 r n hn]
  refine congrArg (· * D (ix2 n (0 : Fin 1))) (Finset.sum_congr rfl fun k _ => ?_)
  rw [h0 r k n hn, h2 k, h3 k g]

/-! ## The launch's blocks -/

section Blocks

variable (V : (c : Dev nD) → (b : Ref sig .tc) → Buf (Elt Ideal) ((c : Thread nD τ).loc b)) (c : Dev nD)

/-- Where the blocks sit: at point t the aggregated, scale and output blocks are the t-th row blocks of their
    arrays, the bias row and the weights are fetched whole. -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT t WRITES BACK is block t of the whole-array function of the arrays the launch finds. -/
theorem layer_flushed (t : Fin cfg1.N) :
    (dat1 (F := Ideal) V c).flushed 4 t
      = ((cfg1.win 4).blk t).view.read (Elt Ideal)
          (GcnSpec.pre (A := 64) (B := 64) (fun n : Fin 100000 => (V c main_v15 : S100000x1.Idx → EReal) (ix2 n (0 : Fin 1)))
            (GcnSpec.act (C := 64) (fun n : Fin 100000 => (V c main_v15 : S100000x1.Idx → EReal) (ix2 n (0 : Fin 1)))
              (V c main_v26 : S100000x64.Idx → EReal) (fun f : Fin 64 => (V c main_v27 : S1x64.Idx → EReal) (ix2 (0 : Fin 1) f)))
            (V c main_arg4 : S64x64.Idx → EReal)) := by
  obtain ⟨e00, e01, e10, e11, e20, e21, e30, e31, e40, e41⟩ := blockIndex t
  show (cfg1.win 4).cut (grid1.coords t) ((dat1 (F := Ideal) V c).after 4 t) = _
  rw [after1_4]
  unfold out1_4
  rw [View.canon_unit_zero zeroOffsets]
  simp only [View.ld_unit_zero (S := S5000x64) zeroOffsets, View.ld_unit_zero (S := S5000x1) zeroOffsets,
    View.ld_unit_zero (S := S1x64) zeroOffsets, View.ld_unit_zero (S := S64x64) zeroOffsets]
  funext j
  refine layer_block (V c main_v26) (V c main_v15) (V c main_v27) (V c main_arg4)
    (iblk1 V c 0 t) (iblk1 V c 1 t) (iblk1 V c 2 t) (iblk1 V c 3 t) (win1_4.index t (0 : Fin 2)) ?_ ?_ ?_ ?_ _ _ ?_ ?_
  · intro r k n hn
    show (V c main_v26 : S100000x64.Idx → EReal) (((cfg1.win 0).blk t).view.emb (ix2 r k)) = _
    refine congrArg _ (funext fun a => Fin.ext ?_)
    match a with
    | ⟨0, _⟩ => show win1_0.index t (0 : Fin 2) * 5000 + 1 * r.val = n.val; omega
    | ⟨1, _⟩ => show win1_0.index t (1 : Fin 2) * 64 + 1 * k.val = k.val; omega
  · intro r n hn
    show (V c main_v15 : S100000x1.Idx → EReal) (((cfg1.win 1).blk t).view.emb (ix2 r (0 : Fin 1))) = _
    refine congrArg _ (funext fun a => Fin.ext ?_)
    match a with
    | ⟨0, _⟩ => show win1_1.index t (0 : Fin 2) * 5000 + 1 * r.val = n.val; omega
    | ⟨1, _⟩ => show win1_1.index t (1 : Fin 2) * 1 + 1 * 0 = 0; omega
  · intro k
    show (V c main_v27 : S1x64.Idx → EReal) (((cfg1.win 2).blk t).view.emb (ix2 (0 : Fin 1) k)) = _
    refine congrArg _ (funext fun a => Fin.ext ?_)
    match a with
    | ⟨0, _⟩ => show win1_2.index t (0 : Fin 2) * 1 + 1 * 0 = 0; omega
    | ⟨1, _⟩ => show win1_2.index t (1 : Fin 2) * 64 + 1 * k.val = k.val; omega
  · intro k f
    show (V c main_arg4 : S64x64.Idx → EReal) (((cfg1.win 3).blk t).view.emb (ix2 k f)) = _
    refine congrArg _ (funext fun a => Fin.ext ?_)
    match a with
    | ⟨0, _⟩ => show win1_3.index t (0 : Fin 2) * 64 + 1 * k.val = k.val; omega
    | ⟨1, _⟩ => show win1_3.index t (1 : Fin 2) * 64 + 1 * f.val = f.val; omega
  · show win1_4.index t (0 : Fin 2) * 5000 + 1 * (j 0).val = win1_4.index t (0 : Fin 2) * 5000 + (j 0).val; omega
  · show win1_4.index t (1 : Fin 2) * 64 + 1 * (j 1).val = (j 1).val; omega

/-- An entry of the output array is in point t's block iff each coordinate is in the block's range on its axis. -/
theorem mem_outBlock (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v28).slice (win1_4.rect t)).set ↔ _
  rw [View.set_slice_whole, Rect.mem_set_unit]
  exact Iff.rfl

/-- Every entry of the output array is in some point's block: row n is in block n / 5000. -/
theorem layer_cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  have ht : (i 0).val / 5000 < cfg1.N := by rw [hN]; omega
  obtain ⟨-, -, -, -, -, -, -, -, e40, e41⟩ := blockIndex ⟨(i 0).val / 5000, ht⟩
  have e40' : win1_4.index ⟨(i 0).val / 5000, ht⟩ (0 : Fin 2) = (i 0).val / 5000 := e40
  refine ⟨⟨(i 0).val / 5000, ht⟩, flush1_4 _, ?_⟩
  rw [mem_outBlock]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    omega
  | ⟨1, _⟩ =>
    show win1_4.index ⟨(i 0).val / 5000, ht⟩ (1 : Fin 2) * 64 ≤ (i 1).val
      ∧ (i 1).val < win1_4.index ⟨(i 0).val / 5000, ht⟩ (1 : Fin 2) * 64 + 64
    omega

end Blocks

end Launch1

/-- THE SECOND LAUNCH: after its 20 write-backs the output array is the rectified, scaled and biased aggregate
    multiplied by the weights, row n scaled by dinv n. -/
theorem region1 (V : (c : Dev nD) → (b : Ref sig .tc) → Buf (Elt Ideal) ((c : Thread nD τ).loc b)) (c : Dev nD) :
    ((dat1 (F := Ideal) V c).arrAt 4 cfg1.N : S100000x64.Idx → EReal)
      = GcnSpec.pre (A := 64) (B := 64) (fun n : Fin 100000 => (V c main_v15 : S100000x1.Idx → EReal) (ix2 n (0 : Fin 1)))
          (GcnSpec.act (C := 64) (fun n : Fin 100000 => (V c main_v15 : S100000x1.Idx → EReal) (ix2 n (0 : Fin 1)))
            (V c main_v26 : S100000x64.Idx → EReal) (fun f : Fin 64 => (V c main_v27 : S1x64.Idx → EReal) (ix2 (0 : Fin 1) f)))
          (V c main_arg4 : S64x64.Idx → EReal) :=
  (dat1 (F := Ideal) V c).arrAt_eq_of_cover 4 _ (fun t _ => Launch1.layer_flushed V c t) Launch1.layer_cover

end Cert.KernelIdeal.KValue

end
-- ==== Proof.KRegion2.lean ====
/-
  The kernel's third launch, read as one function of whole arrays.

  The launch walks the 100000 nodes in 20 blocks of 5000 rows. At block T it takes rows 5000·T … 5000·T + 4999 of
  the aggregated features AGG ([100000, 64]) and of the column DINV ([100000, 1]), and, whole, the bias row
  ([1, 64]) and the weight matrix W ([64, 40]). Row R of the aggregated block is multiplied by the entry of the DINV
  block in row R, the bias row is added to every row, and the result is rectified (the maximum with zero); that
  block is multiplied by W (a product into a zero accumulator is the inner sum alone; narrowing a float's format
  changes nothing on the extended reals), row R of the product is multiplied by the DINV entry of row R once more,
  and the result is written back as rows 5000·T … 5000·T + 4999 of the output ([100000, 40]).

  Entry (n, g) of the output therefore depends only on row n of AGG, entry n of DINV, the bias and column g of W:
  it is (∑ k, max (AGG (n, k) · DINV n + bias k) 0 · W (k, g)) · DINV n. Every row lies in exactly one block (row n
  in block n / 5000), so after the 20 write-backs the output array is
  GcnSpec.pre DINV (GcnSpec.act DINV AGG bias) W.

  The module has three parts: the body's arithmetic read at one entry of a block; what one block writes back, as
  the block of the whole-array function; and the 20 blocks covering the array.
-/
import proofs.«126777_j452_2_alg».proof.Proof.Gen.KernelIdeal.Frame
import proofs.«126777_j452_2_alg».proof.Proof.Spec
import proofs.«126777_j452_2_alg».proof.Proof.LibMatmulForms
import Idealize.ShloMosaic.Lib.Pipeline.Value
import Idealize.ShloMosaic.Lib.ValueLayout

noncomputable section

open scoped BigOperators

namespace Cert.KernelIdeal.KValue

open Cert.KernelIdeal Cert.KernelIdeal.Gen
open Idealize.ShloMosaic Idealize.ShloMosaic.ValueIdx Idealize.ShloMosaic.TcCoe
open Idealize.ShloMosaic.Pipeline (Dat)

namespace Launch2

/-! ## The body's arithmetic at one entry of a block -/

/-- The offsets of a whole-buffer access, as the constant zero function. -/
theorem zeroOffsets : (![0, 0] : Fin 2 → Nat) = fun _ => 0 := funext fun a => by fin_cases a <;> rfl

/-- A column [5000, 1] repeated along 64 lanes reads, at (r, k), the column's entry in row r. -/
theorem colBroadcast64_apply {α : Type} (v : S5000x1.Idx → α) (h : S5000x1.Broadcasts S5000x64) (r : Fin 5000) (k : Fin 64) :
    broadcastTo S5000x64 v h (ix2 r k) = v (ix2 r (0 : Fin 1)) := by
  refine broadcastTo_apply v h (ix2 r k) (ix2 r (0 : Fin 1)) fun ax => ?_
  match ax with
  | ⟨0, _⟩ => rfl
  | ⟨1, _⟩ => rfl

/-- A column [5000, 1] repeated along 40 lanes reads, at (r, g), the column's entry in row r. -/
theorem colBroadcast40_apply {α : Type} (v : S5000x1.Idx → α) (h : S5000x1.Broadcasts S5000x40) (r : Fin 5000) (g : Fin 40) :
    broadcastTo S5000x40 v h (ix2 r g) = v (ix2 r (0 : Fin 1)) := by
  refine broadcastTo_apply v h (ix2 r g) (ix2 r (0 : Fin 1)) fun ax => ?_
  match ax with
  | ⟨0, _⟩ => rfl
  | ⟨1, _⟩ => rfl

/-- The rectified, scaled and biased block at (r, k): the aggregated entry times the scale of row r, plus the bias
    of lane k, or zero if that is negative. -/
theorem activation_apply (v0 : Vec Ideal S5000x1 .f32) (v4 : Vec Ideal S1x64 .f32) (v8 : Vec Ideal S5000x64 .f32)
    (r : Fin 5000) (k : Fin 64) :
    (maximumf
        (addf (mulf (shapeCast S5000x64 v8 shapeCasts_S5000x64_S5000x64 : FVec Ideal S5000x64 .f32)
            (broadcastTo S5000x64 (shapeCast S5000x1 (shapeCast S5000x1 v0 shapeCasts_S5000x1_S5000x1) shapeCasts_S5000x1_S5000x1)
              broadcasts_S5000x1_S5000x64))
          (broadcastTo S5000x64 (shapeCast S1x64 (shapeCast S1x64 v4 shapeCasts_S1x64_S1x64) shapeCasts_S1x64_S1x64)
            broadcasts_S1x64_S5000x64))
        (broadcast S5000x64 (Scalar.ofBits (F := Ideal) .f32 0x00000000#32)) : FVec Ideal S5000x64 .f32) (ix2 r k)
      = max ((v8 : S5000x64.Idx → EReal) (ix2 r k) * (v0 : S5000x1.Idx → EReal) (ix2 r (0 : Fin 1))
          + (v4 : S1x64.Idx → EReal) (ix2 (0 : Fin 1) k)) 0 := by
  refine (maximumf_apply _ _ _).trans ?_
  refine congrArg₂ max ?_ ?_
  · refine (addf_apply _ _ _).trans ?_
    refine congrArg₂ (· + ·) ?_ ?_
    · refine (mulf_apply _ _ _).trans ?_
      refine congrArg₂ (· * ·) ?_ ?_
      · exact congrFun (shapeCast_self _ _) _
      · refine (colBroadcast64_apply _ _ r k).trans ?_
        exact congrFun ((shapeCast_self _ _).trans (shapeCast_self _ _)) _
    · refine (broadcastTo_1b_ab_apply _ _ r k).trans ?_
      exact congrFun ((shapeCast_self _ _).trans (shapeCast_self _ _)) _
  · exact Ideal.ofBits_zero_f32

/-- The stored value at (r, g) of a block: the inner sum of row r of the rectified block against column g of the
    weights, times the scale of row r. -/
theorem layer_apply (v0 : Vec Ideal S5000x1 .f32) (v4 : Vec Ideal S1x64 .f32) (v8 : Vec Ideal S5000x64 .f32)
    (v15 : Vec Ideal S64x40 .f32) (v18 : Vec Ideal S5000x1 .f32) (r : Fin 5000) (g : Fin 40) :
    (k2_pay1 (F := Ideal) v0 v4 v8 v15 v18 : S5000x40.Idx → EReal) (ix2 r g)
      = (∑ k : Fin 64, max ((v8 : S5000x64.Idx → EReal) (ix2 r k) * (v0 : S5000x1.Idx → EReal) (ix2 r (0 : Fin 1))
            + (v4 : S1x64.Idx → EReal) (ix2 (0 : Fin 1) k)) 0 * (v15 : S64x40.Idx → EReal) (ix2 k g))
          * (v18 : S5000x1.Idx → EReal) (ix2 r (0 : Fin 1)) := by
  unfold k2_pay1
  refine (mulf_apply _ _ _).trans ?_
  refine congrArg₂ (· * ·) ?_ ?_
  · refine (MatmulForms.matmul_zero_mm_apply dot_S5000x64_S64x40_S5000x40_1_0_0_1_n_n rfl rfl rfl rfl rfl rfl none
      _ (truncf .bf16 v15 bitsLt_bf16_f32) r g).trans ?_
    refine Finset.sum_congr rfl fun k _ => ?_
    exact congrArg (· * (v15 : S64x40.Idx → EReal) (ix2 k g)) (activation_apply v0 v4 v8 r k)
  · refine (colBroadcast40_apply _ _ r g).trans ?_
    exact congrFun ((shapeCast_self _ _).trans (shapeCast_self _ _)) _

/-! ## One block against the whole arrays -/

/-- If the aggregated block holds rows 5000·b … of AGG, the scale block rows 5000·b … of the column D, the bias
    block is the bias row and the weight block is W, then the stored value at an entry of the block is the
    whole-array function at the entry of the array that sits 5000·b rows further down. -/
theorem layer_block (Agg : S100000x64.Idx → EReal) (D : S100000x1.Idx → EReal) (Bias : S1x64.Idx → EReal)
    (W : S64x40.Idx → EReal)
    (x0 : Vec Ideal S5000x64 .f32) (x1 : Vec Ideal S5000x1 .f32) (x2 : Vec Ideal S1x64 .f32) (x3 : Vec Ideal S64x40 .f32)
    (b : Nat)
    (h0 : ∀ (r : Fin 5000) (k : Fin 64) (n : Fin 100000), n.val = b * 5000 + r.val →
      (x0 : S5000x64.Idx → EReal) (ix2 r k) = Agg (ix2 n k))
    (h1 : ∀ (r : Fin 5000) (n : Fin 100000), n.val = b * 5000 + r.val →
      (x1 : S5000x1.Idx → EReal) (ix2 r (0 : Fin 1)) = D (ix2 n (0 : Fin 1)))
    (h2 : ∀ k : Fin 64, (x2 : S1x64.Idx → EReal) (ix2 (0 : Fin 1) k) = Bias (ix2 (0 : Fin 1) k))
    (h3 : ∀ (k : Fin 64) (g : Fin 40), (x3 : S64x40.Idx → EReal) (ix2 k g) = W (ix2 k g))
    (y : S5000x40.Idx) (i : S100000x40.Idx) (hi0 : (i 0).val = b * 5000 + (y 0).val) (hi1 : (i 1).val = (y 1).val) :
    (k2_pay1 (F := Ideal) x1 x2 x0 x3 x1 : S5000x40.Idx → EReal) y
      = GcnSpec.pre (A := 64) (B := 40) (fun n : Fin 100000 => D (ix2 n (0 : Fin 1)))
          (GcnSpec.act (C := 64) (fun n : Fin 100000 => D (ix2 n (0 : Fin 1))) Agg (fun f : Fin 64 => Bias (ix2 (0 : Fin 1) f))) W i := by
  obtain ⟨r, g, rfl⟩ : ∃ (r : Fin 5000) (g : Fin 40), y = ix2 r g := ⟨y 0, y 1, eq_ix2 y⟩
  obtain ⟨n, g', rfl⟩ : ∃ (n : Fin 100000) (g' : Fin 40), i = ix2 n g' := ⟨i 0, i 1, eq_ix2 i⟩
  obtain rfl : g' = g := Fin.ext hi1
  have hn : n.val = b * 5000 + r.val := hi0
  rw [layer_apply]
  show _ = (∑ k : Fin 64, max (Agg (ix2 n k) * D (ix2 n (0 : Fin 1)) + Bias (ix2 (0 : Fin 1) k)) 0 * W (ix2 k g'))
      * D (ix2 n (0 : Fin 1))
  rw [h1 r n hn]
  refine congrArg (· * D (ix2 n (0 : Fin 1))) (Finset.sum_congr rfl fun k _ => ?_)
  rw [h0 r k n hn, h2 k, h3 k g']

/-! ## The launch's blocks -/

section Blocks

variable (V : (c : Dev nD) → (b : Ref sig .tc) → Buf (Elt Ideal) ((c : Thread nD τ).loc b)) (c : Dev nD)

/-- Where the blocks sit: at point t the aggregated, scale and output blocks are the t-th row blocks of their
    arrays, the bias row and the weights are fetched whole. -/
theorem blockIndex : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- WHAT POINT t WRITES BACK is block t of the whole-array function of the arrays the launch finds. -/
theorem layer_flushed (t : Fin cfg2.N) :
    (dat2 (F := Ideal) V c).flushed 4 t
      = ((cfg2.win 4).blk t).view.read (Elt Ideal)
          (GcnSpec.pre (A := 64) (B := 40) (fun n : Fin 100000 => (V c main_v15 : S100000x1.Idx → EReal) (ix2 n (0 : Fin 1)))
            (GcnSpec.act (C := 64) (fun n : Fin 100000 => (V c main_v15 : S100000x1.Idx → EReal) (ix2 n (0 : Fin 1)))
              (V c main_v38 : S100000x64.Idx → EReal) (fun f : Fin 64 => (V c main_v39 : S1x64.Idx → EReal) (ix2 (0 : Fin 1) f)))
            (V c main_arg6 : S64x40.Idx → EReal)) := by
  obtain ⟨e00, e01, e10, e11, e20, e21, e30, e31, e40, e41⟩ := blockIndex t
  show (cfg2.win 4).cut (grid2.coords t) ((dat2 (F := Ideal) V c).after 4 t) = _
  rw [after2_4]
  unfold out2_4
  rw [View.canon_unit_zero zeroOffsets]
  simp only [View.ld_unit_zero (S := S5000x64) zeroOffsets, View.ld_unit_zero (S := S5000x1) zeroOffsets,
    View.ld_unit_zero (S := S1x64) zeroOffsets, View.ld_unit_zero (S := S64x40) zeroOffsets]
  funext j
  refine layer_block (V c main_v38) (V c main_v15) (V c main_v39) (V c main_arg6)
    (iblk2 V c 0 t) (iblk2 V c 1 t) (iblk2 V c 2 t) (iblk2 V c 3 t) (win2_4.index t (0 : Fin 2)) ?_ ?_ ?_ ?_ _ _ ?_ ?_
  · intro r k n hn
    show (V c main_v38 : S100000x64.Idx → EReal) (((cfg2.win 0).blk t).view.emb (ix2 r k)) = _
    refine congrArg _ (funext fun a => Fin.ext ?_)
    match a with
    | ⟨0, _⟩ => show win2_0.index t (0 : Fin 2) * 5000 + 1 * r.val = n.val; omega
    | ⟨1, _⟩ => show win2_0.index t (1 : Fin 2) * 64 + 1 * k.val = k.val; omega
  · intro r n hn
    show (V c main_v15 : S100000x1.Idx → EReal) (((cfg2.win 1).blk t).view.emb (ix2 r (0 : Fin 1))) = _
    refine congrArg _ (funext fun a => Fin.ext ?_)
    match a with
    | ⟨0, _⟩ => show win2_1.index t (0 : Fin 2) * 5000 + 1 * r.val = n.val; omega
    | ⟨1, _⟩ => show win2_1.index t (1 : Fin 2) * 1 + 1 * 0 = 0; omega
  · intro k
    show (V c main_v39 : S1x64.Idx → EReal) (((cfg2.win 2).blk t).view.emb (ix2 (0 : Fin 1) k)) = _
    refine congrArg _ (funext fun a => Fin.ext ?_)
    match a with
    | ⟨0, _⟩ => show win2_2.index t (0 : Fin 2) * 1 + 1 * 0 = 0; omega
    | ⟨1, _⟩ => show win2_2.index t (1 : Fin 2) * 64 + 1 * k.val = k.val; omega
  · intro k g
    show (V c main_arg6 : S64x40.Idx → EReal) (((cfg2.win 3).blk t).view.emb (ix2 k g)) = _
    refine congrArg _ (funext fun a => Fin.ext ?_)
    match a with
    | ⟨0, _⟩ => show win2_3.index t (0 : Fin 2) * 64 + 1 * k.val = k.val; omega
    | ⟨1, _⟩ => show win2_3.index t (1 : Fin 2) * 40 + 1 * g.val = g.val; omega
  · show win2_4.index t (0 : Fin 2) * 5000 + 1 * (j 0).val = win2_4.index t (0 : Fin 2) * 5000 + (j 0).val; omega
  · show win2_4.index t (1 : Fin 2) * 40 + 1 * (j 1).val = (j 1).val; omega

/-- An entry of the output array is in point t's block iff each coordinate is in the block's range on its axis. -/
theorem mem_outBlock (t : Fin cfg2.N) (i : S100000x40.Idx) :
    i ∈ ((cfg2.win 4).blk t).view.set ↔ ∀ a : Fin 2, win2_4.index t a * S5000x40.size a ≤ (i a).val
      ∧ (i a).val < win2_4.index t a * S5000x40.size a + S5000x40.size a := by
  show i ∈ ((View.whole main_v40).slice (win2_4.rect t)).set ↔ _
  rw [View.set_slice_whole, Rect.mem_set_unit]
  exact Iff.rfl

/-- Every entry of the output array is in some point's block: row n is in block n / 5000. -/
theorem layer_cover (i : S100000x40.Idx) :
    ∃ t : Fin cfg2.N, (cfg2.win 4).flush t = true ∧ i ∈ ((cfg2.win 4).blk t).view.set := by
  have hi0 : (i 0).val < 100000 := (i 0).isLt
  have hi1 : (i 1).val < 40 := (i 1).isLt
  have hN : cfg2.N = 20 := N_2
  have ht : (i 0).val / 5000 < cfg2.N := by rw [hN]; omega
  obtain ⟨-, -, -, -, -, -, -, -, e40, e41⟩ := blockIndex ⟨(i 0).val / 5000, ht⟩
  have e40' : win2_4.index ⟨(i 0).val / 5000, ht⟩ (0 : Fin 2) = (i 0).val / 5000 := e40
  refine ⟨⟨(i 0).val / 5000, ht⟩, flush2_4 _, ?_⟩
  rw [mem_outBlock]
  intro a
  match a with
  | ⟨0, _⟩ =>
    show win2_4.index ⟨(i 0).val / 5000, ht⟩ (0 : Fin 2) * 5000 ≤ (i 0).val
      ∧ (i 0).val < win2_4.index ⟨(i 0).val / 5000, ht⟩ (0 : Fin 2) * 5000 + 5000
    omega
  | ⟨1, _⟩ =>
    show win2_4.index ⟨(i 0).val / 5000, ht⟩ (1 : Fin 2) * 40 ≤ (i 1).val
      ∧ (i 1).val < win2_4.index ⟨(i 0).val / 5000, ht⟩ (1 : Fin 2) * 40 + 40
    omega

end Blocks

end Launch2

/-- THE THIRD LAUNCH: after its 20 write-backs the output array is the rectified, scaled and biased aggregate
    multiplied by the weights, row n scaled by dinv n. -/
theorem region2 (V : (c : Dev nD) → (b : Ref sig .tc) → Buf (Elt Ideal) ((c : Thread nD τ).loc b)) (c : Dev nD) :
    ((dat2 (F := Ideal) V c).arrAt 4 cfg2.N : S100000x40.Idx → EReal)
      = GcnSpec.pre (A := 64) (B := 40) (fun n : Fin 100000 => (V c main_v15 : S100000x1.Idx → EReal) (ix2 n (0 : Fin 1)))
          (GcnSpec.act (fun n : Fin 100000 => (V c main_v15 : S100000x1.Idx → EReal) (ix2 n (0 : Fin 1)))
            (V c main_v38 : S100000x64.Idx → EReal) (fun f : Fin 64 => (V c main_v39 : S1x64.Idx → EReal) (ix2 (0 : Fin 1) f)))
          (V c main_arg6 : S64x40.Idx → EReal) :=
  (dat2 (F := Ideal) V c).arrAt_eq_of_cover 4 _ (fun t _ => Launch2.layer_flushed V c t) Launch2.layer_cover

end Cert.KernelIdeal.KValue

end
-- ==== Proof.KRegion3.lean ====
/-
  The fourth launch of the kernel, read as one function of the arrays it finds.

  The launch walks 20 row blocks of 5000 rows. At each block it multiplies row r of the aggregated array by the
  r-th entry of the column of inverse square-root degrees and adds the bias row. Block t of the output is therefore
  block t of ONE whole-array function, the specification's post, and the 20 blocks tile the 100000 rows, so the
  output array ends holding that function.
-/
import proofs.«126777_j452_2_alg».proof.Proof.Gen.KernelIdeal.Frame
import proofs.«126777_j452_2_alg».proof.Proof.Spec
import Idealize.ShloMosaic.Lib.Pipeline.Value
import Idealize.ShloMosaic.Lib.ValueIdx

noncomputable section

open scoped BigOperators

namespace Cert.KernelIdeal.KValue

open Cert.KernelIdeal Cert.KernelIdeal.Gen
open Idealize.ShloMosaic Idealize.ShloMosaic.ValueIdx Idealize.ShloMosaic.TcCoe
open Idealize.ShloMosaic.Pipeline (Dat)

namespace Final

/-- The zero corner of a rank-2 rectangle, however the zeros are spelt. -/
theorem corner_zero : (![0, 0] : Fin 2 → Nat) = fun _ => 0 := funext fun a => by fin_cases a <;> rfl

/-- A column [5000,1] broadcast along the 40 lanes reads, at (r, f), the column's r-th entry. -/
theorem bcast_col_apply {α : Type} (v : S5000x1.Idx → α) (h : S5000x1.Broadcasts S5000x40) (r : Fin 5000) (f : Fin 40) :
    broadcastTo S5000x40 v h (ix2 r f) = v (ix2 r 0) := by
  refine broadcastTo_apply v h (ix2 r f) (ix2 r 0) fun ax => ?_
  match ax with
  | ⟨0, _⟩ => rfl
  | ⟨1, _⟩ => rfl

/-- A row [1,40] broadcast along the 5000 rows reads, at (r, f), the row's f-th entry. -/
theorem bcast_row_apply {α : Type} (v : S1x40.Idx → α) (h : S1x40.Broadcasts S5000x40) (r : Fin 5000) (f : Fin 40) :
    broadcastTo S5000x40 v h (ix2 r f) = v (ix2 0 f) := by
  refine broadcastTo_apply v h (ix2 r f) (ix2 0 f) fun ax => ?_
  match ax with
  | ⟨0, _⟩ => rfl
  | ⟨1, _⟩ => rfl

/-- The body's stored value at row r and lane f of a block: the aggregated entry times the row's scale, plus the bias. -/
theorem payload_apply (x0 : Vec Ideal S5000x1 .f32) (x1 : Vec Ideal S1x40 .f32) (x2 : Vec Ideal S5000x40 .f32)
    (r : Fin 5000) (f : Fin 40) :
    k3_pay1 (F := Ideal) x0 x1 x2 (ix2 r f) = x2 (ix2 r f) * x0 (ix2 r 0) + x1 (ix2 0 f) := by
  unfold k3_pay1
  simp only [shapeCast_self]
  rw [addf_apply, mulf_apply, bcast_col_apply, bcast_row_apply]

/-- The body's stored value at a block index y, given what the three loaded blocks hold there, is the
    specification's value at the array index i the block index sits at. -/
theorem point_value (A : S100000x40.Idx → EReal) (D : S100000x1.Idx → EReal) (B : S1x40.Idx → EReal)
    (x0 : Vec Ideal S5000x1 .f32) (x1 : Vec Ideal S1x40 .f32) (x2 : Vec Ideal S5000x40 .f32)
    (r : Fin 5000) (f : Fin 40) (n : Fin 100000) (m : Fin 40)
    (h2 : x2 (ix2 r f) = A (ix2 n m)) (h0 : x0 (ix2 r 0) = D (ix2 n 0)) (h1 : x1 (ix2 0 f) = B (ix2 0 m)) :
    k3_pay1 (F := Ideal) x0 x1 x2 (ix2 r f)
      = GcnSpec.post (fun n : Fin 100000 => D (ix2 n 0)) A (fun f : Fin 40 => B (ix2 0 f)) (ix2 n m) := by
  rw [payload_apply, h2, h0, h1]
  rfl

variable (V : (c : Dev nD) → (b : Ref sig .tc) → Buf (Elt Ideal) ((c : Thread nD τ).loc b))

/-- The printed index maps over the 20 grid points: the aggregated array, the scale column and the output move
    together one row block per point; the bias row stays at its one block. -/
theorem index_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- WHAT POINT t WRITES BACK is block t of the specification's post of the arrays the launch finds. -/
theorem flushed_eq (c : Dev nD) (t : Fin cfg3.N) :
    (dat3 (F := Ideal) V c).flushed 3 t = ((cfg3.win 3).blk t).view.read (Elt Ideal)
      (GcnSpec.post (fun n : Fin 100000 => (V c main_v15 : S100000x1.Idx → EReal) (ix2 n 0)) (V c main_v50)
        (fun f : Fin 40 => (V c main_v51 : S1x40.Idx → EReal) (ix2 0 f))) := by
  show (cfg3.win 3).cut (grid3.coords t) ((dat3 V c).after 3 t) = _
  rw [after3_3]
  unfold out3_3
  rw [View.canon_unit_zero corner_zero]
  simp only [View.ld_unit_zero (S := S5000x1) corner_zero, View.ld_unit_zero (S := S1x40) corner_zero,
    View.ld_unit_zero (S := S5000x40) corner_zero]
  obtain ⟨a0, a1, d0, d1, b0, b1, o0, o1⟩ := index_facts t
  funext j
  obtain ⟨r, hr⟩ : ∃ r : Fin 5000, r.val = (j 0).val := ⟨⟨_, (j 0).isLt⟩, rfl⟩
  obtain ⟨f, hf⟩ : ∃ f : Fin 40, f.val = (j 1).val := ⟨⟨_, (j 1).isLt⟩, rfl⟩
  obtain ⟨n, hn⟩ : ∃ n : Fin 100000, n.val = win3_3.index t (0 : Fin 2) * 5000 + 1 * (j 0).val :=
    ⟨(((cfg3.win 3).blk t).view.emb j) 0, rfl⟩
  obtain ⟨m, hm⟩ : ∃ m : Fin 40, m.val = win3_3.index t (1 : Fin 2) * 40 + 1 * (j 1).val :=
    ⟨(((cfg3.win 3).blk t).view.emb j) 1, rfl⟩
  have hy : (win3_3.xinj (grid3.coords t) j : S5000x40.Idx) = ix2 r f :=
    funext fun a => Fin.ext (by match a with | ⟨0, _⟩ => exact hr.symm | ⟨1, _⟩ => exact hf.symm)
  have hi : (((cfg3.win 3).blk t).view.emb j : S100000x40.Idx) = ix2 n m :=
    funext fun a => Fin.ext (by match a with | ⟨0, _⟩ => exact hn.symm | ⟨1, _⟩ => exact hm.symm)
  refine (congrArg (k3_pay1 (F := Ideal) (iblk3 V c 1 t) (iblk3 V c 2 t) (iblk3 V c 0 t)) hy).trans ?_
  refine Eq.trans ?_ (congrArg (GcnSpec.post (fun n : Fin 100000 => (V c main_v15 : S100000x1.Idx → EReal) (ix2 n 0))
    (V c main_v50) (fun f : Fin 40 => (V c main_v51 : S1x40.Idx → EReal) (ix2 0 f))) hi.symm)
  refine point_value (V c main_v50) (V c main_v15) (V c main_v51) _ _ _ r f n m ?_ ?_ ?_
  · show V c main_v50 (((cfg3.win 0).blk t).view.emb (ix2 r f)) = V c main_v50 (ix2 n m)
    refine congrArg (V c main_v50) (funext fun a => Fin.ext ?_)
    match a with
    | ⟨0, _⟩ => show win3_0.index t (0 : Fin 2) * 5000 + 1 * r.val = n.val; rw [a0, hn, o0, hr]
    | ⟨1, _⟩ => show win3_0.index t (1 : Fin 2) * 40 + 1 * f.val = m.val; rw [a1, hm, o1, hf]
  · show V c main_v15 (((cfg3.win 1).blk t).view.emb (ix2 r 0)) = V c main_v15 (ix2 n 0)
    refine congrArg (V c main_v15) (funext fun a => Fin.ext ?_)
    match a with
    | ⟨0, _⟩ => show win3_1.index t (0 : Fin 2) * 5000 + 1 * r.val = n.val; rw [d0, hn, o0, hr]
    | ⟨1, _⟩ => show win3_1.index t (1 : Fin 2) * 1 + 1 * 0 = 0; rw [d1]
  · show V c main_v51 (((cfg3.win 2).blk t).view.emb (ix2 0 f)) = V c main_v51 (ix2 0 m)
    refine congrArg (V c main_v51) (funext fun a => Fin.ext ?_)
    match a with
    | ⟨0, _⟩ => show win3_2.index t (0 : Fin 2) * 1 + 1 * 0 = 0; rw [b0]
    | ⟨1, _⟩ => show win3_2.index t (1 : Fin 2) * 40 + 1 * f.val = m.val; rw [b1, hm, o1, hf]

/-- An index of the output array is in point t's block iff each coordinate is in the block's range on its axis. -/
theorem mem_blk (t : Fin cfg3.N) (i : S100000x40.Idx) :
    i ∈ ((cfg3.win 3).blk t).view.set ↔ ∀ a : Fin 2, win3_3.index t a * S5000x40.size a ≤ (i a).val
      ∧ (i a).val < win3_3.index t a * S5000x40.size a + S5000x40.size a := by
  show i ∈ ((View.whole main_v52).slice (win3_3.rect t)).set ↔ _
  rw [View.set_slice_whole, Rect.mem_set_unit]
  exact Iff.rfl

/-- The 20 row blocks tile the 100000 rows: row n is in the block of point n / 5000. -/
theorem cover (i : S100000x40.Idx) :
    ∃ t : Fin cfg3.N, (cfg3.win 3).flush t = true ∧ i ∈ ((cfg3.win 3).blk t).view.set := by
  have hi0 : (i 0).val < 100000 := (i 0).isLt
  have hi1 : (i 1).val < 40 := (i 1).isLt
  have hN : cfg3.N = 20 := N_3
  let t : Fin cfg3.N := ⟨(i 0).val / 5000, by rw [hN]; omega⟩
  obtain ⟨-, -, -, -, -, -, e0, e1⟩ := index_facts t
  have ht : t.val = (i 0).val / 5000 := rfl
  refine ⟨t, flush3_3 t, ?_⟩
  rw [mem_blk]
  intro a
  match a with
  | ⟨0, _⟩ =>
    show win3_3.index t (0 : Fin 2) * 5000 ≤ (i 0).val ∧ (i 0).val < win3_3.index t (0 : Fin 2) * 5000 + 5000
    rw [e0, ht]; omega
  | ⟨1, _⟩ =>
    show win3_3.index t (1 : Fin 2) * 40 ≤ (i 1).val ∧ (i 1).val < win3_3.index t (1 : Fin 2) * 40 + 40
    rw [e1]; omega

end Final

variable (V : (c : Dev nD) → (b : Ref sig .tc) → Buf (Elt Ideal) ((c : Thread nD τ).loc b))

/-- THE FOURTH LAUNCH: its output array ends holding the specification's post — every row of the aggregated
    array times that row's inverse square-root degree, plus the bias row. -/
theorem region3 (c : Dev nD) :
    ((dat3 (F := Ideal) V c).arrAt 3 cfg3.N : S100000x40.Idx → EReal)
      = GcnSpec.post (fun n : Fin 100000 => (V c main_v15 : S100000x1.Idx → EReal) (ix2 n 0)) (V c main_v50)
        (fun f : Fin 40 => (V c main_v51 : S1x40.Idx → EReal) (ix2 0 f)) :=
  (dat3 V c).arrAt_eq_of_cover 3 _ (fun t _ => Final.flushed_eq V c t) Final.cover

end Cert.KernelIdeal.KValue

end
-- ==== Proof.KernelValue.lean ====
/-
  The idealized kernel program computes the network with the normalisation on the nodes.

  Following the result backwards: the fourth launch scales the third aggregation by the inverse square roots of the
  degrees and adds the last bias; the third aggregation is the aggregation of the third launch's output, which is the
  scaled matrix product of the rectified second layer; and so on down to the first launch, the scaled product of the
  features with the first weights. Every launch finds the degrees' column, the weights and the bias row as the first
  stretches of host operations (or the launch of the program) left them.
-/
import proofs.«126777_j452_2_alg».proof.Proof.KernelStages
import proofs.«126777_j452_2_alg».proof.Proof.KernelRun
import proofs.«126777_j452_2_alg».proof.Proof.KRegion0
import proofs.«126777_j452_2_alg».proof.Proof.KRegion1
import proofs.«126777_j452_2_alg».proof.Proof.KRegion2
import proofs.«126777_j452_2_alg».proof.Proof.KRegion3

set_option maxRecDepth 16384

noncomputable section

namespace Cert.KernelIdeal.KValue

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-! ## The degrees' column as each launch finds it -/

theorem d_V3 (c : Dev nD) :
    (fun n : Fin 100000 => (V3 m ρ c main_v15 : S100000x1.Idx → EReal) (ix2 n (0 : Fin 1))) = dK m ρ c := rfl
theorem d_V5 (c : Dev nD) :
    (fun n : Fin 100000 => (V5 m ρ c main_v15 : S100000x1.Idx → EReal) (ix2 n (0 : Fin 1))) = dK m ρ c :=
  funext fun n => congrFun (W5_v15 m ρ c) (ix2 n 0)
theorem d_V7 (c : Dev nD) :
    (fun n : Fin 100000 => (V7 m ρ c main_v15 : S100000x1.Idx → EReal) (ix2 n (0 : Fin 1))) = dK m ρ c :=
  funext fun n => congrFun (W7_v15 m ρ c) (ix2 n 0)
theorem d_V9 (c : Dev nD) :
    (fun n : Fin 100000 => (V9 m ρ c main_v15 : S100000x1.Idx → EReal) (ix2 n (0 : Fin 1))) = dK m ρ c :=
  funext fun n => congrFun (W9_v15 m ρ c) (ix2 n 0)

/-! ## The four launches' outputs -/

/-- The first launch: the features times the first weights, row `n` scaled by `dinv n`. -/
theorem out_launch0 (c : Dev nD) :
    (V4 m ρ c main_v16 : S100000x64.Idx → EReal)
      = GcnSpec.pre (dK m ρ c) (m ((c : Thread nD τ).loc main_arg0) : S100000x128.Idx → EReal)
          (m ((c : Thread nD τ).loc main_arg2) : S128x64.Idx → EReal) := by
  have e0 : (V3 m ρ c main_arg0 : S100000x128.Idx → EReal) = m ((c : Thread nD τ).loc main_arg0) := W3_arg0 m ρ c
  have e2 : (V3 m ρ c main_arg2 : S128x64.Idx → EReal) = m ((c : Thread nD τ).loc main_arg2) := W3_arg2 m ρ c
  refine (W4_arr m ρ c 3).trans ((region0 (V3 m ρ) c).trans ?_)
  rw [d_V3, e0, e2]

/-- The second launch: the rectified first layer times the second weights, scaled. -/
theorem out_launch1 (c : Dev nD) :
    (V6 m ρ c main_v28 : S100000x64.Idx → EReal)
      = GcnSpec.pre (dK m ρ c)
          (GcnSpec.act (dK m ρ c) (GcnSpec.agg (dstColK m ρ c) (srcColK m ρ c) (V4 m ρ c main_v16))
            (fun f => (m ((c : Thread nD τ).loc main_arg3) : S64.Idx → EReal) (ix1 f)))
          (m ((c : Thread nD τ).loc main_arg4) : S64x64.Idx → EReal) := by
  have e4 : (V5 m ρ c main_arg4 : S64x64.Idx → EReal) = m ((c : Thread nD τ).loc main_arg4) := W5_arg4 m ρ c
  refine (W6_arr m ρ c 4).trans ((region1 (V5 m ρ) c).trans ?_)
  rw [d_V5, V5_v26, V5_v27, e4]

/-- The third launch: the rectified second layer times the third weights, scaled. -/
theorem out_launch2 (c : Dev nD) :
    (V8 m ρ c main_v40 : S100000x40.Idx → EReal)
      = GcnSpec.pre (dK m ρ c)
          (GcnSpec.act (dK m ρ c) (GcnSpec.agg (dstColK m ρ c) (srcColK m ρ c) (V6 m ρ c main_v28))
            (fun f => (m ((c : Thread nD τ).loc main_arg5) : S64.Idx → EReal) (ix1 f)))
          (m ((c : Thread nD τ).loc main_arg6) : S64x40.Idx → EReal) := by
  have e6 : (V7 m ρ c main_arg6 : S64x40.Idx → EReal) = m ((c : Thread nD τ).loc main_arg6) := W7_arg6 m ρ c
  refine (W8_arr m ρ c 4).trans ((region2 (V7 m ρ) c).trans ?_)
  rw [d_V7, V7_v38, V7_v39, e6]

/-- THE KERNEL'S RESULT: the last stage of the fold holds, at the result's buffer, the three-layer network with the
    normalisation on the nodes, of the arguments as launched. -/
theorem kernel_value (c : Dev nD) :
    (W10 m ρ c (Proc.devRef .tc main_v52) : S100000x40.Idx → EReal)
      = GcnSpec.kernelOut (dK m ρ c) (dstColK m ρ c) (srcColK m ρ c)
          (m ((c : Thread nD τ).loc main_arg0) : S100000x128.Idx → EReal)
          (m ((c : Thread nD τ).loc main_arg2) : S128x64.Idx → EReal)
          (fun f => (m ((c : Thread nD τ).loc main_arg3) : S64.Idx → EReal) (ix1 f))
          (m ((c : Thread nD τ).loc main_arg4) : S64x64.Idx → EReal)
          (fun f => (m ((c : Thread nD τ).loc main_arg5) : S64.Idx → EReal) (ix1 f))
          (m ((c : Thread nD τ).loc main_arg6) : S64x40.Idx → EReal)
          (fun f => (m ((c : Thread nD τ).loc main_arg7) : S40.Idx → EReal) (ix1 f)) := by
  refine (W10_result m ρ c).trans ((region3 (V9 m ρ) c).trans ?_)
  rw [d_V9, V9_v50, V9_v51, out_launch2, out_launch1, out_launch0]
  rfl

end Cert.KernelIdeal.KValue

end
-- ==== Proof.KernelGraph.lean ====
/-
  The kernel program and the reference program build their graph data by the same operations of the edge array.

  Both programs slice the two rows of the edge array, append the self-loops `0 … 99999`, count the degrees by a
  scatter-add of ones at the destination words, and take `where (deg > 0) (rsqrt deg) 0`; both wrap a negative source
  word by the node count before gathering. So the kernel's source column, destination column and inverse square roots of
  the degrees are the reference's, as functions of the edge array: each is read off the first stretches of host
  operations and is, operation by operation, the reference's term.
-/
import proofs.«126777_j452_2_alg».proof.Proof.KernelStages
import proofs.«126777_j452_2_alg».proof.Proof.RefGraph

set_option maxRecDepth 16384

noncomputable section

namespace Cert.KernelIdeal.KValue

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-- The edge array the kernel program is launched with, typed as the reference's argument. -/
abbrev x1K (c : Dev nD) : (⟨Cert.ReferenceIdeal.S2x1600000, .i32⟩ : BufTy).Contents (Elt Ideal) :=
  m ((c : Thread nD τ).loc main_arg1)

theorem v3K_eq (c : Dev nD) :
    v3K m ρ c = Cert.ReferenceIdeal.ReadP.val_main_v3 (F := Ideal) (x1K m c) := by
  show StableHlo.after hostOps0 (W0 m ρ c) (Proc.devRef .tc main_v3) = _
  after_results
  rfl

theorem v6K_eq (c : Dev nD) :
    v6K m ρ c = Cert.ReferenceIdeal.ReadP.val_main_v6 (F := Ideal) (x1K m c) := by
  show StableHlo.after hostOps0 (W0 m ρ c) (Proc.devRef .tc main_v6) = _
  after_results
  rfl

/-- The kernel's gather start indices of the sources are the reference's. -/
theorem srcColK_eq (c : Dev nD) : srcColK m ρ c = Cert.ReferenceIdeal.RefValue.srcCol (x1K m c) := by
  unfold srcColK
  rw [v3K_eq]
  rfl

/-- The kernel's scatter start indices are the reference's. -/
theorem dstColK_eq (c : Dev nD) : dstColK m ρ c = Cert.ReferenceIdeal.RefValue.dstCol (x1K m c) := by
  unfold dstColK
  rw [v6K_eq]
  rfl

/-- The last stretch before the first launch views the vector of inverse square roots as a column. -/
theorem stage_v15 (Wg : Valuation τ sig (Elt Ideal)) :
    StableHlo.after hostOps0_2 Wg (Proc.devRef .tc main_v15)
      = shapeCast S100000x1 (Wg (Proc.devRef .tc main_v14) : S100000.Idx → EReal) shapeCasts_S100000_S100000x1 := by
  after_results
  rfl

/-- The outlined `where`: the select of the comparison, the inverse square root and the broadcast zero. -/
theorem stage_v14 (Wg : Valuation τ sig (Elt Ideal)) :
    StableHlo.after hostOps0_1 Wg (Proc.devRef .tc main_v14)
      = select (Wg (Proc.devRef .tc main_v12) : S100000.Idx → BitVec 1) (Wg (Proc.devRef .tc main_v13) : S100000.Idx → EReal)
          (broadcastInDim S100000 ![] bcast_S_S100000 (id (Wg (Proc.devRef .tc main_cst_2) : S_.Idx → EReal))) := by
  after_results
  rfl

set_option maxHeartbeats 2000000 in
theorem stage_v12 (c : Dev nD) :
    (W1 m ρ c (Proc.devRef .tc main_v12) : S100000.Idx → BitVec 1)
      = Cert.ReferenceIdeal.ReadP.val_main_v12 (F := Ideal) (x1K m c) := by
  show StableHlo.after hostOps0 (W0 m ρ c) (Proc.devRef .tc main_v12) = _
  after_results_simp
  rfl

set_option maxHeartbeats 2000000 in
theorem stage_v13 (c : Dev nD) :
    (W1 m ρ c (Proc.devRef .tc main_v13) : S100000.Idx → EReal)
      = Cert.ReferenceIdeal.ReadP.val_main_v13 (F := Ideal) (x1K m c) := by
  show StableHlo.after hostOps0 (W0 m ρ c) (Proc.devRef .tc main_v13) = _
  after_results_simp
  rfl

theorem stage_cst_2 (c : Dev nD) :
    (W1 m ρ c (Proc.devRef .tc main_cst_2) : S_.Idx → EReal)
      = Cert.ReferenceIdeal.ReadP.val_main_cst_2 (F := Ideal) := by
  show StableHlo.after hostOps0 (W0 m ρ c) (Proc.devRef .tc main_cst_2) = _
  after_results_simp
  rfl

theorem v15K_eq (c : Dev nD) :
    v15K m ρ c = shapeCast S100000x1 (Cert.ReferenceIdeal.ReadP.val_main_v14 (F := Ideal) (x1K m c)) shapeCasts_S100000_S100000x1 := by
  show StableHlo.after hostOps0_2 (W2 m ρ c) (Proc.devRef .tc main_v15) = _
  rw [stage_v15]
  show shapeCast S100000x1 (StableHlo.after hostOps0_1 (W1 m ρ c) (Proc.devRef .tc main_v14)) _ = _
  rw [stage_v14, stage_v12, stage_v13, stage_cst_2]
  rfl

/-- The kernel's inverse square roots of the degrees are the reference's. -/
theorem dK_eq (c : Dev nD) : dK m ρ c = Cert.ReferenceIdeal.RefValue.dinvR (x1K m c) := by
  funext n
  unfold dK Cert.ReferenceIdeal.RefValue.dinvR
  rw [v15K_eq]
  exact shapeCast_apply _ shapeCasts_S100000_S100000x1 (ix2 n 0) (ix1 n)
    (by rewrite [Shape.rowMajor_val_one, Shape.rowMajor_val_two]; show n.val = n.val * 1 + 0; omega)

end Cert.KernelIdeal.KValue

end
-- ==== Proof.lean ====
/-
  A three-layer graph convolution with symmetric degree normalisation: the tiled kernel program against its reference,
  equal as functions on the extended reals for finite inputs.

  The two programs differ in where they put the normalisation `D^(-1/2) (A + I) D^(-1/2)`. The reference weights every
  edge by `dinv (source) * dinv (destination)` and sums the weighted rows of `X W` into the destinations. The kernel
  scales row `n` of `X W` by `dinv n` before the edges are summed and row `n` of the sum by `dinv n` afterwards, fusing
  that second scaling, the bias and the rectifier into the next layer's matrix product. An edge summed into node `n` has
  destination `n`, so the factor `dinv n` is common to the whole sum of node `n` and moving it out of the sum is the
  distributive law — which holds because every term is a real number: the inputs are finite by the precondition,
  `dinv` is real (the degree is a finite count, and `where (deg > 0) (rsqrt deg) 0` of a real number is real), and sums,
  products and maxima of real numbers are real (`GcnSpec.refOut_eq_kernelOut`).

  What each program computes: the kernel's result is the last launch's output array, read through the four launches
  and the gathers and scatter-adds between them (`KValue.kernel_value`, over `KValue.run_named`); the reference's result
  is its run's composed term (`RefValue.ref_is_spec`). Both build the degrees and the two columns of start indices by
  the same operations of the edge array (`KValue.dK_eq`, `dstColK_eq`, `srcColK_eq`). The kernel's idealization rewrote
  nothing, so that claim is trivial; the frames are the generated ones, the reference's its run with the result dropped.
-/
import proofs.«126777_j452_2_alg».proof.Defs
import proofs.«126777_j452_2_alg».proof.Proof.Gen.Kernel
import proofs.«126777_j452_2_alg».proof.Proof.Gen.Kernel.Skeleton
import proofs.«126777_j452_2_alg».proof.Proof.Gen.Kernel.Launch
import proofs.«126777_j452_2_alg».proof.Proof.Gen.Kernel.Points
import proofs.«126777_j452_2_alg».proof.Proof.Gen.Kernel.Frame
import proofs.«126777_j452_2_alg».proof.Proof.Gen.KernelIdeal
import proofs.«126777_j452_2_alg».proof.Proof.Gen.KernelIdeal.Skeleton
import proofs.«126777_j452_2_alg».proof.Proof.Gen.KernelIdeal.Launch
import proofs.«126777_j452_2_alg».proof.Proof.Gen.KernelIdeal.Points
import proofs.«126777_j452_2_alg».proof.Proof.Gen.KernelIdeal.Frame
import proofs.«126777_j452_2_alg».proof.Proof.Gen.ReferenceIdeal
import proofs.«126777_j452_2_alg».proof.Proof.Gen.Pre_finite_inputs
import proofs.«126777_j452_2_alg».proof.Proof.RefRunPatched
import proofs.«126777_j452_2_alg».proof.Proof.RefReadPatched
import proofs.«126777_j452_2_alg».proof.Proof.RefIsSpec
import proofs.«126777_j452_2_alg».proof.Proof.GraphLink
import proofs.«126777_j452_2_alg».proof.Proof.DinvReal
import proofs.«126777_j452_2_alg».proof.Proof.PreReal
import proofs.«126777_j452_2_alg».proof.Proof.KernelValue
import proofs.«126777_j452_2_alg».proof.Proof.KernelGraph
import Idealize.ShloMosaic.Adequacy
import Idealize.ShloMosaic.Init

noncomputable section

namespace Cert.Proof

open Idealize.ShloMosaic Idealize.ShloMosaic.TcCoe Idealize.ShloMosaic.ValueIdx Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- On finite inputs the two programs end with the same array: the network with the normalisation on the edges, of
    the reference's arguments, is the network with the normalisation on the nodes, of the kernel's. -/
theorem algebraic : Cert.algebraic_KernelIdeal_ReferenceIdeal := by
  intro m ρ m' ρ' hpre hagree
  refine ⟨fun c => Cert.KernelIdeal.Gen.W10 m ρ c (Proc.devRef .tc Cert.KernelIdeal.main_v52),
    Cert.KernelIdeal.KValue.run_named m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7⟩ := hagree c
  obtain ⟨r0, r2, r3, r4, r5, r6, r7⟩ := Cert.PreReal.real_of_pre _ _ _ _ _ _ _ _ (hpre c)
  rw [Cert.ReferenceIdeal.ReadP.val_main_v82_eq, Cert.ReferenceIdeal.RefValue.ref_is_spec, e0, e1, e2, e3, e4, e5, e6, e7]
  refine Eq.trans ?_ (Cert.KernelIdeal.KValue.kernel_value m ρ c).symm
  rw [Cert.KernelIdeal.KValue.dK_eq, Cert.KernelIdeal.KValue.dstColK_eq, Cert.KernelIdeal.KValue.srcColK_eq]
  exact GcnSpec.refOut_eq_kernelOut _ _ _ (Cert.ReferenceIdeal.RefValue.link _) (Cert.ReferenceIdeal.RefValue.dinvR_real _)
    r0 r2 (r3.comp _) r4 (r5.comp _) r6

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
